-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096x100 : Shape := ⟨2, ![4096, 100]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S4096x100 : S_.BroadcastsInDim S4096x100 (![] : Fin 0 → Fin S4096x100.rank)
  reducesTo_S4096x100_S_d0_1 : S4096x100.ReducesTo [0, 1] S_

variable [Facts]

def fn {F : FTy → Type} [FloatOps F] (main_arg0 : FVec F S4096x2x128 .f32) (main_arg1 : FVec F S4096x100 .f32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_v4 : FVec F S4096x100 .f32 := Host.absf main_arg1
  let main_cst_0 : FVec F S_ .f32 := constant S_ .f32 0x7F800000#32
  let main_v5 : FVec F S4096x100 .f32 := broadcastInDim S4096x100 ![] bcast_S_S4096x100 main_cst_0
  let main_v6 : IVec S4096x100 1 := cmpf .olt main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  main_v8
-- ==== Kernel.lean ====
abbrev S4096x2x128 : Shape := ⟨3, ![4096, 2, 128]⟩
abbrev S4096x100 : Shape := ⟨2, ![4096, 100]⟩
abbrev S8192x128 : Shape := ⟨2, ![8192, 128]⟩
abbrev S4096x1x100 : Shape := ⟨3, ![4096, 1, 100]⟩
abbrev S4096x2x100 : Shape := ⟨3, ![4096, 2, 100]⟩
abbrev S8192x100 : Shape := ⟨2, ![8192, 100]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x100 : Shape := ⟨2, ![1024, 100]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S100x1024 : Shape := ⟨2, ![100, 1024]⟩

abbrev nBuf : Space → Nat
  | .hbm => 19
  | .vmem => 18
  | .smem => 0
  | _ => 0

abbrev bufTy : (tb : Table) → Fin (tcTables nBuf tb) → BufTy
  | .hbm, ⟨0, _⟩ => ⟨S4096x2x128, .f32⟩
  | .hbm, ⟨1, _⟩ => ⟨S4096x100, .f32⟩
  | .hbm, ⟨2, _⟩ => ⟨S8192x128, .f32⟩
  | .hbm, ⟨3, _⟩ => ⟨S8192x128, .bf16⟩
  | .hbm, ⟨4, _⟩ => ⟨S4096x1x100, .f32⟩
  | .hbm, ⟨5, _⟩ => ⟨S4096x2x100, .f32⟩
  | .hbm, ⟨6, _⟩ => ⟨S8192x100, .f32⟩
  | .hbm, ⟨7, _⟩ => ⟨S8192x100, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x100, .f32⟩
  | .local _ .vmem, ⟨5, _⟩ => ⟨S1024x100, .f32⟩
  | .local _ .vmem, ⟨6, _⟩ => ⟨S1024x100, .f32⟩
  | .local _ .vmem, ⟨7, _⟩ => ⟨S1024x100, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_39 : BitVec 32 := 0#32
  let v77 : BitVec 1 := Scalar.cmpi .ne v76 c0_i32_39
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096x2x128_S8192x128 : S4096x2x128.ShapeCasts S8192x128
  bitsLt_bf16_f32 : FTy.bits .bf16 < FTy.bits .f32
  bcast_S4096x100_S4096x1x100_0_2 : S4096x100.BroadcastsInDim S4096x1x100 (![0, 2] : Fin 2 → Fin S4096x1x100.rank)
  bcast_S4096x1x100_S4096x2x100_0_1_2 : S4096x1x100.BroadcastsInDim S4096x2x100 (![0, 1, 2] : Fin 3 → Fin S4096x2x100.rank)
  shapeCasts_S4096x2x100_S8192x100 : S4096x2x100.ShapeCasts S8192x100
  reducesTo_S8192x100_S8192_d1 : S8192x100.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x100_p1_0_S100x1024 : S1024x100.Transposes [1, 0] S100x1024
  broadcasts_S1x1024_S1024x1024 : S1x1024.Broadcasts S1024x1024
  shapeCasts_S8192x1_S8192 : S8192x1.ShapeCasts S8192
  reducesTo_S8192_S_d0 : S8192.ReducesTo [0] S_
  dot_S1024x128_S128x1024_S1024x1024_1_0_0_1_n_n_wf : DotDims.WF S1024x128 S128x1024 S1024x1024 [1] [0] [0] [1] [] []
  dot_S1024x100_S100x1024_S1024x1024_1_0_0_1_n_n_wf : DotDims.WF S1024x100 S100x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S8192x100.size a
  hwx0_2 : ∀ i : grid0.Coords, EltTy.bits .f32 = 32 ∨ (Rect.block (s := S8192x100) S1024x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S8192x100.size a
  hwx0_3 : ∀ i : grid0.Coords, EltTy.bits .f32 = 32 ∨ (Rect.block (s := S8192x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x100_S100x1024_S1024x1024_1_0_0_1_n_n : DotDims S1024x100 S100x1024 S1024x1024 where
  lhsContracting := [1]
  rhsContracting := [0]
  lhsNonContracting := [0]
  rhsNonContracting := [1]
  lhsBatch := []
  rhsBatch := []
  wf := dot_S1024x100_S100x1024_S1024x1024_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096x100 : Shape := ⟨2, ![4096, 100]⟩
abbrev S4096x1x100 : Shape := ⟨3, ![4096, 1, 100]⟩
abbrev S4096x2x100 : Shape := ⟨3, ![4096, 2, 100]⟩
abbrev S8192x100 : Shape := ⟨2, ![8192, 100]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S100x8192 : Shape := ⟨2, ![100, 8192]⟩
abbrev S8192x8192 : Shape := ⟨2, ![8192, 8192]⟩
abbrev S1x8192 : Shape := ⟨2, ![1, 8192]⟩
abbrev S128x8192 : Shape := ⟨2, ![128, 8192]⟩

abbrev nBuf : Space → Nat
  | .hbm => 61
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096x100, .f32⟩
  | .hbm, ⟨2, _⟩ => ⟨S4096x1x100, .f32⟩
  | .hbm, ⟨3, _⟩ => ⟨S4096x2x100, .f32⟩
  | .hbm, ⟨4, _⟩ => ⟨S8192x100, .f32⟩
  | .hbm, ⟨5, _⟩ => ⟨S8192x128, .f32⟩
  | .hbm, ⟨6, _⟩ => ⟨S8192x100, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S100x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S128x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S4096x100_S4096x1x100_0_2 : S4096x100.BroadcastsInDim S4096x1x100 (![0, 2] : Fin 2 → Fin S4096x1x100.rank)
  bcast_S4096x1x100_S4096x2x100_0_1_2 : S4096x1x100.BroadcastsInDim S4096x2x100 (![0, 1, 2] : Fin 3 → Fin S4096x2x100.rank)
  shapeCasts_S4096x2x100_S8192x100 : S4096x2x100.ShapeCasts S8192x100
  shapeCasts_S4096x2x128_S8192x128 : S4096x2x128.ShapeCasts S8192x128
  reducesTo_S8192x100_S8192_d1 : S8192x100.ReducesTo [1] S8192
  h_S_ : 0 < S_.numel
  bcast_S8192_S8192x1_0 : S8192.BroadcastsInDim S8192x1 (![0] : Fin 1 → Fin S8192x1.rank)
  transposes_S8192x100_S100x8192_1_0 : S8192x100.Transposes [1, 0] S100x8192
  transposes_S8192x1_S1x8192_1_0 : S8192x1.Transposes [1, 0] S1x8192
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x100_S100x8192_S8192x8192_1_0_0_1_n_n_wf : DotDims.WF S8192x100 S100x8192 S8192x8192 [1] [0] [0] [1] [] []
  dot_S8192x1_S1x8192_S8192x8192_1_0_0_1_n_n_wf : DotDims.WF S8192x1 S1x8192 S8192x8192 [1] [0] [0] [1] [] []
  dot_S8192x128_S128x8192_S8192x8192_1_0_0_1_n_n_wf : DotDims.WF S8192x128 S128x8192 S8192x8192 [1] [0] [0] [1] [] []

variable [Facts₀]

def dot_S8192x100_S100x8192_S8192x8192_1_0_0_1_n_n : DotDims S8192x100 S100x8192 S8192x8192 where
  lhsContracting := [1]
  rhsContracting := [0]
  lhsNonContracting := [0]
  rhsNonContracting := [1]
  lhsBatch := []
  rhsBatch := []
  wf := dot_S8192x100_S100x8192_S8192x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.RunMid.lean ====
import proofs.«138990_j86655260164850_1_alg».proof.Proof.Gen.Kernel.Skeleton
import proofs.«138990_j86655260164850_1_alg».proof.Proof.Gen.Kernel.Launch
import proofs.«138990_j86655260164850_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point

The grid is 8 row blocks by 8 key blocks, walked key block fastest: point `t` is row block `t / 8`, key block
`t % 8`. The body resets its four running quantities at the first key block of a row block and writes the row
block's result at the last. -/

/-- The first conditional's word as the body computes it from the coordinates: the key block is the first. -/
abbrev condFirst (i : grid0.Coords) : Prop :=
  (Scalar.cmpi .ne (Scalar.extui (Scalar.cmpi .eq (BitVec.ofNat 32 (i 1).val) 0#32)) 0#32) = 1#1
/-- It holds at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The second conditional's word: the key block is the last. -/
abbrev condLast (i : grid0.Coords) : Prop := k0_cond2 i = 1#1
/-- It holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The result window is idle, and not written back, at every point but a row block's last. -/
theorem idleOut : ∀ t : Fin cfg0.N, ¬condLast (grid0.coords t) → cfg0.idle 6 (grid0.coords t) = true := by decide +kernel
theorem noFlushOut : ∀ t : Fin cfg0.N, ¬condLast (grid0.coords t) → (cfg0.win 6).flush t = false := by decide +kernel
theorem liveOut : ∀ t : Fin cfg0.N, condLast (grid0.coords t) → cfg0.idle 6 (grid0.coords t) = false := by decide +kernel
/-- The six input windows are never idle. -/
theorem liveIn : ∀ (w : Fin 7), w.val < 6 → ∀ i : grid0.Coords, cfg0.idle w i = false := by
  intro w hw i; fin_cases w <;> first | rfl | (exfalso; revert hw; decide)

set_option maxHeartbeats 1000000 in
/-- The body at a point that is neither a row block's first nor its last key block: from the six input blocks and the
    four running quantities as the point before left them, it runs to its return leaving the inputs and the result's
    buffer as they were and each running quantity with the pieces it stored (the witness the run finds). -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i)
    (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    Σ' (L0 L1 L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, fun xo E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    obtain rfl := harg9.eq_unread hg0; obtain rfl := harg10.eq_unread hg1; obtain rfl := harg11.eq_unread hg2; obtain rfl := harg12.eq_unread hg3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [S0]; · iexists _; iexact S0
    isplitl [S1]; · iexists _; iexact S1
    isplitl [S2]; · iexists _; iexact S2
    iexists _; iexact S3

end Cert.Kernel.Hand

end
-- ==== Proof.K.RunFirst.lean ====
import proofs.«138990_j86655260164850_1_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a row block's FIRST key block: the four running quantities are reset (to −∞, 0, 0, 0) before anything reads
    them, so they may come in holding anything; the inputs and the result's buffer are left as they were, and each running
    quantity ends with the pieces stored into it — the reset, then this block's update. -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i)
    (x2 : Vec F S1024x128 .bf16) (x3 : Vec F S1024x128 .bf16) (x4 : Vec F S1024x100 .f32) (x5 : Vec F S1024x100 .f32) (x6 : Vec F S1024x1 .f32) (x7 : Vec F S1x1024 .f32) :
    Σ' (L0 L1 L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, fun xo E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d0, %g0, -, S0⟩, ⟨%d1, %g1, -, S1⟩, ⟨%d2, %g2, -, S2⟩, ⟨%d3, %g3, -, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [S0]; · iexists _; iexact S0
    isplitl [S1]; · iexists _; iexact S1
    isplitl [S2]; · iexists _; iexact S2
    iexists _; iexact S3

end Cert.Kernel.Hand

end
-- ==== Proof.K.RunLast.lean ====
import proofs.«138990_j86655260164850_1_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a row block's LAST key block: the running quantities come in as the point before left them and are updated
    once more; then the row block's result is computed from them and stored whole into the result's buffer, which may
    come in holding anything. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i)
    (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    Σ' (LO L0 L1 L2 : List (View.Piece (Elt F) S1024x1 .f32)), { L3 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g0, %hg0, S0⟩, ⟨%g1, %hg1, S1⟩, ⟨%g2, %hg2, S2⟩, ⟨%g3, %hg3, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg9.eq_unread hg0; obtain rfl := harg10.eq_unread hg1; obtain rfl := harg11.eq_unread hg2; obtain rfl := harg12.eq_unread hg3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [S0]; · iexists _; iexact S0
    isplitl [S1]; · iexists _; iexact S1
    isplitl [S2]; · iexists _; iexact S2
    iexists _; iexact S3

end Cert.Kernel.Hand

end
-- ==== Proof.K.Cases.lean ====
import proofs.«138990_j86655260164850_1_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the eleven host operations before it (the features flattened
    and narrowed, the labels repeated over the two views, their row norms, the norms as a column and as a row). -/
abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, then the five operations that average the result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x100 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x100 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

/-- A view through which a column's stored pieces are read back (which buffer does not matter once the pieces cover). -/
abbrev VW : View sig .tc .vmem S1024x1 .f32 := sc0.view
/-- Pieces read back over contents nobody named. -/
def rd (L : List (View.Piece (Elt F) S1024x1 .f32)) : Vec F S1024x1 .f32 := VW.read (Elt F) (VW.writes (Elt F) VW.junk L)

/-- The four scoped buffers of the kernel, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  rw [scopedRest0_eq]; simp only [sc0, sc1, sc2, sc3, owns_whole]; try rfl

/-! ## What each case leaves, and that its pieces cover -/

/-- The five columns the body's stores touch: the result block, then the running maximum, the running sum of exponentials,
    the running masked sum of similarities and the running sum of the mask. -/
abbrev St (F : FTy → Type) : Type := Vec F S1024x1 .f32 × Vec F S1024x1 .f32 × Vec F S1024x1 .f32 × Vec F S1024x1 .f32 × Vec F S1024x1 .f32

def stFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) : St F :=
  (rd [], rd (runFirst c i arg2 harg2 arg3 harg3 arg4 harg4 arg5 harg5 arg6 harg6 arg7 harg7 arg8 harg8 arg9 harg9 arg10 harg10 arg11 harg11 arg12 harg12 hc0 hc1 x2 x3 x4 x5 x6 x7).1, rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.1,
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1, rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1)
def stMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) : St F :=
  (rd [], rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).1, rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.1,
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.1, rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.1)
def stLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) : St F :=
  (rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).1, rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.1,
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.1, rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.1,
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.2.1)

theorem coverFirst0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).1 S1024x1.size (by sl_kernel_rfl) y
theorem coverMid0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1 S1024x1.size (by sl_kernel_rfl) y
theorem coverFirst1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.1 S1024x1.size (by sl_kernel_rfl) y
theorem coverMid1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 S1024x1.size (by sl_kernel_rfl) y
theorem coverFirst2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1 S1024x1.size (by sl_kernel_rfl) y
theorem coverMid2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 S1024x1.size (by sl_kernel_rfl) y
theorem coverFirst3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1 S1024x1.size (by sl_kernel_rfl) y
theorem coverMid3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 S1024x1.size (by sl_kernel_rfl) y
theorem coverLastO (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1 S1024x1.size (by sl_kernel_rfl) y
theorem coverLast0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 S1024x1.size (by sl_kernel_rfl) y
theorem coverLast1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 S1024x1.size (by sl_kernel_rfl) y
theorem coverLast2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 S1024x1.size (by sl_kernel_rfl) y
theorem coverLast3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.2.1 S1024x1.size (by sl_kernel_rfl) y

end Cert.Kernel.Hand

end
-- ==== Proof.K.Points.lean ====
import proofs.«138990_j86655260164850_1_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the five columns hold after each point

By recursion on the point: a row block's first key block starts the running quantities afresh from its own blocks; every
later one updates what the point before left; the last one also produces the row block's result. -/

def outsAt (c : Dev nD) : (n : ℕ) → n < cfg0.N → St F
  | 0, hn => stFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      if h1 : (n + 1) % 8 = 7 then False.elim (by omega)
      else stFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 8 = 7 then
        stLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))
      else
        stMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_first (c : Dev nD) (t : Fin cfg0.N) (h0 : t.val % 8 = 0) (h1 : ¬t.val % 8 = 7) :
    outsAt m c t.val t.isLt = stFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = stMid c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = stLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the four scoped buffers at anything; afterwards each at what
    the point before left in it. -/
def PhiS (c : Dev nD) : (n : ℕ) → n ≤ cfg0.N → sProp 𝕄
  | 0, _ => iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))
  | n + 1, hn => iprop(owns (c : Thread nD τ) sc0 fullShare (outsAt m c n hn).2.1 ∗ owns (c : Thread nD τ) sc1 fullShare (outsAt m c n hn).2.2.1
      ∗ owns (c : Thread nD τ) sc2 fullShare (outsAt m c n hn).2.2.2.1 ∗ owns (c : Thread nD τ) sc3 fullShare (outsAt m c n hn).2.2.2.2)

theorem PhiS_zero (c : Dev nD) (n : ℕ) (h : n ≤ cfg0.N) (hz : n = 0) : PhiS m c n h
    = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  subst hz; rfl
theorem PhiS_succ (c : Dev nD) (n : ℕ) (hn : n < cfg0.N) :
    PhiS m c (n + 1) hn = iprop(owns (c : Thread nD τ) sc0 fullShare (outsAt m c n hn).2.1 ∗ owns (c : Thread nD τ) sc1 fullShare (outsAt m c n hn).2.2.1
      ∗ owns (c : Thread nD τ) sc2 fullShare (outsAt m c n hn).2.2.2.1 ∗ owns (c : Thread nD τ) sc3 fullShare (outsAt m c n hn).2.2.2.2) := rfl
theorem PhiS_pos (c : Dev nD) (n : ℕ) (h : n ≤ cfg0.N) (hz : n ≠ 0) :
    PhiS m c n h = iprop(owns (c : Thread nD τ) sc0 fullShare (outsAt m c (n - 1) (by omega)).2.1 ∗ owns (c : Thread nD τ) sc1 fullShare (outsAt m c (n - 1) (by omega)).2.2.1
      ∗ owns (c : Thread nD τ) sc2 fullShare (outsAt m c (n - 1) (by omega)).2.2.2.1 ∗ owns (c : Thread nD τ) sc3 fullShare (outsAt m c (n - 1) (by omega)).2.2.2.2) := by
  cases n with
  | zero => exact absurd rfl hz
  | succ n => rfl

/-! ## The pipeline's proof data -/

/-- The arrays as the region finds them; after the body each input's buffer at its block and the result's at what the point
    left; the invariant; nothing owed. The flattened features are read by two windows (a row block and a key block of the
    one array) and so are the repeated labels: each of the two holds half of its array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

/-- Input window 0's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Hand

end
-- ==== Proof.K.Body.lean ====
import proofs.«138990_j86655260164850_1_alg».proof.Proof.K.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the closed forms say which case the point is in; the
    invariant hands the body the running quantities as the point before left them (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  have hN : t.val < 64 := lt_of_lt_of_eq t.isLt (show cfg0.N = 64 from N_0)
  by_cases h0 : t.val % 8 = 0
  · by_cases h1 : t.val % 8 = 7
    · exfalso; omega
    · rw [Dat.leavesExact_idle (dats m 0 c) 6 t (idleOut t (fun h => h1 ((hcondLast t).mp h))) (noFlushOut t (fun h => h1 ((hcondLast t).mp h)))]
      rw [outsAt_first m c t h0 h1]
      unfold stFirst rd; (try dsimp only)
      by_cases hz : t.val = 0
      · rw [PhiS_castSucc m c t, PhiS_zero m c _ _ hz]
        iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        iintro ⟨H0, H1, H2, H3, H4, H5, H6, ⟨%e0, S0⟩, ⟨%e1, S1⟩, ⟨%e2, S2⟩, ⟨%e3, S3⟩⟩
        isplitl [S0 S1 S2 S3]
        · isplitl [S0]
          · unfold owns; iexists _; isplitr
            swap; · iexact S0
            ipureintro; exact View.read_writes_of_cover _ _ _ _ _ (coverFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S1]
          · unfold owns; iexists _; isplitr
            swap; · iexact S1
            ipureintro; exact View.read_writes_of_cover _ _ _ _ _ (coverFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S2]
          · unfold owns; iexists _; isplitr
            swap; · iexact S2
            ipureintro; exact View.read_writes_of_cover _ _ _ _ _ (coverFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          unfold owns; iexists _; isplitr
          swap; · iexact S3
          ipureintro; exact View.read_writes_of_cover _ _ _ _ _ (coverFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexists _; iexact S0
        isplitl [S1]; · iexists _; iexact S1
        isplitl [S2]; · iexists _; iexact S2
        isplitl [S3]; · iexists _; iexact S3
        iintro ⟨H0, H1, H2, H3, H4, H5, H6, ⟨%e0, S0⟩, ⟨%e1, S1⟩, ⟨%e2, S2⟩, ⟨%e3, S3⟩⟩
        isplitl [S0 S1 S2 S3]
        · isplitl [S0]
          · unfold owns; iexists _; isplitr
            swap; · iexact S0
            ipureintro; exact View.read_writes_of_cover _ _ _ _ _ (coverFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S1]
          · unfold owns; iexists _; isplitr
            swap; · iexact S1
            ipureintro; exact View.read_writes_of_cover _ _ _ _ _ (coverFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S2]
          · unfold owns; iexists _; isplitr
            swap; · iexact S2
            ipureintro; exact View.read_writes_of_cover _ _ _ _ _ (coverFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          unfold owns; iexists _; isplitr
          swap; · iexact S3
          ipureintro; exact View.read_writes_of_cover _ _ _ _ _ (coverFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [show (dats m 0 c).leavesExact 6 t = owns (c : Thread nD τ) (ms6 t) fullShare ((dats m 0 c).after 6 t) from by
        unfold Dat.leavesExact; rw [liveOut t ((hcondLast t).mpr h1)], after6]
      rw [outsAt_last m c t h0 h1]
      unfold stLast rd; (try dsimp only)
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) (outsAt m c (t.val - 1) (by omega)).2.1 (outsAt m c (t.val - 1) (by omega)).2.2.1 (outsAt m c (t.val - 1) (by omega)).2.2.2.1 (outsAt m c (t.val - 1) (by omega)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      isplitl [S3]; · iexact S3
      iintro ⟨H0, H1, H2, H3, H4, H5, ⟨%e6, H6⟩, ⟨%e0, S0⟩, ⟨%e1, S1⟩, ⟨%e2, S2⟩, ⟨%e3, S3⟩⟩
      isplitl [S0 S1 S2 S3]
      · isplitl [S0]
        · unfold owns; iexists _; isplitr
          swap; · iexact S0
          ipureintro; exact View.read_writes_of_cover _ _ _ _ _ (coverLast0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        isplitl [S1]
        · unfold owns; iexists _; isplitr
          swap; · iexact S1
          ipureintro; exact View.read_writes_of_cover _ _ _ _ _ (coverLast1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        isplitl [S2]
        · unfold owns; iexists _; isplitr
          swap; · iexact S2
          ipureintro; exact View.read_writes_of_cover _ _ _ _ _ (coverLast2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        unfold owns; iexists _; isplitr
        swap; · iexact S3
        ipureintro; exact View.read_writes_of_cover _ _ _ _ _ (coverLast3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
    · rw [Dat.leavesExact_idle (dats m 0 c) 6 t (idleOut t (fun h => h1 ((hcondLast t).mp h))) (noFlushOut t (fun h => h1 ((hcondLast t).mp h)))]
      rw [outsAt_mid m c t h0 h1]
      unfold stMid rd; (try dsimp only)
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (outsAt m c (t.val - 1) (by omega)).2.1 (outsAt m c (t.val - 1) (by omega)).2.2.1 (outsAt m c (t.val - 1) (by omega)).2.2.2.1 (outsAt m c (t.val - 1) (by omega)).2.2.2.2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, ⟨%e0, S0⟩, ⟨%e1, S1⟩, ⟨%e2, S2⟩, ⟨%e3, S3⟩⟩
      isplitl [S0 S1 S2 S3]
      · isplitl [S0]
        · unfold owns; iexists _; isplitr
          swap; · iexact S0
          ipureintro; exact View.read_writes_of_cover _ _ _ _ _ (coverMid0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        isplitl [S1]
        · unfold owns; iexists _; isplitr
          swap; · iexact S1
          ipureintro; exact View.read_writes_of_cover _ _ _ _ _ (coverMid1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        isplitl [S2]
        · unfold owns; iexists _; isplitr
          swap; · iexact S2
          ipureintro; exact View.read_writes_of_cover _ _ _ _ _ (coverMid2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        unfold owns; iexists _; isplitr
        swap; · iexact S3
        ipureintro; exact View.read_writes_of_cover _ _ _ _ _ (coverMid3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point; -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scoped_eq]

/-- and after the last point it gives the scoped buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨S0, S1, S2, S3⟩
  isplitl [S0]; · iexists _; iexact S0
  isplitl [S1]; · iexists _; iexact S1
  isplitl [S2]; · iexists _; iexact S2
  iexists _; iexact S3

end Cert.Kernel.Hand

end
-- ==== Proof.K.Launch.lean ====
import proofs.«138990_j86655260164850_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering the region: the arrays behind the windows -/

/-- The buffers behind the windows at region entry make the proof data's arrays: the flattened features' buffer and the
    repeated labels' buffer are each read by two windows, so each is split into its two halves; the two norm arrays and the
    result's array go to their one window whole. -/
theorem hsplit (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  have hL : (Pipeline.arrBufs (Ix := Unit) (Name := ℕ) (U := UR sig nD τ) (Lvl := ℕ) (Val := Elt F) spec0 c (V m c) : sProp 𝕄)
      = iprop((((c : Thread nD τ).loc main_v1) ↦{fullShare} V m c main_v1) ∗ (((c : Thread nD τ).loc main_v4) ↦{fullShare} V m c main_v4)
          ∗ (((c : Thread nD τ).loc main_v6) ↦{fullShare} V m c main_v6) ∗ (((c : Thread nD τ).loc main_v7) ↦{fullShare} V m c main_v7)
          ∗ (((c : Thread nD τ).loc main_v8) ↦{fullShare} V m c main_v8)) := by
    unfold Pipeline.arrBufs
    exact bigSep_eq_bigSepL_of_eq [main_v1, main_v4, main_v6, main_v7, main_v8] (by decide) (by decide) _
  rw [hL]
  unfold Dat.arrays
  rw [bigSep_W0]
  simp only [View.set_whole]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl]
  iintro ⟨H1, H4, H6, H7, H8⟩
  ihave H1' := (pointsTo_share (PosShare.mem_left_op_right fullShare)).1 $$ H1
  icases H1' with ⟨H1a, H1b⟩
  ihave H4' := (pointsTo_share (PosShare.mem_left_op_right fullShare)).1 $$ H4
  icases H4' with ⟨H4a, H4b⟩
  isplitl [H1a]; · iexact H1a
  isplitl [H1b]; · iexact H1b
  isplitl [H4a]; · iexact H4a
  isplitl [H4b]; · iexact H4b
  isplitl [H6]; · iexact H6
  isplitl [H7]; · iexact H7
  iexact H8

/-! ## The lines after the region

The five operations after the region read the result's array (flattened to a vector), sum it and divide by its length.
They run over that array at its final contents and five buffers of their own. -/

/-- Core `c`'s buffers when the last five operations start: as the region was entered, with the result's array at what
    the pipeline wrote into it. -/
def Wtail (c : Dev nD) : Valuation τ sig (Elt F) :=
  Function.update (V0 m c) (Proc.devRef .tc main_v8) ((dats m 0 c).arrAt 6 cfg0.N)

/-- The loss as the kernel's program leaves it. -/
def resultAt (c : Dev nD) : Buf (Elt F) ((c : Thread nD τ).loc main_v11) :=
  StableHlo.after hostOps1 (Wtail m c) (Proc.devRef .tc main_v11)

/-- What is kept for the end: the two arguments as the region found them and the loss. -/
def Ztail (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v11) ↦{fullShare} resultAt m c))

/-- The six buffers the last five operations touch. -/
def S6 : Finset (DevRef τ sig) := {Proc.devRef .tc main_v8, Proc.devRef .tc main_v9, Proc.devRef .tc main_cst, Proc.devRef .tc main_v10, Proc.devRef .tc main_cst_0, Proc.devRef .tc main_v11}

theorem held_S6 (c : Dev nD) (W : Valuation τ sig (Elt F)) :
    (StableHlo.held (c : Thread nD τ) S6 W : sProp 𝕄)
      = iprop((((c : Thread nD τ).loc main_v8) ↦{fullShare} W (Proc.devRef .tc main_v8)) ∗ (((c : Thread nD τ).loc main_v9) ↦{fullShare} W (Proc.devRef .tc main_v9)) ∗ (((c : Thread nD τ).loc main_cst) ↦{fullShare} W (Proc.devRef .tc main_cst)) ∗ (((c : Thread nD τ).loc main_v10) ↦{fullShare} W (Proc.devRef .tc main_v10)) ∗ (((c : Thread nD τ).loc main_cst_0) ↦{fullShare} W (Proc.devRef .tc main_cst_0)) ∗ (((c : Thread nD τ).loc main_v11) ↦{fullShare} W (Proc.devRef .tc main_v11))) := by
  unfold StableHlo.held S6
  exact bigSep_eq_bigSepL_of_eq [Proc.devRef .tc main_v8, Proc.devRef .tc main_v9, Proc.devRef .tc main_cst, Proc.devRef .tc main_v10, Proc.devRef .tc main_cst_0, Proc.devRef .tc main_v11] (by decide) (by decide) _

theorem hostOps1_in : ∀ ops ∈ ([hostOps1] : List (List (HloOp τ sig (Elt F)))), ∀ op ∈ ops, op.bufs ⊆ S6 := by
  intro ops hops op hop
  simp only [List.mem_cons, List.mem_nil_iff, or_false] at hops
  subst hops
  simp only [hostOps1, List.mem_cons, List.mem_nil_iff, or_false] at hop
  rcases hop with rfl | rfl | rfl | rfl | rfl <;>
    first
      | (rw [StableHlo.reshape_bufs]; decide)
      | (rw [StableHlo.nullary_bufs]; decide)
      | (rw [StableHlo.binary_bufs]; decide)

theorem hostOps1_fr : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the five operations writes the result's array. -/
theorem tail_keeps_v8 (W : Valuation τ sig (Elt F)) : StableHlo.after hostOps1 W (Proc.devRef .tc main_v8) = W (Proc.devRef .tc main_v8) :=
  StableHlo.after_of_forall_not_mem hostOps1 W (by
    intro op hop
    simp only [hostOps1, List.mem_cons, List.mem_nil_iff, or_false] at hop
    rcases hop with rfl | rfl | rfl | rfl | rfl <;>
      simp only [StableHlo.nullary_writes, StableHlo.unary_writes, StableHlo.binary_writes, StableHlo.reshape_writes, Finset.mem_singleton] <;>
      exact StableHlo.devRef_ne_of_ne (by decide))

/-! ## The run -/

set_option backward.isDefEq.respectTransparency.types false in
/-- At the compiled mesh, from any memory with zero counters: every weakly fair execution of @main on the TensorCores
    terminates, nothing faulting, and every final state has the loss at what the last five operations make of the
    result's array, and both arguments as the region found them. -/
theorem run_main : θ_run defs (onTc (τ := τ) (main (F := F))) (s₀ m ρ) (fun r => ∀ c : Dev nD,
      r.2.mem ((c : Thread nD τ).loc main_v11) = resultAt m c
      ∧ r.2.mem ((c : Thread nD τ).loc main_arg0) = V m c main_arg0
      ∧ r.2.mem ((c : Thread nD τ).loc main_arg1) = V m c main_arg1) :=
  Pipeline.θ_run_region_noSem_pf_tail (fun p => (cfgs p).toPCfg) (fun p => (cfgs p).toPCfg_adm) (dats m) () cellOf_inj 0 winFacts₀0 (Pipeline.PreFacts.none _)
    emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Ztail m)
    (hX := fun c => by
      rw [Pipeline.unscopedRestP_none]
      iintro H; isplitr; · iempintro
      iexact H)
    (hin := fun c => by
      iintro ⟨-, -, Hr⟩
      iapply (hin m c); iexact Hr)
    (hout := fun c => by
      iintro H
      isplitr; · iempintro
      iapply (hout m c); iexact H)
    (htail := fun c Q' => by
      rw [unscopedRest0_eq]
      unfold Dat.arrays
      rw [bigSep_W0]
      simp only [View.set_whole]
      rw [show (dats m 0 c).share 6 = fullShare from rfl]
      iintro ⟨Hk, Hb, ⟨A0, A1, A2, A3, A4, A5, A6⟩, ⟨Z0, Z1, -, -, -, -, -, -, -, Zv9, Zcst, Zv10, Zcst0, Zv11⟩⟩
      have hrun := Pipeline.wp_seqs_then (Ix := Unit) (Name := ℕ) (U := UR sig nD τ) (Lvl := ℕ) (fun p => (cfgs p).toPCfg) (defs₀ (F := F)) Variants.none c S6 [] (K := Q') [hostOps1] hostOps1_in hostOps1_fr (Wtail m c)
      iapply hrun $$ [Hb A6 Zv9 Zcst Zv10 Zcst0 Zv11]
      · isplitl [Hb]; · iexact Hb
        rw [held_S6]
        isplitl [A6]
        · rw [show Wtail m c (Proc.devRef .tc main_v8) = (dats m 0 c).arrAt 6 cfg0.N from Function.update_self ..]; iexact A6
        isplitl [Zv9]
        · rw [show Wtail m c (Proc.devRef .tc main_v9) = V m c main_v9 from Function.update_of_ne (by decide) ..]; iexact Zv9
        isplitl [Zcst]
        · rw [show Wtail m c (Proc.devRef .tc main_cst) = V m c main_cst from Function.update_of_ne (by decide) ..]; iexact Zcst
        isplitl [Zv10]
        · rw [show Wtail m c (Proc.devRef .tc main_v10) = V m c main_v10 from Function.update_of_ne (by decide) ..]; iexact Zv10
        isplitl [Zcst0]
        · rw [show Wtail m c (Proc.devRef .tc main_cst_0) = V m c main_cst_0 from Function.update_of_ne (by decide) ..]; iexact Zcst0
        rw [show Wtail m c (Proc.devRef .tc main_v11) = V m c main_v11 from Function.update_of_ne (by decide) ..]; iexact Zv11
      rw [List.flatten_cons, List.flatten_nil, List.append_nil, held_S6, tail_keeps_v8, show Wtail m c (Proc.devRef .tc main_v8) = (dats m 0 c).arrAt 6 cfg0.N from Function.update_self ..]
      iintro ⟨Hb, ⟨A6, -, -, -, -, Hres⟩⟩
      rw [Pipeline.chain_nil, wp_pure]
      imodintro
      iapply Hk
      isplitl [A0 A1 A2 A3 A4 A5 A6]
      · isplitl [A0]; · iexact A0
        isplitl [A1]; · iexact A1
        isplitl [A2]; · iexact A2
        isplitl [A3]; · iexact A3
        isplitl [A4]; · iexact A4
        isplitl [A5]; · iexact A5
        iexact A6
      unfold Ztail
      isplitl [Z0]; · iexact Z0
      isplitl [Z1]; · iexact Z1
      iexact Hres)
    (QY := fun c s => s.mem ((c : Thread nD τ).loc main_v11) = resultAt m c
      ∧ s.mem ((c : Thread nD τ).loc main_arg0) = V m c main_arg0
      ∧ s.mem ((c : Thread nD τ).loc main_arg1) = V m c main_arg1)
    (hY := fun c s' => by
      unfold Ztail
      iintro ⟨-, ⟨H0, H1, Hr⟩, HSI⟩
      icombine HSI Hr gives %hr
      icombine HSI H0 gives %h0
      icombine HSI H1 gives %h1
      imodintro
      isplitr; · ipureintro; exact ⟨Buf.eq_of_forall_mem_univ hr, Buf.eq_of_forall_mem_univ h0, Buf.eq_of_forall_mem_univ h1⟩
      iexact HSI)
    (hQ := fun s h c => (h c).2.2)

/-- None of the eleven host operations before the region writes an argument. -/
theorem pre_keeps (b : Ref sig .tc) (hb : b = main_arg0 ∨ b = main_arg1) :
    ∀ op ∈ (List.flatten [hostOps0, hostOps0_1, hostOps0_2] : List (HloOp τ sig (Elt F))), Proc.devRef .tc b ∉ op.writes := by
  intro op hop
  simp only [List.flatten_cons, List.flatten_nil, List.append_nil, hostOps0, hostOps0_1, hostOps0_2, List.cons_append, List.nil_append,
    List.mem_cons, List.mem_nil_iff, or_false] at hop
  rcases hb with rfl | rfl <;>
    rcases hop with rfl | rfl | rfl | rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide)

theorem V_arg0 (c : Dev nD) : V m c main_arg0 = m ((c : Thread nD τ).loc main_arg0) :=
  StableHlo.after_of_forall_not_mem (b := Proc.devRef .tc main_arg0) _ _ (pre_keeps main_arg0 (.inl rfl))
theorem V_arg1 (c : Dev nD) : V m c main_arg1 = m ((c : Thread nD τ).loc main_arg1) :=
  StableHlo.after_of_forall_not_mem (b := Proc.devRef .tc main_arg1) _ _ (pre_keeps main_arg1 (.inr rfl))

/-- The run with the arguments at their launch contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v11) = resultAt m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1, (h c).2.1.trans (V_arg0 m c), (h c).2.2.trans (V_arg1 m c)⟩) (run_main m ρ)

/-- The frame: it runs, and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => (h c).2) (run m ρ)

end Cert.Kernel.Hand

end
-- ==== Proof.KI.RunMid.lean ====
import proofs.«138990_j86655260164850_1_alg».proof.Proof.Gen.KernelIdeal.Skeleton
import proofs.«138990_j86655260164850_1_alg».proof.Proof.Gen.KernelIdeal.Launch
import proofs.«138990_j86655260164850_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions on the grid point

The grid is 8 row blocks by 8 key blocks, walked key block fastest: point `t` is row block `t / 8`, key block
`t % 8`. The body resets its four running quantities at the first key block of a row block and writes the row
block's result at the last. -/

/-- The first conditional's word as the body computes it from the coordinates: the key block is the first. -/
abbrev condFirst (i : grid0.Coords) : Prop :=
  (Scalar.cmpi .ne (Scalar.extui (Scalar.cmpi .eq (BitVec.ofNat 32 (i 1).val) 0#32)) 0#32) = 1#1
/-- It holds at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The second conditional's word: the key block is the last. -/
abbrev condLast (i : grid0.Coords) : Prop := k0_cond2 i = 1#1
/-- It holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The result window is idle, and not written back, at every point but a row block's last. -/
theorem idleOut : ∀ t : Fin cfg0.N, ¬condLast (grid0.coords t) → cfg0.idle 6 (grid0.coords t) = true := by decide +kernel
theorem noFlushOut : ∀ t : Fin cfg0.N, ¬condLast (grid0.coords t) → (cfg0.win 6).flush t = false := by decide +kernel
theorem liveOut : ∀ t : Fin cfg0.N, condLast (grid0.coords t) → cfg0.idle 6 (grid0.coords t) = false := by decide +kernel
/-- The six input windows are never idle. -/
theorem liveIn : ∀ (w : Fin 7), w.val < 6 → ∀ i : grid0.Coords, cfg0.idle w i = false := by
  intro w hw i; fin_cases w <;> first | rfl | (exfalso; revert hw; decide)

set_option maxHeartbeats 1000000 in
/-- The body at a point that is neither a row block's first nor its last key block: from the six input blocks and the
    four running quantities as the point before left them, it runs to its return leaving the inputs and the result's
    buffer as they were and each running quantity with the pieces it stored (the witness the run finds). -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i)
    (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    Σ' (L0 L1 L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, fun xo E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, S0⟩, ⟨%g1, %hg1, S1⟩, ⟨%g2, %hg2, S2⟩, ⟨%g3, %hg3, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    obtain rfl := harg9.eq_unread hg0; obtain rfl := harg10.eq_unread hg1; obtain rfl := harg11.eq_unread hg2; obtain rfl := harg12.eq_unread hg3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [S0]; · iexists _; iexact S0
    isplitl [S1]; · iexists _; iexact S1
    isplitl [S2]; · iexists _; iexact S2
    iexists _; iexact S3

end Cert.KernelIdeal.Hand

end
-- ==== Proof.KI.RunFirst.lean ====
import proofs.«138990_j86655260164850_1_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a row block's FIRST key block: the four running quantities are reset (to −∞, 0, 0, 0) before anything reads
    them, so they may come in holding anything; the inputs and the result's buffer are left as they were, and each running
    quantity ends with the pieces stored into it — the reset, then this block's update. -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i)
    (x2 : Vec F S1024x128 .bf16) (x3 : Vec F S1024x128 .bf16) (x4 : Vec F S1024x100 .f32) (x5 : Vec F S1024x100 .f32) (x6 : Vec F S1024x1 .f32) (x7 : Vec F S1x1024 .f32) :
    Σ' (L0 L1 L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, fun xo E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d0, %g0, -, S0⟩, ⟨%d1, %g1, -, S1⟩, ⟨%d2, %g2, -, S2⟩, ⟨%d3, %g3, -, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [S0]; · iexists _; iexact S0
    isplitl [S1]; · iexists _; iexact S1
    isplitl [S2]; · iexists _; iexact S2
    iexists _; iexact S3

end Cert.KernelIdeal.Hand

end
-- ==== Proof.KI.RunLast.lean ====
import proofs.«138990_j86655260164850_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a row block's LAST key block: the running quantities come in as the point before left them and are updated
    once more; then the row block's result is computed from them and stored whole into the result's buffer, which may
    come in holding anything. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i)
    (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    Σ' (LO L0 L1 L2 : List (View.Piece (Elt F) S1024x1 .f32)), { L3 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3)) -∗ K ⟨⟩))
          ⊢ wp frame (wpE (defs₀ (F := F)) Variants.none c none) E (cc0__gen_sup_con_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g0, %hg0, S0⟩, ⟨%g1, %hg1, S1⟩, ⟨%g2, %hg2, S2⟩, ⟨%g3, %hg3, S3⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg9.eq_unread hg0; obtain rfl := harg10.eq_unread hg1; obtain rfl := harg11.eq_unread hg2; obtain rfl := harg12.eq_unread hg3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [S0]; · iexists _; iexact S0
    isplitl [S1]; · iexists _; iexact S1
    isplitl [S2]; · iexists _; iexact S2
    iexists _; iexact S3

end Cert.KernelIdeal.Hand

end
-- ==== Proof.KI.Cases.lean ====
import proofs.«138990_j86655260164850_1_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the eleven host operations before it (the features flattened
    and narrowed, the labels repeated over the two views, their row norms, the norms as a column and as a row). -/
abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, then the five operations that average the result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x100 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x100 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

/-- A view through which a column's stored pieces are read back (which buffer does not matter once the pieces cover). -/
abbrev VW : View sig .tc .vmem S1024x1 .f32 := sc0.view
/-- Pieces read back over contents nobody named. -/
def rd (L : List (View.Piece (Elt F) S1024x1 .f32)) : Vec F S1024x1 .f32 := VW.read (Elt F) (VW.writes (Elt F) VW.junk L)

/-- The four scoped buffers of the kernel, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  rw [scopedRest0_eq]; simp only [sc0, sc1, sc2, sc3, owns_whole]; try rfl

/-! ## What each case leaves, and that its pieces cover -/

/-- The five columns the body's stores touch: the result block, then the running maximum, the running sum of exponentials,
    the running masked sum of similarities and the running sum of the mask. -/
abbrev St (F : FTy → Type) : Type := Vec F S1024x1 .f32 × Vec F S1024x1 .f32 × Vec F S1024x1 .f32 × Vec F S1024x1 .f32 × Vec F S1024x1 .f32

def stFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) : St F :=
  (rd [], rd (runFirst c i arg2 harg2 arg3 harg3 arg4 harg4 arg5 harg5 arg6 harg6 arg7 harg7 arg8 harg8 arg9 harg9 arg10 harg10 arg11 harg11 arg12 harg12 hc0 hc1 x2 x3 x4 x5 x6 x7).1, rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.1,
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1, rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1)
def stMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) : St F :=
  (rd [], rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).1, rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.1,
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.1, rd (runMid c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.1)
def stLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) : St F :=
  (rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).1, rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.1,
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.1, rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.1,
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2).2.2.2.2.1)

theorem coverFirst0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).1 S1024x1.size (by sl_kernel_rfl) y
theorem coverMid0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1 S1024x1.size (by sl_kernel_rfl) y
theorem coverFirst1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.1 S1024x1.size (by sl_kernel_rfl) y
theorem coverMid1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 S1024x1.size (by sl_kernel_rfl) y
theorem coverFirst2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1 S1024x1.size (by sl_kernel_rfl) y
theorem coverMid2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 S1024x1.size (by sl_kernel_rfl) y
theorem coverFirst3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1 S1024x1.size (by sl_kernel_rfl) y
theorem coverMid3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 S1024x1.size (by sl_kernel_rfl) y
theorem coverLastO (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1 S1024x1.size (by sl_kernel_rfl) y
theorem coverLast0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 S1024x1.size (by sl_kernel_rfl) y
theorem coverLast1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 S1024x1.size (by sl_kernel_rfl) y
theorem coverLast2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 S1024x1.size (by sl_kernel_rfl) y
theorem coverLast3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.2.1 S1024x1.size (by sl_kernel_rfl) y

end Cert.KernelIdeal.Hand

end
-- ==== Proof.KI.Points.lean ====
import proofs.«138990_j86655260164850_1_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the five columns hold after each point

By recursion on the point: a row block's first key block starts the running quantities afresh from its own blocks; every
later one updates what the point before left; the last one also produces the row block's result. -/

def outsAt (c : Dev nD) : (n : ℕ) → n < cfg0.N → St F
  | 0, hn => stFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      if h1 : (n + 1) % 8 = 7 then False.elim (by omega)
      else stFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 8 = 7 then
        stLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))
      else
        stMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_first (c : Dev nD) (t : Fin cfg0.N) (h0 : t.val % 8 = 0) (h1 : ¬t.val % 8 = 7) :
    outsAt m c t.val t.isLt = stFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = stMid c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = stLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the four scoped buffers at anything; afterwards each at what
    the point before left in it. -/
def PhiS (c : Dev nD) : (n : ℕ) → n ≤ cfg0.N → sProp 𝕄
  | 0, _ => iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))
  | n + 1, hn => iprop(owns (c : Thread nD τ) sc0 fullShare (outsAt m c n hn).2.1 ∗ owns (c : Thread nD τ) sc1 fullShare (outsAt m c n hn).2.2.1
      ∗ owns (c : Thread nD τ) sc2 fullShare (outsAt m c n hn).2.2.2.1 ∗ owns (c : Thread nD τ) sc3 fullShare (outsAt m c n hn).2.2.2.2)

theorem PhiS_zero (c : Dev nD) (n : ℕ) (h : n ≤ cfg0.N) (hz : n = 0) : PhiS m c n h
    = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) := by
  subst hz; rfl
theorem PhiS_succ (c : Dev nD) (n : ℕ) (hn : n < cfg0.N) :
    PhiS m c (n + 1) hn = iprop(owns (c : Thread nD τ) sc0 fullShare (outsAt m c n hn).2.1 ∗ owns (c : Thread nD τ) sc1 fullShare (outsAt m c n hn).2.2.1
      ∗ owns (c : Thread nD τ) sc2 fullShare (outsAt m c n hn).2.2.2.1 ∗ owns (c : Thread nD τ) sc3 fullShare (outsAt m c n hn).2.2.2.2) := rfl
theorem PhiS_pos (c : Dev nD) (n : ℕ) (h : n ≤ cfg0.N) (hz : n ≠ 0) :
    PhiS m c n h = iprop(owns (c : Thread nD τ) sc0 fullShare (outsAt m c (n - 1) (by omega)).2.1 ∗ owns (c : Thread nD τ) sc1 fullShare (outsAt m c (n - 1) (by omega)).2.2.1
      ∗ owns (c : Thread nD τ) sc2 fullShare (outsAt m c (n - 1) (by omega)).2.2.2.1 ∗ owns (c : Thread nD τ) sc3 fullShare (outsAt m c (n - 1) (by omega)).2.2.2.2) := by
  cases n with
  | zero => exact absurd rfl hz
  | succ n => rfl

/-! ## The pipeline's proof data -/

/-- The arrays as the region finds them; after the body each input's buffer at its block and the result's at what the point
    left; the invariant; nothing owed. The flattened features are read by two windows (a row block and a key block of the
    one array) and so are the repeated labels: each of the two holds half of its array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

/-- Input window 0's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Hand

end
-- ==== Proof.KI.Body.lean ====
import proofs.«138990_j86655260164850_1_alg».proof.Proof.KI.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the closed forms say which case the point is in; the
    invariant hands the body the running quantities as the point before left them (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  have hN : t.val < 64 := lt_of_lt_of_eq t.isLt (show cfg0.N = 64 from N_0)
  by_cases h0 : t.val % 8 = 0
  · by_cases h1 : t.val % 8 = 7
    · exfalso; omega
    · rw [Dat.leavesExact_idle (dats m 0 c) 6 t (idleOut t (fun h => h1 ((hcondLast t).mp h))) (noFlushOut t (fun h => h1 ((hcondLast t).mp h)))]
      rw [outsAt_first m c t h0 h1]
      unfold stFirst rd; (try dsimp only)
      by_cases hz : t.val = 0
      · rw [PhiS_castSucc m c t, PhiS_zero m c _ _ hz]
        iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        iintro ⟨H0, H1, H2, H3, H4, H5, H6, ⟨%e0, S0⟩, ⟨%e1, S1⟩, ⟨%e2, S2⟩, ⟨%e3, S3⟩⟩
        isplitl [S0 S1 S2 S3]
        · isplitl [S0]
          · unfold owns; iexists _; isplitr
            swap; · iexact S0
            ipureintro; exact View.read_writes_of_cover _ _ _ _ _ (coverFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S1]
          · unfold owns; iexists _; isplitr
            swap; · iexact S1
            ipureintro; exact View.read_writes_of_cover _ _ _ _ _ (coverFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S2]
          · unfold owns; iexists _; isplitr
            swap; · iexact S2
            ipureintro; exact View.read_writes_of_cover _ _ _ _ _ (coverFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          unfold owns; iexists _; isplitr
          swap; · iexact S3
          ipureintro; exact View.read_writes_of_cover _ _ _ _ _ (coverFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexists _; iexact S0
        isplitl [S1]; · iexists _; iexact S1
        isplitl [S2]; · iexists _; iexact S2
        isplitl [S3]; · iexists _; iexact S3
        iintro ⟨H0, H1, H2, H3, H4, H5, H6, ⟨%e0, S0⟩, ⟨%e1, S1⟩, ⟨%e2, S2⟩, ⟨%e3, S3⟩⟩
        isplitl [S0 S1 S2 S3]
        · isplitl [S0]
          · unfold owns; iexists _; isplitr
            swap; · iexact S0
            ipureintro; exact View.read_writes_of_cover _ _ _ _ _ (coverFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S1]
          · unfold owns; iexists _; isplitr
            swap; · iexact S1
            ipureintro; exact View.read_writes_of_cover _ _ _ _ _ (coverFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          isplitl [S2]
          · unfold owns; iexists _; isplitr
            swap; · iexact S2
            ipureintro; exact View.read_writes_of_cover _ _ _ _ _ (coverFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
          unfold owns; iexists _; isplitr
          swap; · iexact S3
          ipureintro; exact View.read_writes_of_cover _ _ _ _ _ (coverFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((hcondFirst t).mpr h0) (fun h => h1 ((hcondLast t).mp h)) (iblk m c 0 t) (iblk m c 1 t) (iblk m c 2 t) (iblk m c 3 t) (iblk m c 4 t) (iblk m c 5 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [show (dats m 0 c).leavesExact 6 t = owns (c : Thread nD τ) (ms6 t) fullShare ((dats m 0 c).after 6 t) from by
        unfold Dat.leavesExact; rw [liveOut t ((hcondLast t).mpr h1)], after6]
      rw [outsAt_last m c t h0 h1]
      unfold stLast rd; (try dsimp only)
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) (outsAt m c (t.val - 1) (by omega)).2.1 (outsAt m c (t.val - 1) (by omega)).2.2.1 (outsAt m c (t.val - 1) (by omega)).2.2.2.1 (outsAt m c (t.val - 1) (by omega)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      isplitl [S3]; · iexact S3
      iintro ⟨H0, H1, H2, H3, H4, H5, ⟨%e6, H6⟩, ⟨%e0, S0⟩, ⟨%e1, S1⟩, ⟨%e2, S2⟩, ⟨%e3, S3⟩⟩
      isplitl [S0 S1 S2 S3]
      · isplitl [S0]
        · unfold owns; iexists _; isplitr
          swap; · iexact S0
          ipureintro; exact View.read_writes_of_cover _ _ _ _ _ (coverLast0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        isplitl [S1]
        · unfold owns; iexists _; isplitr
          swap; · iexact S1
          ipureintro; exact View.read_writes_of_cover _ _ _ _ _ (coverLast1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        isplitl [S2]
        · unfold owns; iexists _; isplitr
          swap; · iexact S2
          ipureintro; exact View.read_writes_of_cover _ _ _ _ _ (coverLast2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
        unfold owns; iexists _; isplitr
        swap; · iexact S3
        ipureintro; exact View.read_writes_of_cover _ _ _ _ _ (coverLast3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) ((hcondLast t).mpr h1) (iblk m c 0 t) (iblk m c 1 t) (iblk m c 2 t) (iblk m c 3 t) (iblk m c 4 t) (iblk m c 5 t) _ _ _ _)
    · rw [Dat.leavesExact_idle (dats m 0 c) 6 t (idleOut t (fun h => h1 ((hcondLast t).mp h))) (noFlushOut t (fun h => h1 ((hcondLast t).mp h)))]
      rw [outsAt_mid m c t h0 h1]
      unfold stMid rd; (try dsimp only)
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (outsAt m c (t.val - 1) (by omega)).2.1 (outsAt m c (t.val - 1) (by omega)).2.2.1 (outsAt m c (t.val - 1) (by omega)).2.2.2.1 (outsAt m c (t.val - 1) (by omega)).2.2.2.2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, ⟨%e0, S0⟩, ⟨%e1, S1⟩, ⟨%e2, S2⟩, ⟨%e3, S3⟩⟩
      isplitl [S0 S1 S2 S3]
      · isplitl [S0]
        · unfold owns; iexists _; isplitr
          swap; · iexact S0
          ipureintro; exact View.read_writes_of_cover _ _ _ _ _ (coverMid0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        isplitl [S1]
        · unfold owns; iexists _; isplitr
          swap; · iexact S1
          ipureintro; exact View.read_writes_of_cover _ _ _ _ _ (coverMid1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        isplitl [S2]
        · unfold owns; iexists _; isplitr
          swap; · iexact S2
          ipureintro; exact View.read_writes_of_cover _ _ _ _ _ (coverMid2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
        unfold owns; iexists _; isplitr
        swap; · iexact S3
        ipureintro; exact View.read_writes_of_cover _ _ _ _ _ (coverMid3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point; -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scoped_eq]

/-- and after the last point it gives the scoped buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨S0, S1, S2, S3⟩
  isplitl [S0]; · iexists _; iexact S0
  isplitl [S1]; · iexists _; iexact S1
  isplitl [S2]; · iexists _; iexact S2
  iexists _; iexact S3

end Cert.KernelIdeal.Hand

end
-- ==== Proof.KI.Launch.lean ====
import proofs.«138990_j86655260164850_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Entering the region: the arrays behind the windows -/

/-- The buffers behind the windows at region entry make the proof data's arrays: the flattened features' buffer and the
    repeated labels' buffer are each read by two windows, so each is split into its two halves; the two norm arrays and the
    result's array go to their one window whole. -/
theorem hsplit (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  have hL : (Pipeline.arrBufs (Ix := Unit) (Name := ℕ) (U := UR sig nD τ) (Lvl := ℕ) (Val := Elt F) spec0 c (V m c) : sProp 𝕄)
      = iprop((((c : Thread nD τ).loc main_v1) ↦{fullShare} V m c main_v1) ∗ (((c : Thread nD τ).loc main_v4) ↦{fullShare} V m c main_v4)
          ∗ (((c : Thread nD τ).loc main_v6) ↦{fullShare} V m c main_v6) ∗ (((c : Thread nD τ).loc main_v7) ↦{fullShare} V m c main_v7)
          ∗ (((c : Thread nD τ).loc main_v8) ↦{fullShare} V m c main_v8)) := by
    unfold Pipeline.arrBufs
    exact bigSep_eq_bigSepL_of_eq [main_v1, main_v4, main_v6, main_v7, main_v8] (by decide) (by decide) _
  rw [hL]
  unfold Dat.arrays
  rw [bigSep_W0]
  simp only [View.set_whole]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl]
  iintro ⟨H1, H4, H6, H7, H8⟩
  ihave H1' := (pointsTo_share (PosShare.mem_left_op_right fullShare)).1 $$ H1
  icases H1' with ⟨H1a, H1b⟩
  ihave H4' := (pointsTo_share (PosShare.mem_left_op_right fullShare)).1 $$ H4
  icases H4' with ⟨H4a, H4b⟩
  isplitl [H1a]; · iexact H1a
  isplitl [H1b]; · iexact H1b
  isplitl [H4a]; · iexact H4a
  isplitl [H4b]; · iexact H4b
  isplitl [H6]; · iexact H6
  isplitl [H7]; · iexact H7
  iexact H8

/-! ## The lines after the region

The five operations after the region read the result's array (flattened to a vector), sum it and divide by its length.
They run over that array at its final contents and five buffers of their own. -/

/-- Core `c`'s buffers when the last five operations start: as the region was entered, with the result's array at what
    the pipeline wrote into it. -/
def Wtail (c : Dev nD) : Valuation τ sig (Elt F) :=
  Function.update (V0 m c) (Proc.devRef .tc main_v8) ((dats m 0 c).arrAt 6 cfg0.N)

/-- The loss as the kernel's program leaves it. -/
def resultAt (c : Dev nD) : Buf (Elt F) ((c : Thread nD τ).loc main_v11) :=
  StableHlo.after hostOps1 (Wtail m c) (Proc.devRef .tc main_v11)

/-- What is kept for the end: the two arguments as the region found them and the loss. -/
def Ztail (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v11) ↦{fullShare} resultAt m c))

/-- The six buffers the last five operations touch. -/
def S6 : Finset (DevRef τ sig) := {Proc.devRef .tc main_v8, Proc.devRef .tc main_v9, Proc.devRef .tc main_cst, Proc.devRef .tc main_v10, Proc.devRef .tc main_cst_0, Proc.devRef .tc main_v11}

theorem held_S6 (c : Dev nD) (W : Valuation τ sig (Elt F)) :
    (StableHlo.held (c : Thread nD τ) S6 W : sProp 𝕄)
      = iprop((((c : Thread nD τ).loc main_v8) ↦{fullShare} W (Proc.devRef .tc main_v8)) ∗ (((c : Thread nD τ).loc main_v9) ↦{fullShare} W (Proc.devRef .tc main_v9)) ∗ (((c : Thread nD τ).loc main_cst) ↦{fullShare} W (Proc.devRef .tc main_cst)) ∗ (((c : Thread nD τ).loc main_v10) ↦{fullShare} W (Proc.devRef .tc main_v10)) ∗ (((c : Thread nD τ).loc main_cst_0) ↦{fullShare} W (Proc.devRef .tc main_cst_0)) ∗ (((c : Thread nD τ).loc main_v11) ↦{fullShare} W (Proc.devRef .tc main_v11))) := by
  unfold StableHlo.held S6
  exact bigSep_eq_bigSepL_of_eq [Proc.devRef .tc main_v8, Proc.devRef .tc main_v9, Proc.devRef .tc main_cst, Proc.devRef .tc main_v10, Proc.devRef .tc main_cst_0, Proc.devRef .tc main_v11] (by decide) (by decide) _

theorem hostOps1_in : ∀ ops ∈ ([hostOps1] : List (List (HloOp τ sig (Elt F)))), ∀ op ∈ ops, op.bufs ⊆ S6 := by
  intro ops hops op hop
  simp only [List.mem_cons, List.mem_nil_iff, or_false] at hops
  subst hops
  simp only [hostOps1, List.mem_cons, List.mem_nil_iff, or_false] at hop
  rcases hop with rfl | rfl | rfl | rfl | rfl <;>
    first
      | (rw [StableHlo.reshape_bufs]; decide)
      | (rw [StableHlo.nullary_bufs]; decide)
      | (rw [StableHlo.binary_bufs]; decide)

theorem hostOps1_fr : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the five operations writes the result's array. -/
theorem tail_keeps_v8 (W : Valuation τ sig (Elt F)) : StableHlo.after hostOps1 W (Proc.devRef .tc main_v8) = W (Proc.devRef .tc main_v8) :=
  StableHlo.after_of_forall_not_mem hostOps1 W (by
    intro op hop
    simp only [hostOps1, List.mem_cons, List.mem_nil_iff, or_false] at hop
    rcases hop with rfl | rfl | rfl | rfl | rfl <;>
      simp only [StableHlo.nullary_writes, StableHlo.unary_writes, StableHlo.binary_writes, StableHlo.reshape_writes, Finset.mem_singleton] <;>
      exact StableHlo.devRef_ne_of_ne (by decide))

/-! ## The run -/

set_option backward.isDefEq.respectTransparency.types false in
/-- At the compiled mesh, from any memory with zero counters: every weakly fair execution of @main on the TensorCores
    terminates, nothing faulting, and every final state has the loss at what the last five operations make of the
    result's array, and both arguments as the region found them. -/
theorem run_main : θ_run defs (onTc (τ := τ) (main (F := F))) (s₀ m ρ) (fun r => ∀ c : Dev nD,
      r.2.mem ((c : Thread nD τ).loc main_v11) = resultAt m c
      ∧ r.2.mem ((c : Thread nD τ).loc main_arg0) = V m c main_arg0
      ∧ r.2.mem ((c : Thread nD τ).loc main_arg1) = V m c main_arg1) :=
  Pipeline.θ_run_region_noSem_pf_tail (fun p => (cfgs p).toPCfg) (fun p => (cfgs p).toPCfg_adm) (dats m) () cellOf_inj 0 winFacts₀0 (Pipeline.PreFacts.none _)
    emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Ztail m)
    (hX := fun c => by
      rw [Pipeline.unscopedRestP_none]
      iintro H; isplitr; · iempintro
      iexact H)
    (hin := fun c => by
      iintro ⟨-, -, Hr⟩
      iapply (hin m c); iexact Hr)
    (hout := fun c => by
      iintro H
      isplitr; · iempintro
      iapply (hout m c); iexact H)
    (htail := fun c Q' => by
      rw [unscopedRest0_eq]
      unfold Dat.arrays
      rw [bigSep_W0]
      simp only [View.set_whole]
      rw [show (dats m 0 c).share 6 = fullShare from rfl]
      iintro ⟨Hk, Hb, ⟨A0, A1, A2, A3, A4, A5, A6⟩, ⟨Z0, Z1, -, -, -, -, -, -, -, Zv9, Zcst, Zv10, Zcst0, Zv11⟩⟩
      have hrun := Pipeline.wp_seqs_then (Ix := Unit) (Name := ℕ) (U := UR sig nD τ) (Lvl := ℕ) (fun p => (cfgs p).toPCfg) (defs₀ (F := F)) Variants.none c S6 [] (K := Q') [hostOps1] hostOps1_in hostOps1_fr (Wtail m c)
      iapply hrun $$ [Hb A6 Zv9 Zcst Zv10 Zcst0 Zv11]
      · isplitl [Hb]; · iexact Hb
        rw [held_S6]
        isplitl [A6]
        · rw [show Wtail m c (Proc.devRef .tc main_v8) = (dats m 0 c).arrAt 6 cfg0.N from Function.update_self ..]; iexact A6
        isplitl [Zv9]
        · rw [show Wtail m c (Proc.devRef .tc main_v9) = V m c main_v9 from Function.update_of_ne (by decide) ..]; iexact Zv9
        isplitl [Zcst]
        · rw [show Wtail m c (Proc.devRef .tc main_cst) = V m c main_cst from Function.update_of_ne (by decide) ..]; iexact Zcst
        isplitl [Zv10]
        · rw [show Wtail m c (Proc.devRef .tc main_v10) = V m c main_v10 from Function.update_of_ne (by decide) ..]; iexact Zv10
        isplitl [Zcst0]
        · rw [show Wtail m c (Proc.devRef .tc main_cst_0) = V m c main_cst_0 from Function.update_of_ne (by decide) ..]; iexact Zcst0
        rw [show Wtail m c (Proc.devRef .tc main_v11) = V m c main_v11 from Function.update_of_ne (by decide) ..]; iexact Zv11
      rw [List.flatten_cons, List.flatten_nil, List.append_nil, held_S6, tail_keeps_v8, show Wtail m c (Proc.devRef .tc main_v8) = (dats m 0 c).arrAt 6 cfg0.N from Function.update_self ..]
      iintro ⟨Hb, ⟨A6, -, -, -, -, Hres⟩⟩
      rw [Pipeline.chain_nil, wp_pure]
      imodintro
      iapply Hk
      isplitl [A0 A1 A2 A3 A4 A5 A6]
      · isplitl [A0]; · iexact A0
        isplitl [A1]; · iexact A1
        isplitl [A2]; · iexact A2
        isplitl [A3]; · iexact A3
        isplitl [A4]; · iexact A4
        isplitl [A5]; · iexact A5
        iexact A6
      unfold Ztail
      isplitl [Z0]; · iexact Z0
      isplitl [Z1]; · iexact Z1
      iexact Hres)
    (QY := fun c s => s.mem ((c : Thread nD τ).loc main_v11) = resultAt m c
      ∧ s.mem ((c : Thread nD τ).loc main_arg0) = V m c main_arg0
      ∧ s.mem ((c : Thread nD τ).loc main_arg1) = V m c main_arg1)
    (hY := fun c s' => by
      unfold Ztail
      iintro ⟨-, ⟨H0, H1, Hr⟩, HSI⟩
      icombine HSI Hr gives %hr
      icombine HSI H0 gives %h0
      icombine HSI H1 gives %h1
      imodintro
      isplitr; · ipureintro; exact ⟨Buf.eq_of_forall_mem_univ hr, Buf.eq_of_forall_mem_univ h0, Buf.eq_of_forall_mem_univ h1⟩
      iexact HSI)
    (hQ := fun s h c => (h c).2.2)

/-- None of the eleven host operations before the region writes an argument. -/
theorem pre_keeps (b : Ref sig .tc) (hb : b = main_arg0 ∨ b = main_arg1) :
    ∀ op ∈ (List.flatten [hostOps0, hostOps0_1, hostOps0_2] : List (HloOp τ sig (Elt F))), Proc.devRef .tc b ∉ op.writes := by
  intro op hop
  simp only [List.flatten_cons, List.flatten_nil, List.append_nil, hostOps0, hostOps0_1, hostOps0_2, List.cons_append, List.nil_append,
    List.mem_cons, List.mem_nil_iff, or_false] at hop
  rcases hb with rfl | rfl <;>
    rcases hop with rfl | rfl | rfl | rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide)

theorem V_arg0 (c : Dev nD) : V m c main_arg0 = m ((c : Thread nD τ).loc main_arg0) :=
  StableHlo.after_of_forall_not_mem (b := Proc.devRef .tc main_arg0) _ _ (pre_keeps main_arg0 (.inl rfl))
theorem V_arg1 (c : Dev nD) : V m c main_arg1 = m ((c : Thread nD τ).loc main_arg1) :=
  StableHlo.after_of_forall_not_mem (b := Proc.devRef .tc main_arg1) _ _ (pre_keeps main_arg1 (.inr rfl))

/-- The run with the arguments at their launch contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v11) = resultAt m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1, (h c).2.1.trans (V_arg0 m c), (h c).2.2.trans (V_arg1 m c)⟩) (run_main m ρ)

/-- The frame: it runs, and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => (h c).2) (run m ρ)

end Cert.KernelIdeal.Hand

end
-- ==== Proof.KI.Pieces.lean ====
import proofs.«138990_j86655260164850_1_alg».proof.Proof.KI.Launch
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline

/-- A whole-buffer rectangle starts at the origin. -/
theorem hz2 : (![0, 0] : Fin 2 → ℕ) = fun _ => 0 := by funext a; fin_cases a <;> rfl

/-! ## What each case's stores leave, as the body's arithmetic over what it loaded

At every point the body updates its four running columns from the six input blocks and the columns' contents; the first
key block of a row block starts from the reset values; the last one also forms the row block's result. -/

theorem pieceMid0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1 = k0_pay13 (k0_pay9 x2 x3 s0) := by
  unfold rd
  rw [View.read_writes_junk_eq_canon]
  unfold runMid; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceMid1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 = k0_pay12 (k0_pay10 x2 x3 s0 s0 s1) (k0_pay11 i x2 x3 s0) := by
  unfold rd
  rw [View.read_writes_junk_eq_canon]
  unfold runMid; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceMid2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 = k0_pay15 (k0_pay7 x2 x3) (k0_pay8 i) x4 x5 x6 x7 s2 := by
  unfold rd
  rw [View.read_writes_junk_eq_canon]
  unfold runMid; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceMid3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runMid c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 = k0_pay1 (k0_pay16 (k0_pay8 i) x4 x5 x6 x7 s3) := by
  unfold rd
  rw [View.read_writes_junk_eq_canon]
  unfold runMid; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceFirst0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) :
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).1 = k0_pay13 (k0_pay9 x2 x3 (k0_pay3 (F := F))) := by
  unfold rd
  rw [View.read_writes_junk_eq_canon]
  unfold runFirst; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceFirst1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) :
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.1 = k0_pay12 (k0_pay10 x2 x3 (k0_pay3 (F := F)) (k0_pay3 (F := F)) (k0_pay4 (F := F))) (k0_pay11 i x2 x3 (k0_pay3 (F := F))) := by
  unfold rd
  rw [View.read_writes_junk_eq_canon]
  unfold runFirst; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceFirst2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) :
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.1 = k0_pay15 (k0_pay7 x2 x3) (k0_pay8 i) x4 x5 x6 x7 (k0_pay5 (F := F)) := by
  unfold rd
  rw [View.read_writes_junk_eq_canon]
  unfold runFirst; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceFirst3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) :
    rd (runFirst c i arg2 harg2 arg3 harg3 arg4 harg4 arg5 harg5 arg6 harg6 arg7 harg7 arg8 harg8 arg9 harg9 arg10 harg10 arg11 harg11 arg12 harg12 hc0 hc1 x2 x3 x4 x5 x6 x7).2.2.2.1 = k0_pay1 (k0_pay16 (k0_pay8 i) x4 x5 x6 x7 (k0_pay6 (F := F))) := by
  unfold rd
  rw [View.read_writes_junk_eq_canon]
  unfold runFirst; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceLast0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.1 = k0_pay13 (k0_pay9 x2 x3 s0) := by
  unfold rd
  rw [View.read_writes_junk_eq_canon]
  unfold runLast; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceLast1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.1 = k0_pay12 (k0_pay10 x2 x3 s0 s0 s1) (k0_pay11 i x2 x3 s0) := by
  unfold rd
  rw [View.read_writes_junk_eq_canon]
  unfold runLast; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceLast2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.1 = k0_pay15 (k0_pay7 x2 x3) (k0_pay8 i) x4 x5 x6 x7 s2 := by
  unfold rd
  rw [View.read_writes_junk_eq_canon]
  unfold runLast; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceLast3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).2.2.2.2.1 = k0_pay1 (k0_pay16 (k0_pay8 i) x4 x5 x6 x7 s3) := by
  unfold rd
  rw [View.read_writes_junk_eq_canon]
  unfold runLast; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

theorem pieceLastO (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s0 s1 s2 s3 : Vec F S1024x1 .f32) :
    rd (runLast c i arg2 harg2 arg3 harg3 arg4 harg4 arg5 harg5 arg6 harg6 arg7 harg7 arg8 harg8 arg9 harg9 arg10 harg10 arg11 harg11 arg12 harg12 hc0 hc1 x2 x3 x4 x5 x6 x7 s0 s1 s2 s3).1
      = k0_pay2 (k0_pay13 (k0_pay9 x2 x3 s0)) (k0_pay12 (k0_pay10 x2 x3 s0 s0 s1) (k0_pay11 i x2 x3 s0)) (k0_pay15 (k0_pay7 x2 x3) (k0_pay8 i) x4 x5 x6 x7 s2) (k0_pay1 (k0_pay16 (k0_pay8 i) x4 x5 x6 x7 s3)) (k0_pay1 (k0_pay16 (k0_pay8 i) x4 x5 x6 x7 s3)) := by
  unfold rd
  rw [View.read_writes_junk_eq_canon]
  unfold runLast; dsimp only
  sl_unfold_words
  first | rw [View.canon_unit_zero hz2] | rw [View.canon_cons_unit_zero hz2]
  simp only [View.readAt_eq_ld, Memref.IsWhole.read_unread, View.ld_unit_zero (S := S1024x128) hz2, View.ld_unit_zero (S := S1024x100) hz2,
    View.ld_unit_zero (S := S1024x1) hz2, View.ld_unit_zero (S := S1x1024) hz2, View.readCov_unit_zero (S := S1024x1) _ hz2]
  try rfl

end Cert.KernelIdeal.Hand

end
-- ==== Proof.KI.Blocks.lean ====
import proofs.«138990_j86655260164850_1_alg».proof.Proof.KI.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Which rows and columns a point's blocks are

Point `t` is row block `t / 8` and key block `t % 8`: the first feature window, the first label window, the norm column and
the result take the row block's 1024 rows; the second feature window, the second label window and the norm row take the key
block's. -/

theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0 :=
  (by decide +kernel : ∀ t : Fin grid0.N, _)

theorem t_lt (t : Fin cfg0.N) : t.val < 64 := lt_of_lt_of_eq t.isLt (show cfg0.N = 64 from N_0)

/-- Row `r` of block `b` of 1024 rows. -/
def rowOf (b : ℕ) (hb : b < 8) (r : Fin 1024) : Fin 8192 := ⟨1024 * b + r.val, by have := r.isLt; omega⟩

theorem rb_lt (t : Fin cfg0.N) : t.val / 8 < 8 := by have := t_lt t; omega
theorem kb_lt (t : Fin cfg0.N) : t.val % 8 < 8 := Nat.mod_lt _ (by decide)

theorem iblk0_apply (c : Dev nD) (t : Fin cfg0.N) (r : Fin 1024) (d : Fin 128) :
    iblk m c 0 t (ix2 r d) = V m c main_v1 (ix2 (rowOf (t.val / 8) (rb_lt t) r) d) := by
  obtain ⟨e00, e01, -⟩ := idx_facts t
  show V m c main_v1 (((cfg0.win 0).blk t).view.emb (ix2 r d)) = _
  refine congrArg (V m c main_v1) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 128 + 1 * d.val = d.val; omega

theorem iblk1_apply (c : Dev nD) (t : Fin cfg0.N) (r : Fin 1024) (d : Fin 128) :
    iblk m c 1 t (ix2 r d) = V m c main_v1 (ix2 (rowOf (t.val % 8) (kb_lt t) r) d) := by
  obtain ⟨-, -, e10, e11, -⟩ := idx_facts t
  show V m c main_v1 (((cfg0.win 1).blk t).view.emb (ix2 r d)) = _
  refine congrArg (V m c main_v1) (funext fun a => Fin.ext ?_)
  match a with
  | ⟨0, _⟩ => show win0_1.index t (0 : Fin 2) * 1024 + 1 * r.val = 1024 * (t.val % 8) + r.val; omega
  | ⟨1, _⟩ => show win0_1.index t (1 : Fin 2) * 128 + 1 * d.val = d.val; omega

theorem iblk2_apply (c : Dev nD) (t : Fin cfg0.N) (r : Fin 1024) (k : Fin 100) :
    iblk m c 2 t (ix2 r k) = V m c main_v4 (ix2 (rowOf (t.val / 8) (rb_lt t) r) k) := by
  obtain ⟨-, -, -, -, e20, e21, -⟩ := idx_facts t
  show V m c main_v4 (((cfg0.win 2).blk t).view.emb (ix2 r k)) = _
  refine congrArg (V m c main_v4) (funext fun a => Fin.ext ?_)
  match a with
  | ⟨0, _⟩ => show win0_2.index t (0 : Fin 2) * 1024 + 1 * r.val = 1024 * (t.val / 8) + r.val; omega
  | ⟨1, _⟩ => show win0_2.index t (1 : Fin 2) * 100 + 1 * k.val = k.val; omega

theorem iblk3_apply (c : Dev nD) (t : Fin cfg0.N) (r : Fin 1024) (k : Fin 100) :
    iblk m c 3 t (ix2 r k) = V m c main_v4 (ix2 (rowOf (t.val % 8) (kb_lt t) r) k) := by
  obtain ⟨-, -, -, -, -, -, e30, e31, -⟩ := idx_facts t
  show V m c main_v4 (((cfg0.win 3).blk t).view.emb (ix2 r k)) = _
  refine congrArg (V m c main_v4) (funext fun a => Fin.ext ?_)
  match a with
  | ⟨0, _⟩ => show win0_3.index t (0 : Fin 2) * 1024 + 1 * r.val = 1024 * (t.val % 8) + r.val; omega
  | ⟨1, _⟩ => show win0_3.index t (1 : Fin 2) * 100 + 1 * k.val = k.val; omega

theorem iblk4_apply (c : Dev nD) (t : Fin cfg0.N) (r : Fin 1024) (u : Fin 1) :
    iblk m c 4 t (ix2 r u) = V m c main_v6 (ix2 (rowOf (t.val / 8) (rb_lt t) r) (0 : Fin 1)) := by
  obtain ⟨-, -, -, -, -, -, -, -, e40, e41, -⟩ := idx_facts t
  show V m c main_v6 (((cfg0.win 4).blk t).view.emb (ix2 r u)) = _
  refine congrArg (V m c main_v6) (funext fun a => Fin.ext ?_)
  match a with
  | ⟨0, _⟩ => show win0_4.index t (0 : Fin 2) * 1024 + 1 * r.val = 1024 * (t.val / 8) + r.val; omega
  | ⟨1, _⟩ => show win0_4.index t (1 : Fin 2) * 1 + 1 * u.val = 0; have := u.isLt; omega

theorem iblk5_apply (c : Dev nD) (t : Fin cfg0.N) (u : Fin 1) (k : Fin 1024) :
    iblk m c 5 t (ix2 u k) = V m c main_v7 (ix2 (0 : Fin 1) (rowOf (t.val % 8) (kb_lt t) k)) := by
  obtain ⟨-, -, -, -, -, -, -, -, -, -, e50, e51, -⟩ := idx_facts t
  show V m c main_v7 (((cfg0.win 5).blk t).view.emb (ix2 u k)) = _
  refine congrArg (V m c main_v7) (funext fun a => Fin.ext ?_)
  match a with
  | ⟨0, _⟩ => show win0_5.index t (0 : Fin 2) * 1 + 1 * u.val = 0; have := u.isLt; omega
  | ⟨1, _⟩ => show win0_5.index t (1 : Fin 2) * 1024 + 1 * k.val = 1024 * (t.val % 8) + k.val; omega

end Cert.KernelIdeal.Hand

end
-- ==== Proof.KI.NewState.lean ====
import proofs.«138990_j86655260164850_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One key block's update of the four running columns, as one function

At every point the body replaces the running maximum, the running sum of exponentials, the running weighted sum of
similarities and the running sum of weights by functions of the point's six blocks and the old columns; at a row block's
last key block it also forms the result from the four new columns. -/

def new0 (x2 x3 : Vec F S1024x128 .bf16) (x4 x5 : Vec F S1024x100 .f32) (x6 : Vec F S1024x1 .f32) (x7 : Vec F S1x1024 .f32) (s0 : Vec F S1024x1 .f32) : Vec F S1024x1 .f32 := k0_pay13 (k0_pay9 x2 x3 s0)
def new1 (i : grid0.Coords) (x2 x3 : Vec F S1024x128 .bf16) (x4 x5 : Vec F S1024x100 .f32) (x6 : Vec F S1024x1 .f32) (x7 : Vec F S1x1024 .f32) (s0 s1 : Vec F S1024x1 .f32) : Vec F S1024x1 .f32 :=
  k0_pay12 (k0_pay10 x2 x3 s0 s0 s1) (k0_pay11 i x2 x3 s0)
def new2 (i : grid0.Coords) (x2 x3 : Vec F S1024x128 .bf16) (x4 x5 : Vec F S1024x100 .f32) (x6 : Vec F S1024x1 .f32) (x7 : Vec F S1x1024 .f32) (s2 : Vec F S1024x1 .f32) : Vec F S1024x1 .f32 :=
  k0_pay15 (k0_pay7 x2 x3) (k0_pay8 i) x4 x5 x6 x7 s2
def new3 (i : grid0.Coords) (x2 x3 : Vec F S1024x128 .bf16) (x4 x5 : Vec F S1024x100 .f32) (x6 : Vec F S1024x1 .f32) (x7 : Vec F S1x1024 .f32) (s3 : Vec F S1024x1 .f32) : Vec F S1024x1 .f32 :=
  k0_pay1 (k0_pay16 (k0_pay8 i) x4 x5 x6 x7 s3)
def newOut (i : grid0.Coords) (x2 x3 : Vec F S1024x128 .bf16) (x4 x5 : Vec F S1024x100 .f32) (x6 : Vec F S1024x1 .f32) (x7 : Vec F S1x1024 .f32) (s0 s1 s2 s3 : Vec F S1024x1 .f32) : Vec F S1024x1 .f32 :=
  k0_pay2 (new0 x2 x3 x4 x5 x6 x7 s0) (new1 i x2 x3 x4 x5 x6 x7 s0 s1) (new2 i x2 x3 x4 x5 x6 x7 s2) (new3 i x2 x3 x4 x5 x6 x7 s3) (new3 i x2 x3 x4 x5 x6 x7 s3)

/-- The reset values a row block's first key block starts from. -/
def reset0 : Vec F S1024x1 .f32 := k0_pay3 (F := F)
def reset1 : Vec F S1024x1 .f32 := k0_pay4 (F := F)
def reset2 : Vec F S1024x1 .f32 := k0_pay5 (F := F)
def reset3 : Vec F S1024x1 .f32 := k0_pay6 (F := F)

theorem stMid_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) :
    (stMid c i arg2 harg2 arg3 harg3 arg4 harg4 arg5 harg5 arg6 harg6 arg7 harg7 arg8 harg8 arg9 harg9 arg10 harg10 arg11 harg11 arg12 harg12 hc0 hc1 x2 x3 x4 x5 x6 x7 s).2
      = (new0 x2 x3 x4 x5 x6 x7 s.2.1, new1 i x2 x3 x4 x5 x6 x7 s.2.1 s.2.2.1, new2 i x2 x3 x4 x5 x6 x7 s.2.2.2.1, new3 i x2 x3 x4 x5 x6 x7 s.2.2.2.2) := by
  have e0 := pieceMid0 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e1 := pieceMid1 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e2 := pieceMid2 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e3 := pieceMid3 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  unfold stMid new0 new1 new2 new3
  dsimp only
  exact congr (congrArg Prod.mk e0) (congr (congrArg Prod.mk e1) (congr (congrArg Prod.mk e2) e3))

theorem stFirst_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : condFirst i) (hc1 : ¬condLast i) (x2 : Vec F S1024x128 .bf16) (x3 : Vec F S1024x128 .bf16) (x4 : Vec F S1024x100 .f32) (x5 : Vec F S1024x100 .f32) (x6 : Vec F S1024x1 .f32) (x7 : Vec F S1x1024 .f32) :
    (stFirst c i arg2 harg2 arg3 harg3 arg4 harg4 arg5 harg5 arg6 harg6 arg7 harg7 arg8 harg8 arg9 harg9 arg10 harg10 arg11 harg11 arg12 harg12 hc0 hc1 x2 x3 x4 x5 x6 x7).2
      = (new0 x2 x3 x4 x5 x6 x7 reset0, new1 i x2 x3 x4 x5 x6 x7 reset0 reset1, new2 i x2 x3 x4 x5 x6 x7 reset2, new3 i x2 x3 x4 x5 x6 x7 reset3) := by
  have e0 := pieceFirst0 c i arg2 harg2 arg3 harg3 arg4 harg4 arg5 harg5 arg6 harg6 arg7 harg7 arg8 harg8 arg9 harg9 arg10 harg10 arg11 harg11 arg12 harg12 hc0 hc1 x2 x3 x4 x5 x6 x7
  have e1 := pieceFirst1 c i arg2 harg2 arg3 harg3 arg4 harg4 arg5 harg5 arg6 harg6 arg7 harg7 arg8 harg8 arg9 harg9 arg10 harg10 arg11 harg11 arg12 harg12 hc0 hc1 x2 x3 x4 x5 x6 x7
  have e2 := pieceFirst2 c i arg2 harg2 arg3 harg3 arg4 harg4 arg5 harg5 arg6 harg6 arg7 harg7 arg8 harg8 arg9 harg9 arg10 harg10 arg11 harg11 arg12 harg12 hc0 hc1 x2 x3 x4 x5 x6 x7
  have e3 := pieceFirst3 c i arg2 harg2 arg3 harg3 arg4 harg4 arg5 harg5 arg6 harg6 arg7 harg7 arg8 harg8 arg9 harg9 arg10 harg10 arg11 harg11 arg12 harg12 hc0 hc1 x2 x3 x4 x5 x6 x7
  unfold stFirst new0 new1 new2 new3 reset0 reset1 reset2 reset3
  dsimp only
  exact congr (congrArg Prod.mk e0) (congr (congrArg Prod.mk e1) (congr (congrArg Prod.mk e2) e3))

theorem stLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x100 .f32) (harg4 : arg4.IsWhole) (arg5 : Memref sig .tc .vmem S1024x100 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬condFirst i) (hc1 : condLast i) (x2 : Vec F S1024x128 .bf16) (x3 : Vec F S1024x128 .bf16) (x4 : Vec F S1024x100 .f32) (x5 : Vec F S1024x100 .f32) (x6 : Vec F S1024x1 .f32) (x7 : Vec F S1x1024 .f32) (s : St F) :
    stLast c i arg2 harg2 arg3 harg3 arg4 harg4 arg5 harg5 arg6 harg6 arg7 harg7 arg8 harg8 arg9 harg9 arg10 harg10 arg11 harg11 arg12 harg12 hc0 hc1 x2 x3 x4 x5 x6 x7 s
      = (newOut i x2 x3 x4 x5 x6 x7 s.2.1 s.2.2.1 s.2.2.2.1 s.2.2.2.2,
          new0 x2 x3 x4 x5 x6 x7 s.2.1, new1 i x2 x3 x4 x5 x6 x7 s.2.1 s.2.2.1, new2 i x2 x3 x4 x5 x6 x7 s.2.2.2.1, new3 i x2 x3 x4 x5 x6 x7 s.2.2.2.2) := by
  have eO := pieceLastO c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e0 := pieceLast0 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e1 := pieceLast1 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e2 := pieceLast2 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  have e3 := pieceLast3 c i arg2 harg2 arg3 harg3 arg4 harg4 arg5 harg5 arg6 harg6 arg7 harg7 arg8 harg8 arg9 harg9 arg10 harg10 arg11 harg11 arg12 harg12 hc0 hc1 x2 x3 x4 x5 x6 x7 s.2.1 s.2.2.1 s.2.2.2.1 s.2.2.2.2
  unfold stLast newOut new0 new1 new2 new3
  exact congr (congrArg Prod.mk eO) (congr (congrArg Prod.mk e0) (congr (congrArg Prod.mk e1) (congr (congrArg Prod.mk e2) e3)))

/-- The grid's coordinates of a point: its row block and its key block. -/
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

end Cert.KernelIdeal.Hand

end
-- ==== Proof.Spec.lean ====
import Idealize.ShloMosaic.PureOps.Ideal
import Idealize.ShloMosaic.Lib.ValueIdx
import Mathlib.Algebra.BigOperators.Fin

noncomputable section

/-! # The supervised contrastive loss over all anchors, as one function of the two argument arrays

`N = 8192` anchors: anchor `n = 2b + t` is view `t` of sample `b`, with the feature row `x[b, t, :]` (128 numbers) and the
label row `y[b, :]` (100 numbers, shared by the sample's two views).

* the similarity of two anchors is the inner product of their feature rows divided by the temperature;
* the weight of a pair is the cosine of their label rows, and 0 on the diagonal;
* each anchor's loss is minus the weighted mean, over the other anchors, of the log-softmax of its similarities taken
  off the diagonal; the result is the mean over the anchors.

Two arrangements of one row's loss are stated: the one that keeps a running maximum, a running sum of exponentials and two
running weighted sums and combines them once at the end, and the one that forms every log-probability and sums. Everything is
over the extended reals, with the operations' conventions at the infinities (`Ideal.div`, `Ideal.exp`, `Ideal.log`). -/

namespace Cert.SupCon

open Idealize.ShloMosaic

/-! ## One row, over any finite index type -/

section Row

variable {J : Type} [Fintype J] [DecidableEq J]

/-- 0 on the diagonal, 1 off it. -/
def off (i j : J) : EReal := if i = j then 0 else 1

/-- The largest similarity of row `i` (from −∞). -/
def rowMax (S : J → J → EReal) (i : J) : EReal := Finset.univ.fold max ⊥ (S i)

/-- The sum over the other anchors of `exp` of the similarity less the row's largest. -/
def rowExp (S : J → J → EReal) (i : J) : EReal := ∑ j, Ideal.exp (S i j - rowMax S i) * off i j

/-- A row's loss, combined once at the end from four totals: `c · ((Σ W·S − (max + log Σexp) · Σ W) / (Σ W + e))`. -/
def rowLossTotals (S W : J → J → EReal) (e c : EReal) (i : J) : EReal :=
  c * Ideal.div ((∑ j, W i j * S i j) - (rowMax S i + Ideal.log (rowExp S i)) * ∑ j, W i j) ((∑ j, W i j) + e)

/-- A row's loss, from every log-probability: `c · ((Σ W · ((S − max) − log Σexp)) / (Σ W + e))`. -/
def rowLossLogProb (S W : J → J → EReal) (e c : EReal) (i : J) : EReal :=
  c * Ideal.div (∑ j, W i j * ((S i j - rowMax S i) - Ideal.log (rowExp S i))) ((∑ j, W i j) + e)

end Row

/-! ## The anchors of the two argument arrays -/

/-- Feature `d` of anchor `n`. -/
def feat (x : (⟨3, ![4096, 2, 128]⟩ : Shape).Idx → EReal) (n : Fin 8192) (d : Fin 128) : EReal :=
  x (ValueIdx.ix3 (⟨n.val / 2, by omega⟩ : Fin 4096) (⟨n.val % 2, Nat.mod_lt _ (by decide)⟩ : Fin 2) d)

/-- Label `k` of anchor `n`. -/
def lab (y : (⟨2, ![4096, 100]⟩ : Shape).Idx → EReal) (n : Fin 8192) (k : Fin 100) : EReal :=
  y (ValueIdx.ix2 (⟨n.val / 2, by omega⟩ : Fin 4096) k)

/-- The length of anchor `n`'s label row. -/
def labNorm (y : (⟨2, ![4096, 100]⟩ : Shape).Idx → EReal) (n : Fin 8192) : EReal :=
  Ideal.sqrt (∑ k : Fin 100, lab y n k * lab y n k)

/-- The reciprocal of the temperature the reference divides by: its literal is `9395241 / 134217728`. -/
def invTemp : EReal := ((134217728 / 9395241 : ℝ) : EReal)

/-- The similarity of anchors `i` and `j`. -/
def sim (x : (⟨3, ![4096, 2, 128]⟩ : Shape).Idx → EReal) (i j : Fin 8192) : EReal :=
  (∑ d : Fin 128, feat x i d * feat x j d) * invTemp

/-- The weight of the pair: the cosine of the label rows, off the diagonal. -/
def wgt (y : (⟨2, ![4096, 100]⟩ : Shape).Idx → EReal) (i j : Fin 8192) : EReal :=
  Ideal.div (∑ k : Fin 100, lab y i k * lab y j k) (labNorm y i * labNorm y j) * off i j

/-- The small constant added to the total weight, and the sign: the two programs carry the same words. -/
def epsW : EReal := Ideal.ofBits .f32 0x322BCC77#32
def negOne : EReal := Ideal.ofBits .f32 0xBF800000#32
def count : EReal := Ideal.ofBits .f32 0x46000000#32

/-- The loss with each row combined from its four totals. -/
def lossTotals (x : (⟨3, ![4096, 2, 128]⟩ : Shape).Idx → EReal) (y : (⟨2, ![4096, 100]⟩ : Shape).Idx → EReal) : EReal :=
  Ideal.div (∑ i : Fin 8192, rowLossTotals (sim x) (wgt y) epsW negOne i) count

/-- The loss with each row summed over its log-probabilities. -/
def lossLogProb (x : (⟨3, ![4096, 2, 128]⟩ : Shape).Idx → EReal) (y : (⟨2, ![4096, 100]⟩ : Shape).Idx → EReal) : EReal :=
  Ideal.div (∑ i : Fin 8192, rowLossLogProb (sim x) (wgt y) epsW negOne i) count

end Cert.SupCon

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLinearLayer.lean ====
/-
  A linear layer  mean · Wlᵀ + b + x · Wrᵀ  over the extended reals, read at an output index.

  The weights are stored [o, k] (output features by input features); a kernel transposes each weight to [k, o] and
  multiplies it from the left by an [n, k] block into a zero accumulator, so the product's (p, q) entry is the sum over
  the k input features of block (p, j) · weight (q, j).  The bias is a row [1, o] broadcast down the n rows.  The whole
  layer at (p, q) is therefore

      (∑ j, mean (p, j) · Wl (q, j)) + b (0, q) + ∑ j, x (p, j) · Wr (q, j),

  associated as the operations are applied: the first product, then the bias, then the second product.
  A change of float format on the way into a product is the identity on extended reals.
-/
import Idealize.ShloMosaic.Lib.ValueIdx
import Idealize.ShloMosaic.Lib.ValueLayout
import Idealize.ShloMosaic.Lib.Pipeline.Value
import Idealize.ShloMosaic.PureOps.Ideal.Laws
import proofs.«138990_j86655260164850_1_alg».proof.Proof.LibPlainDot

noncomputable section

namespace Cert.Lib.LinearLayer

open Idealize.ShloMosaic Idealize.ShloMosaic.ValueIdx

/-- An [a, b] array of extended reals. -/
abbrev Mat (a b : Nat) : Type := (⟨2, ![a, b]⟩ : Shape).Idx → EReal

/-- The layer at row `p`, output feature `q`. -/
def lin {n k o : Nat} (mean x : Mat n k) (Wl Wr : Mat o k) (b : Mat 1 o) (p : Fin n) (q : Fin o) : EReal :=
  (∑ j : Fin k, mean (ix2 p j) * Wl (ix2 q j)) + b (ix2 (0 : Fin 1) q) + ∑ j : Fin k, x (ix2 p j) * Wr (ix2 q j)

/-- One product with a bias: `z · Wᵀ + b` at row `p`, output feature `q`. -/
def proj {n k o : Nat} (z : Mat n k) (W : Mat o k) (b : Mat 1 o) (p : Fin n) (q : Fin o) : EReal :=
  (∑ j : Fin k, z (ix2 p j) * W (ix2 q j)) + b (ix2 (0 : Fin 1) q)

/-- The layer over whole arrays. -/
def layer {n k o : Nat} (mean x : Mat n k) (Wl Wr : Mat o k) (b : Mat 1 o) : Mat n o :=
  fun i => lin mean x Wl Wr b (i 0) (i 1)

/-- The layer followed by the maximum with the f32 zero word, over whole arrays. -/
def reluLayer {n k o : Nat} (mean x : Mat n k) (Wl Wr : Mat o k) (b : Mat 1 o) : Mat n o :=
  fun i => max (lin mean x Wl Wr b (i 0) (i 1)) (Ideal.ofBits .f32 0x00000000#32)

/-- The product with a bias over whole arrays. -/
def projLayer {n k o : Nat} (z : Mat n k) (W : Mat o k) (b : Mat 1 o) : Mat n o :=
  fun i => proj z W b (i 0) (i 1)

/-- A block times a transposed weight into a zero accumulator, at (p, q): the sum over the shared axis of
    block (p, j) · weight (q, j). -/
theorem matmul_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (Cert.Lib.plainDot M K N wf) prec l (transpose ⟨2, ![K, N]⟩ [1, 0] w ht)
        (constant (F := Ideal) ⟨2, ![M, N]⟩ .f32 0x00000000#32) (ix2 p q)
      = ∑ j : Fin K, l (ix2 p j) * w (ix2 q j) := by
  rw [Cert.Lib.matmul_zero_apply]
  exact Finset.sum_congr rfl fun j _ => by rw [transpose_ix2_apply]

/-- The host's product of an array with a transposed weight, at (p, q). -/
theorem dotGeneral_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.dotGeneral (Cert.Lib.plainDot M K N wf) prec sched l (transpose ⟨2, ![K, N]⟩ [1, 0] w ht) (ix2 p q)
      = ∑ j : Fin K, l (ix2 p j) * w (ix2 q j) := by
  rw [Cert.Lib.dotGeneral_plain_apply]
  exact Finset.sum_congr rfl fun j _ => by rw [transpose_ix2_apply]

end Cert.Lib.LinearLayer

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibMaskBit.lean ====
/-
  A one-bit mask word that is set exactly when a proposition holds. Independent of any program.

  A comparison yields a one-bit word, and what is known of it is a proposition: the word is 1 exactly when `P` holds.
  Then a selection on the word chooses as `P` decides; the word widened to 32 bits by zero extension and converted as
  a signed integer to an extended real is 1 where `P` holds and 0 elsewhere (the widened word is 0 or 1, whose signed
  reading is itself, and the conversion is exact); and the word's complement (exclusive or with the set bit) is set
  exactly when the word is not.
-/
import Idealize.ShloMosaic.Lib.ValueIdx
import Idealize.ShloMosaic.PureOps.Ideal

namespace Cert.Lib.MaskBit

open Idealize.ShloMosaic Idealize.ShloMosaic.ValueIdx

/-- The complement of a bit is set exactly when the bit is not. -/
theorem xori_one_eq_one_iff : ∀ b : BitVec 1, IntOp.xori b 1#1 = 1#1 ↔ ¬ b = 1#1 := by decide

/-- A mask bit that is set exactly when `P` holds selects as `P` decides. -/
theorem select_of_iff {α : Type} {b : BitVec 1} {P : Prop} [Decidable P] (h : b = 1#1 ↔ P) (x y : α) :
    Scalar.select b x y = if P then x else y := by
  by_cases hb : b = 1#1
  · rw [if_pos (h.mp hb), hb, select_one]
  · rw [if_neg (fun hP => hb (h.mpr hP)), eq_zero_of_ne_one hb, select_zero]

/-- A mask bit that is set exactly when `P` holds, widened to a 32-bit word and converted as a signed integer to an
    extended real (any float format), is one where `P` holds and zero elsewhere. -/
theorem sitofp_of_iff (φ : FTy) {b : BitVec 1} {P : Prop} [Decidable P] (h : b = 1#1 ↔ P) :
    FloatOps.sitofp (F := Ideal) φ (b.setWidth 32) = if P then (1 : EReal) else 0 := by
  by_cases hb : b = 1#1
  · rw [if_pos (h.mp hb), hb]
    show ((((1#1 : BitVec 1).setWidth 32).toInt : ℝ) : EReal) = 1
    rw [show ((1#1 : BitVec 1).setWidth 32).toInt = 1 from by decide, Int.cast_one, EReal.coe_one]
  · rw [if_neg (fun hP => hb (h.mpr hP)), eq_zero_of_ne_one hb]
    show ((((0#1 : BitVec 1).setWidth 32).toInt : ℝ) : EReal) = 0
    rw [show ((0#1 : BitVec 1).setWidth 32).toInt = 0 from by decide, Int.cast_zero, EReal.coe_zero]

end Cert.Lib.MaskBit
-- ==== Proof.KI.Payloads.lean ====
import proofs.«138990_j86655260164850_1_alg».proof.Proof.Gen.KernelIdeal.Skeleton
import proofs.«138990_j86655260164850_1_alg».proof.Proof.Spec
import proofs.«138990_j86655260164850_1_alg».proof.Proof.LibLinearLayer
import proofs.«138990_j86655260164850_1_alg».proof.Proof.LibAxisMax
import proofs.«138990_j86655260164850_1_alg».proof.Proof.LibAxisSums
import proofs.«138990_j86655260164850_1_alg».proof.Proof.LibColumnBroadcast
import proofs.«138990_j86655260164850_1_alg».proof.Proof.LibColumnCast
import proofs.«138990_j86655260164850_1_alg».proof.Proof.LibMaskBit
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

noncomputable section

/-! # The block step's arithmetic, read at an index over the extended reals

Each pure value the block step computes, at explicit coordinates: a row (p), a column (q), the one column of a column
vector (u). A pointwise operation reads its operands at the same index; a reduction over the second axis is a fold (for
the maximum, from −∞) or a finite sum (from 0) over the row; a cast of a vector to a column and a column broadcast over
the columns read the operand at the row; a cast to the same shape is the identity. -/

namespace Cert.KernelIdeal.Pay

open Cert.KernelIdeal Cert.KernelIdeal.Gen Idealize.ShloMosaic Idealize.ShloMosaic.ValueIdx

/-! ## The words the step spells -/

/-- The all-ones exponent with the sign set and a zero fraction denotes −∞. -/
theorem ofBits_neg_inf : Ideal.ofBits .f32 0xFF800000#32 = ⊥ := by
  simp [Ideal.ofBits, Ideal.ieee]

/-- The biased exponent 127 with a zero fraction denotes 1. -/
theorem ofBits_one : Ideal.ofBits .f32 0x3F800000#32 = 1 := by
  simp [Ideal.ofBits, Ideal.ieee, -EReal.coe_mul]; norm_num

/-! ## Casts to the same shape -/

theorem pay13_eq (a : FVec Ideal S1024x1 .f32) : k0_pay13 a = a := shapeCast_self a _

theorem pay1_eq (a : FVec Ideal S1024x1 .f32) : k0_pay1 a = a := shapeCast_self a _

/-! ## The running sum's update: the carried column plus the block's row sums as a column -/

theorem pay12_apply (a : FVec Ideal S1024x1 .f32) (v : FVec Ideal S1024 .f32) (p : Fin 1024) (u : Fin 1) :
    k0_pay12 a v (ix2 p u) = a (ix2 p u) + v (ix1 p) := by
  unfold k0_pay12
  refine (congrFun (shapeCast_self _ _) _).trans ?_
  show a (ix2 p u) + shapeCast S1024x1 v shapeCasts_S1024_S1024x1 (ix2 p u) = _
  exact congrArg (a (ix2 p u) + ·) (Cert.Lib.shapeCast_a_a1_apply v shapeCasts_S1024_S1024x1 p u)

/-! ## The initial columns: −∞ for the running maximum, 0 for the three running sums -/

theorem pay3_apply (p : Fin 1024) (u : Fin 1) : k0_pay3 (F := Ideal) (ix2 p u) = ⊥ := by
  unfold k0_pay3
  refine (congrFun (shapeCast_self _ _) _).trans ?_
  exact ofBits_neg_inf

theorem pay4_apply (p : Fin 1024) (u : Fin 1) : k0_pay4 (F := Ideal) (ix2 p u) = 0 := by
  unfold k0_pay4
  refine (congrFun (shapeCast_self _ _) _).trans ?_
  exact Ideal.ofBits_zero_f32

theorem pay5_apply (p : Fin 1024) (u : Fin 1) : k0_pay5 (F := Ideal) (ix2 p u) = 0 := by
  unfold k0_pay5
  refine (congrFun (shapeCast_self _ _) _).trans ?_
  exact Ideal.ofBits_zero_f32

theorem pay6_apply (p : Fin 1024) (u : Fin 1) : k0_pay6 (F := Ideal) (ix2 p u) = 0 := by
  unfold k0_pay6
  refine (congrFun (shapeCast_self _ _) _).trans ?_
  exact Ideal.ofBits_zero_f32

/-! ## The running maximum: the carried one against the block's row maximum, folded from −∞ -/

theorem pay9_apply (x2 x3 : Vec Ideal S1024x128 .bf16) (a : Vec Ideal S1024x1 .f32) (p : Fin 1024) (u : Fin 1) :
    k0_pay9 x2 x3 a (ix2 p u)
      = max (a (ix2 p u)) (Finset.univ.fold max ⊥ fun k : Fin 1024 => k0_pay7 x2 x3 (ix2 p k)) := by
  unfold k0_pay9
  refine congrArg (max (a (ix2 p u))) ?_
  refine (Cert.Lib.shapeCast_a_a1_apply _ shapeCasts_S1024_S1024x1 p u).trans ?_
  refine (Cert.Lib.rowMax_apply (k0_pay7 x2 x3) 0xFF800000#32 reduces_S1024x1024_S1024 (.inl rfl) rfl p).trans ?_
  exact congrArg (fun b => (Finset.univ : Finset (Fin 1024)).fold max b fun k : Fin 1024 => k0_pay7 x2 x3 (ix2 p k))
    ofBits_neg_inf

/-! ## The carried sum of exponentials, rescaled to the new maximum -/

theorem pay10_apply (x2 x3 : Vec Ideal S1024x128 .bf16) (a b L : Vec Ideal S1024x1 .f32) (p : Fin 1024) (u : Fin 1) :
    k0_pay10 x2 x3 a b L (ix2 p u) = Ideal.exp (b (ix2 p u) - k0_pay9 x2 x3 a (ix2 p u)) * L (ix2 p u) := rfl

/-! ## The row's loss from its four totals -/

theorem pay2_apply (M L A Ms : Vec Ideal S1024x1 .f32) (p : Fin 1024) (u : Fin 1) :
    k0_pay2 M L A Ms Ms (ix2 p u)
      = Cert.SupCon.negOne * Ideal.div (A (ix2 p u) - (M (ix2 p u) + Ideal.log (L (ix2 p u))) * Ms (ix2 p u))
          (Ms (ix2 p u) + Cert.SupCon.epsW) := by
  unfold Cert.SupCon.negOne Cert.SupCon.epsW
  rfl

/-! ## The running total weight and the running weighted sum -/

theorem pay16_apply (lmv : FVec Ideal S1024x1024 .f32) (x4 x5 : Vec Ideal S1024x100 .f32) (x6 : Vec Ideal S1024x1 .f32)
    (x7 : Vec Ideal S1x1024 .f32) (a : Vec Ideal S1024x1 .f32) (p : Fin 1024) (u : Fin 1) :
    k0_pay16 lmv x4 x5 x6 x7 a (ix2 p u) = a (ix2 p u) + ∑ k : Fin 1024, k0_pay14 lmv x4 x5 x6 x7 (ix2 p k) := by
  unfold k0_pay16
  refine congrArg (a (ix2 p u) + ·) ?_
  refine (Cert.Lib.shapeCast_a_a1_apply _ shapeCasts_S1024_S1024x1 p u).trans ?_
  exact Cert.Lib.rowSum_apply (k0_pay14 lmv x4 x5 x6 x7) 0x00000000#32 reduces_S1024x1024_S1024 (.inl rfl) rfl p

theorem pay15_apply (Sm lmv : FVec Ideal S1024x1024 .f32) (x4 x5 : Vec Ideal S1024x100 .f32) (x6 : Vec Ideal S1024x1 .f32)
    (x7 : Vec Ideal S1x1024 .f32) (a : Vec Ideal S1024x1 .f32) (p : Fin 1024) (u : Fin 1) :
    k0_pay15 Sm lmv x4 x5 x6 x7 a (ix2 p u)
      = a (ix2 p u) + ∑ k : Fin 1024, k0_pay14 lmv x4 x5 x6 x7 (ix2 p k) * Sm (ix2 p k) := by
  unfold k0_pay15
  refine (congrFun (shapeCast_self _ _) _).trans ?_
  refine congrArg (a (ix2 p u) + ·) ?_
  refine (Cert.Lib.shapeCast_a_a1_apply _ shapeCasts_S1024_S1024x1 p u).trans ?_
  exact Cert.Lib.rowSum_apply (mulf (k0_pay14 lmv x4 x5 x6 x7) Sm) 0x00000000#32 reduces_S1024x1024_S1024 (.inl rfl) rfl p

/-! ## The block's sum of exponentials off the diagonal -/

theorem pay11_apply (i : grid0.Coords) (x2 x3 : Vec Ideal S1024x128 .bf16) (a : Vec Ideal S1024x1 .f32) (p : Fin 1024) :
    k0_pay11 i x2 x3 a (ix1 p)
      = ∑ k : Fin 1024, Ideal.exp (k0_pay7 x2 x3 (ix2 p k) - k0_pay9 x2 x3 a (ix2 p (0 : Fin 1)))
          * k0_pay8 (F := Ideal) i (ix2 p k) := by
  unfold k0_pay11
  refine (Cert.Lib.rowSum_apply _ 0x00000000#32 reduces_S1024x1024_S1024 (.inl rfl) rfl p).trans ?_
  refine Finset.sum_congr rfl fun k _ => ?_
  show Ideal.exp (k0_pay7 x2 x3 (ix2 p k)
      - broadcastTo S1024x1024 (k0_pay9 x2 x3 a) broadcasts_S1024x1_S1024x1024 (ix2 p k)) * k0_pay8 (F := Ideal) i (ix2 p k) = _
  rw [Cert.Lib.broadcastTo_a1_ab_apply (k0_pay9 x2 x3 a) broadcasts_S1024x1_S1024x1024 p k]

/-! ## The block's weights: the cosine of the label rows times the off-diagonal mask -/

theorem pay14_apply (lmv : FVec Ideal S1024x1024 .f32) (x4 x5 : Vec Ideal S1024x100 .f32) (x6 : Vec Ideal S1024x1 .f32)
    (x7 : Vec Ideal S1x1024 .f32) (p q : Fin 1024) :
    k0_pay14 lmv x4 x5 x6 x7 (ix2 p q)
      = Ideal.div (∑ k : Fin 100, x4 (ix2 p k) * x5 (ix2 q k)) (x6 (ix2 p (0 : Fin 1)) * x7 (ix2 (0 : Fin 1) q))
          * lmv (ix2 p q) := by
  -- the product of the label block with the transposed label block, at (p, q)
  have hN : matmul (φ₁ := .f32) (φ₂ := .f32) dot_S1024x100_S100x1024_S1024x1024_1_0_0_1_n_n (some .fp32)
        (shapeCast S1024x100 x4 shapeCasts_S1024x100_S1024x100)
        (transpose S100x1024 [1, 0] (shapeCast S1024x100 x5 shapeCasts_S1024x100_S1024x100)
          transposes_S1024x100_p1_0_S100x1024)
        (constant (F := Ideal) S1024x1024 .f32 0x00000000#32) (ix2 p q)
      = ∑ k : Fin 100, x4 (ix2 p k) * x5 (ix2 q k) := by
    refine (Cert.Lib.LinearLayer.matmul_transposed_apply (M := 1024) (K := 100) (N := 1024) (φ₁ := .f32) (φ₂ := .f32)
      dot_S1024x100_S100x1024_S1024x1024_1_0_0_1_n_n_wf (some .fp32) _ _ transposes_S1024x100_p1_0_S100x1024 p q).trans ?_
    exact Finset.sum_congr rfl fun k _ =>
      congrArg₂ (· * ·) (congrFun (shapeCast_self x4 _) (ix2 p k)) (congrFun (shapeCast_self x5 _) (ix2 q k))
  -- the column of row lengths over the columns, the row of column lengths over the rows
  have hD1 : broadcastTo S1024x1024 (shapeCast S1024x1 x6 shapeCasts_S1024x1_S1024x1) broadcasts_S1024x1_S1024x1024 (ix2 p q)
      = x6 (ix2 p (0 : Fin 1)) :=
    (Cert.Lib.broadcastTo_a1_ab_apply _ broadcasts_S1024x1_S1024x1024 p q).trans (congrFun (shapeCast_self x6 _) _)
  have hD2 : broadcastTo S1024x1024 (shapeCast S1x1024 x7 shapeCasts_S1x1024_S1x1024) broadcasts_S1x1024_S1024x1024 (ix2 p q)
      = x7 (ix2 (0 : Fin 1) q) :=
    (broadcastTo_1b_ab_apply _ broadcasts_S1x1024_S1024x1024 p q).trans (congrFun (shapeCast_self x7 _) _)
  unfold k0_pay14
  exact congrArg₂ (fun n d => Ideal.div n d * lmv (ix2 p q)) hN (congrArg₂ (· * ·) hD1 hD2)

/-! ## The block's similarities: the product of the feature block with the transposed feature block, over the temperature -/

/-- The named reciprocal of the temperature is, by the table of named constants, the rational the specification divides by. -/
theorem invTemp_named :
    Named.named (F := Ideal) κ "inv_temperature" (φ := .f32) 0x41649249#32 = Cert.SupCon.invTemp :=
  IdealRules.named_const.ideal_named_scalar _ _ _ _ rfl

theorem pay7_apply (x2 x3 : Vec Ideal S1024x128 .bf16) (p q : Fin 1024) :
    k0_pay7 x2 x3 (ix2 p q) = (∑ d : Fin 128, x2 (ix2 p d) * x3 (ix2 q d)) * Cert.SupCon.invTemp := by
  have hN : matmul (φ₁ := .bf16) (φ₂ := .bf16) dot_S1024x128_S128x1024_S1024x1024_1_0_0_1_n_n none
        (shapeCast S1024x128 x2 shapeCasts_S1024x128_S1024x128)
        (transpose S128x1024 [1, 0] (shapeCast S1024x128 x3 shapeCasts_S1024x128_S1024x128)
          transposes_S1024x128_p1_0_S128x1024)
        (constant (F := Ideal) S1024x1024 .f32 0x00000000#32) (ix2 p q)
      = ∑ d : Fin 128, x2 (ix2 p d) * x3 (ix2 q d) := by
    refine (Cert.Lib.LinearLayer.matmul_transposed_apply (M := 1024) (K := 128) (N := 1024) (φ₁ := .bf16) (φ₂ := .bf16)
      dot_S1024x128_S128x1024_S1024x1024_1_0_0_1_n_n_wf none _ _ transposes_S1024x128_p1_0_S128x1024 p q).trans ?_
    exact Finset.sum_congr rfl fun d _ =>
      congrArg₂ (· * ·) (congrFun (shapeCast_self x2 _) (ix2 p d)) (congrFun (shapeCast_self x3 _) (ix2 q d))
  unfold k0_pay7
  exact congrArg₂ (· * ·) hN invTemp_named

/-! ## The off-diagonal mask: 0 where the global row and the global column agree, 1 elsewhere -/

theorem pay8_apply (i : grid0.Coords) (p q : Fin 1024) :
    k0_pay8 (F := Ideal) i (ix2 p q)
      = if 1024 * (i 0).val + p.val = 1024 * (i 1).val + q.val then (0 : EReal) else 1 := by
  have h0 : (i 0).val < 8 := (i 0).isLt
  have h1 : (i 1).val < 8 := (i 1).isLt
  have hp := p.isLt
  have hq := q.isLt
  -- the two coordinate arrays, at (p, q)
  have hi0 : iota .tc S1024x1024 32 [0] iota_S1024x1024_d0_w32 (ix2 p q) = BitVec.ofNat 32 p.val :=
    iota_single_apply .tc S1024x1024 32 0 iota_S1024x1024_d0_w32 (ix2 p q)
  have hi1 : iota .tc S1024x1024 32 [1] iota_S1024x1024_d1_w32 (ix2 p q) = BitVec.ofNat 32 q.val :=
    iota_single_apply .tc S1024x1024 32 1 iota_S1024x1024_d1_w32 (ix2 p q)
  -- the comparison's bit is set exactly when the global indices agree: both are below 2^13, so neither product nor sum wraps
  have hb : ∀ b : Bool, BitVec.ofBool b = 1#1 ↔ b = true := by decide
  have hbit : IntOp.cmpi .eq
        (IntOp.addi (Scalar.muli (BitVec.ofNat 32 (i 0).val) 1024#32) (BitVec.ofNat 32 p.val))
        (IntOp.addi (Scalar.muli (BitVec.ofNat 32 (i 1).val) 1024#32) (BitVec.ofNat 32 q.val)) = 1#1
      ↔ 1024 * (i 0).val + p.val = 1024 * (i 1).val + q.val := by
    show BitVec.ofBool ((BitVec.ofNat 32 (i 0).val * 1024#32 + BitVec.ofNat 32 p.val)
        == (BitVec.ofNat 32 (i 1).val * 1024#32 + BitVec.ofNat 32 q.val)) = 1#1 ↔ _
    rw [hb, beq_iff_eq, ← BitVec.toNat_inj]
    simp only [BitVec.toNat_add, BitVec.toNat_mul, BitVec.toNat_ofNat, Nat.reducePow]
    omega
  unfold k0_pay8
  show Scalar.select (IntOp.cmpi .eq
        (IntOp.addi (Scalar.muli (BitVec.ofNat 32 (i 0).val) 1024#32)
          (iota .tc S1024x1024 32 [0] iota_S1024x1024_d0_w32 (ix2 p q)))
        (IntOp.addi (Scalar.muli (BitVec.ofNat 32 (i 1).val) 1024#32)
          (iota .tc S1024x1024 32 [1] iota_S1024x1024_d1_w32 (ix2 p q))))
      (Ideal.ofBits .f32 0x00000000#32) (Ideal.ofBits .f32 0x3F800000#32) = _
  rw [hi0, hi1, Cert.Lib.MaskBit.select_of_iff hbit, Ideal.ofBits_zero_f32, ofBits_one]

end Cert.KernelIdeal.Pay

end
-- ==== Proof.KI.Arrays.lean ====
import proofs.«138990_j86655260164850_1_alg».proof.Proof.KI.Launch
import proofs.«138990_j86655260164850_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-! # The arrays the kernel's windows read, and the mean taken after it, as functions of the two arguments

Before the kernel runs, the program flattens the features `[4096, 2, 128] → [8192, 128]` (row `n` is view `n % 2` of
sample `n / 2`; the narrowing of the format that follows is the identity over the extended reals), repeats each sample's
label row over its two views and flattens `[4096, 2, 100] → [8192, 100]`, takes each label row's length
`√(Σ_k lab² )`, and lays the lengths out as a column `[8192, 1]` and as a row `[1, 8192]`. After the kernel it flattens
the result's column, sums it from zero and divides by the number of anchors. -/

/-- The flattened features: entry `(n, d)` is feature `d` of view `n % 2` of sample `n / 2`. -/
theorem V_feat (n : Fin 8192) (d : Fin 128) :
    V (F := Ideal) m c main_v1 (ix2 n d) = Cert.SupCon.feat (m ((c : Thread nD τ).loc main_arg0)) n d := by
  have e : (V (F := Ideal) m c main_v1 : S8192x128.Idx → EReal)
      = truncf (F := Ideal) .bf16 (shapeCast S8192x128 (m ((c : Thread nD τ).loc main_arg0)) shapeCasts_S4096x2x128_S8192x128) bitsLt_bf16_f32 := by
    dsimp only [V, V0]
    simp only [hostOps0, hostOps0_1, hostOps0_2, List.flatten_cons, List.flatten_nil, List.append_nil, List.cons_append, List.nil_append]
    after_results
    rfl
  rw [e]
  show shapeCast (s := S4096x2x128) S8192x128 (m ((c : Thread nD τ).loc main_arg0)) shapeCasts_S4096x2x128_S8192x128 (ix2 n d) = _
  unfold Cert.SupCon.feat
  refine shapeCast_apply _ _ _ _ ?_
  -- row-major positions: ((n / 2) · 2 + n % 2) · 128 + d = n · 128 + d
  rw [Shape.rowMajor_val_three, Shape.rowMajor_val_two]
  show (n.val / 2 * 2 + n.val % 2) * 128 + d.val = n.val * 128 + d.val
  omega

/-- The repeated labels as one term of the labels' argument. -/
theorem V_v4_eq :
    (V (F := Ideal) m c main_v4 : S8192x100.Idx → EReal)
      = shapeCast S8192x100 (broadcastInDim S4096x2x100 ![0, 1, 2] bcast_S4096x1x100_S4096x2x100_0_1_2
          (broadcastInDim S4096x1x100 ![0, 2] bcast_S4096x100_S4096x1x100_0_2 (m ((c : Thread nD τ).loc main_arg1))))
          shapeCasts_S4096x2x100_S8192x100 := by
  dsimp only [V, V0]
  simp only [hostOps0, hostOps0_1, hostOps0_2, List.flatten_cons, List.flatten_nil, List.append_nil, List.cons_append, List.nil_append]
  after_results
  rfl

/-- The repeated labels: entry `(n, k)` is label `k` of sample `n / 2`. -/
theorem V_lab (n : Fin 8192) (k : Fin 100) :
    V (F := Ideal) m c main_v4 (ix2 n k) = Cert.SupCon.lab (m ((c : Thread nD τ).loc main_arg1)) n k := by
  rw [V_v4_eq]
  unfold Cert.SupCon.lab
  -- the flattening: row n of [8192, 100] is (n / 2, n % 2) of [4096, 2, 100]
  rw [shapeCast_apply _ _ (ix2 n k) (ix3 (⟨n.val / 2, by omega⟩ : Fin 4096) (⟨n.val % 2, Nat.mod_lt _ (by decide)⟩ : Fin 2) k) (by
    rw [Shape.rowMajor_val_three, Shape.rowMajor_val_two]
    show (n.val / 2 * 2 + n.val % 2) * 100 + k.val = n.val * 100 + k.val
    omega)]
  -- the repeat over the two views reads the one copy
  rw [broadcastInDim_apply _ _ _ _ (ix3 (⟨n.val / 2, by omega⟩ : Fin 4096) (0 : Fin 1) k) (fun a => by
    match a with
    | ⟨0, _⟩ => rfl
    | ⟨1, _⟩ => rfl
    | ⟨2, _⟩ => rfl)]
  -- the inserted unit axis
  rw [broadcastInDim_apply _ _ _ _ (ix2 (⟨n.val / 2, by omega⟩ : Fin 4096) k) (fun a => by
    match a with
    | ⟨0, _⟩ => rfl
    | ⟨1, _⟩ => rfl)]

/-- The label rows' lengths as one term of the repeated labels. -/
theorem V_v5_eq :
    (V (F := Ideal) m c main_v5 : S8192.Idx → EReal)
      = Host.sqrt (F := Ideal) (Host.reduceAdd (F := Ideal) (s := S8192x100)
          (mulf (F := Ideal) (s := S8192x100) (φ := .f32) (V (F := Ideal) m c main_v4) (V (F := Ideal) m c main_v4))
          (constant (F := Ideal) S_ .f32 0x00000000#32) reducesTo_S8192x100_S8192_d1 h_S_) := by
  dsimp only [V, V0]
  simp only [hostOps0, hostOps0_1, hostOps0_2, List.flatten_cons, List.flatten_nil, List.append_nil, List.cons_append, List.nil_append]
  after_results
  rfl

/-- The length of anchor `n`'s label row: the square root of the sum over `k` of the squares, the sum taken from zero. -/
theorem V_norm (n : Fin 8192) :
    V (F := Ideal) m c main_v5 (ix1 n) = Cert.SupCon.labNorm (m ((c : Thread nD τ).loc main_arg1)) n := by
  have hR : S8192x100.Reduces [1] S8192 := by decide
  rw [V_v5_eq]
  unfold Cert.SupCon.labNorm
  simp only [Host.sqrt, Host.reduceAdd, Ideal.hostUnary_sqrt_def, Ideal.hostReduceAdd_def, constant_apply]
  rw [Ideal.hostReduceAdd_single reducesTo_S8192x100_S8192_d1 hR, Ideal.ofBits_zero_f32, zero_add]
  congr 1
  refine Finset.sum_congr rfl fun (k : Fin 100) _ => ?_
  have hk : hR.lift (ix1 n) k = ix2 n k := funext fun a => Fin.ext (by
    match a with
    | ⟨0, _⟩ => rfl
    | ⟨1, _⟩ => rfl)
  rw [hk, mulf_apply, V_lab]

/-- The lengths as a column. -/
theorem V_v6_eq :
    (V (F := Ideal) m c main_v6 : S8192x1.Idx → EReal)
      = shapeCast (s := S8192) S8192x1 (V (F := Ideal) m c main_v5) shapeCasts_S8192_S8192x1 := by
  dsimp only [V, V0]
  simp only [hostOps0, hostOps0_1, hostOps0_2, List.flatten_cons, List.flatten_nil, List.append_nil, List.cons_append, List.nil_append]
  after_results
  rfl

/-- The lengths as a row. -/
theorem V_v7_eq :
    (V (F := Ideal) m c main_v7 : S1x8192.Idx → EReal)
      = shapeCast (s := S8192) S1x8192 (V (F := Ideal) m c main_v5) shapeCasts_S8192_S1x8192 := by
  dsimp only [V, V0]
  simp only [hostOps0, hostOps0_1, hostOps0_2, List.flatten_cons, List.flatten_nil, List.append_nil, List.cons_append, List.nil_append]
  after_results
  rfl

/-- The column of lengths: entry `(n, 0)` is the length of anchor `n`'s label row. -/
theorem V_ncol (n : Fin 8192) :
    V (F := Ideal) m c main_v6 (ix2 n (0 : Fin 1)) = Cert.SupCon.labNorm (m ((c : Thread nD τ).loc main_arg1)) n := by
  rw [V_v6_eq, shapeCast_apply _ _ (ix2 n (0 : Fin 1)) (ix1 n) (by
    rw [Shape.rowMajor_val_one, Shape.rowMajor_val_two]
    show n.val = n.val * 1 + 0
    omega)]
  exact V_norm m c n

/-- The row of lengths: entry `(0, n)` is the length of anchor `n`'s label row. -/
theorem V_nrow (n : Fin 8192) :
    V (F := Ideal) m c main_v7 (ix2 (0 : Fin 1) n) = Cert.SupCon.labNorm (m ((c : Thread nD τ).loc main_arg1)) n := by
  rw [V_v7_eq, shapeCast_apply _ _ (ix2 (0 : Fin 1) n) (ix1 n) (by
    rw [Shape.rowMajor_val_one, Shape.rowMajor_val_two]
    show n.val = 0 * 8192 + n.val
    omega)]
  exact V_norm m c n

/-- A rank-1 index set is its coordinate's range. -/
def vecIdxEquiv {n : Nat} : (⟨1, ![n]⟩ : Shape).Idx ≃ Fin n where
  toFun i := i 0
  invFun := ix1
  left_inv i := (eq_ix1 i).symm
  right_inv _ := rfl

/-- The program's result: the result's column as the kernel leaves it, flattened, summed from zero and divided by the
    number of anchors. -/
theorem resultAt_eq :
    resultAt (F := Ideal) m c
      = fun _ => Ideal.div (∑ n : Fin 8192, (dats m 0 c).arrAt 6 cfg0.N (ix2 n (0 : Fin 1))) Cert.SupCon.count := by
  have e : (resultAt (F := Ideal) m c : S_.Idx → EReal)
      = Host.divf (F := Ideal) (Host.reduceAdd (F := Ideal) (s := S8192)
          (shapeCast (s := S8192x1) S8192 ((dats m 0 c).arrAt 6 cfg0.N) shapeCasts_S8192x1_S8192)
          (constant (F := Ideal) S_ .f32 0x00000000#32) reducesTo_S8192_S_d0 h_S_)
          (constant (F := Ideal) S_ .f32 0x46000000#32) := by
    unfold resultAt
    simp only [hostOps1]
    after_results
    rw [show Wtail m c (Proc.devRef .tc main_v8) = (dats m 0 c).arrAt 6 cfg0.N from Function.update_self ..]
    rfl
  rw [e]
  funext i
  simp only [Host.divf, Host.reduceAdd, Ideal.hostDivf_def, Ideal.hostReduceAdd_def, constant_apply]
  rw [Ideal.hostReduceAdd_total reducesTo_S8192_S_d0 (fun b => b.elim0), Ideal.ofBits_zero_f32, zero_add]
  refine congrArg (fun s : EReal => Ideal.div s (Ideal.ofBits .f32 0x46000000#32)) ?_
  refine Fintype.sum_equiv (vecIdxEquiv (n := 8192)) _ _ fun j => ?_
  -- flattening the column: position j of [8192] is (j, 0) of [8192, 1]
  exact shapeCast_apply _ _ _ (ix2 (j 0) (0 : Fin 1)) (by
    rw [Shape.rowMajor_val_one, Shape.rowMajor_val_two]
    show (j 0).val * 1 + 0 = (j 0).val
    omega)

end Cert.KernelIdeal.Hand

end
-- ==== Proof.LibOnlineSoftmax.lean ====
import Idealize.ShloMosaic.PureOps.Ideal
import Mathlib

noncomputable section

/-! # The online (blockwise) softmax accumulator over the extended reals

A row of scores is read a block of columns at a time. The accumulator keeps the running maximum `m` of the scores
seen so far (from −∞) and the running sum `l` of `exp (score − m)` times a 0/1 indicator. A new block sets
`m' = max m (block maximum)` and `l' = exp (m − m') · l + Σ_block exp (score − m') · indicator`. The lemmas here say that
the result is what one would have had using `m'` from the start: the maximum of a union is the maximum of the maxima, and
rescaling the old sum by `exp (m − m')` re-bases every old term from `m` to `m'`. -/

namespace Cert.Lib.OnlineSoftmax

open Idealize.ShloMosaic

/-- The inclusion of the reals in the extended reals carries `max` to `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The inclusion of the reals in the extended reals carries a finite sum to the finite sum. -/
theorem coe_sum {ι : Type} (f : ι → ℝ) (P : Finset ι) : ((∑ j ∈ P, f j : ℝ) : EReal) = ∑ j ∈ P, (f j : EReal) := by
  classical
  induction P using Finset.induction_on with
  | empty => simp
  | insert a P ha ih => rw [Finset.sum_insert ha, Finset.sum_insert ha, EReal.coe_add, ih]

/-- The maximum (from −∞) of a row over a union of two sets of columns is the larger of the two sets' maxima:
`max_{P ∪ B} s = max (max_P s) (max_B s)`. -/
theorem fold_max_union {ι : Type} [DecidableEq ι] (s : ι → EReal) (P B : Finset ι) :
    (P ∪ B).fold max ⊥ s = max (P.fold max ⊥ s) (B.fold max ⊥ s) := by
  induction P using Finset.induction_on with
  | empty => simp
  | insert a P ha ih =>
    rw [Finset.insert_union, Finset.fold_insert_idem, Finset.fold_insert_idem, ih, max_assoc]

/-- The maximum (from −∞) of real scores over a nonempty set of columns is a real. -/
theorem fold_max_real {ι : Type} (s : ι → EReal) (P : Finset ι)
    (hs : ∀ j, ∃ r : ℝ, s j = (r : EReal)) (hP : P.Nonempty) : ∃ r : ℝ, P.fold max ⊥ s = (r : EReal) := by
  induction hP using Finset.Nonempty.cons_induction with
  | singleton a =>
    obtain ⟨r, hr⟩ := hs a
    exact ⟨r, by rw [Finset.fold_singleton, hr, max_bot_right]⟩
  | cons a P ha hP ih =>
    obtain ⟨r, hr⟩ := hs a
    obtain ⟨q, hq⟩ := ih
    exact ⟨max r q, by rw [Finset.fold_cons, hr, hq, coe_max]⟩

/-- One step of the online accumulator. `P` is the set of columns already seen, with maximum `m = max_P s` and sum
`l = Σ_P exp (s − m) · o`; `B` is a new nonempty block, disjoint from `P`; `m' = max m (max_B s)`. Then
`exp (m − m') · l + Σ_B exp (s − m') · o = Σ_{P ∪ B} exp (s − m') · o`.
If `P` is empty, `m = −∞`, `exp (−∞ − m') = 0` and `l = 0`, so the left side is the block's sum. Otherwise `m ≤ m'` are
reals and `exp (m − m') · exp (s − m) = exp (s − m')` term by term. -/
theorem online_exp_step {ι : Type} [DecidableEq ι] (s o : ι → EReal) (P B : Finset ι) (hd : Disjoint P B)
    (hs : ∀ j, ∃ r : ℝ, s j = (r : EReal)) (ho : ∀ j, o j = 0 ∨ o j = 1) (hB : B.Nonempty) :
    Ideal.exp (P.fold max ⊥ s - max (P.fold max ⊥ s) (B.fold max ⊥ s)) * (∑ j ∈ P, Ideal.exp (s j - P.fold max ⊥ s) * o j)
      + ∑ j ∈ B, Ideal.exp (s j - max (P.fold max ⊥ s) (B.fold max ⊥ s)) * o j
    = ∑ j ∈ P ∪ B, Ideal.exp (s j - max (P.fold max ⊥ s) (B.fold max ⊥ s)) * o j := by
  obtain ⟨rb, hb⟩ := fold_max_real s B hs hB
  rcases P.eq_empty_or_nonempty with rfl | hP
  · -- nothing seen yet: the old maximum is −∞, its rescaling factor is exp (−∞) = 0, and the old sum is empty
    rw [Finset.fold_empty, Finset.sum_empty, mul_zero, zero_add, Finset.empty_union]
  · -- both maxima are reals; every term is a real, and the identity is the reals'
    obtain ⟨ra, ha⟩ := fold_max_real s P hs hP
    have ho' : ∀ j, ∃ t : ℝ, o j = (t : EReal) := fun j => by
      rcases ho j with h | h
      · exact ⟨0, by rw [h, EReal.coe_zero]⟩
      · exact ⟨1, by rw [h, EReal.coe_one]⟩
    choose r hr using hs
    choose t ht using ho'
    have hterm : ∀ (c : ℝ) (j : ι), Ideal.exp (s j - (c : EReal)) * o j = ((Real.exp (r j - c) * t j : ℝ) : EReal) := by
      intro c j
      rw [hr j, ht j, ← EReal.coe_sub, Ideal.exp_coe, ← EReal.coe_mul]
    rw [ha, hb, ← coe_max]
    simp only [hterm]
    rw [← EReal.coe_sub, Ideal.exp_coe, ← coe_sum, ← coe_sum, ← coe_sum, ← EReal.coe_mul, ← EReal.coe_add,
      Finset.sum_union hd, Finset.mul_sum]
    congr 2
    refine Finset.sum_congr rfl fun j _ => ?_
    rw [← mul_assoc, ← Real.exp_add]
    congr 2
    ring

/-- The same step with the new maximum written as the maximum over all the columns seen after it: with
`M = max_{P ∪ B} s`, `exp (max_P s − M) · Σ_P exp (s − max_P s) · o + Σ_B exp (s − M) · o = Σ_{P ∪ B} exp (s − M) · o`. -/
theorem online_exp_step_union {ι : Type} [DecidableEq ι] (s o : ι → EReal) (P B : Finset ι) (hd : Disjoint P B)
    (hs : ∀ j, ∃ r : ℝ, s j = (r : EReal)) (ho : ∀ j, o j = 0 ∨ o j = 1) (hB : B.Nonempty) :
    Ideal.exp (P.fold max ⊥ s - (P ∪ B).fold max ⊥ s) * (∑ j ∈ P, Ideal.exp (s j - P.fold max ⊥ s) * o j)
      + ∑ j ∈ B, Ideal.exp (s j - (P ∪ B).fold max ⊥ s) * o j
    = ∑ j ∈ P ∪ B, Ideal.exp (s j - (P ∪ B).fold max ⊥ s) * o j := by
  rw [fold_max_union]
  exact online_exp_step s o P B hd hs ho hB

end Cert.Lib.OnlineSoftmax

end
-- ==== Proof.Prefix.lean ====
import proofs.«138990_j86655260164850_1_alg».proof.Proof.Spec
import proofs.«138990_j86655260164850_1_alg».proof.Proof.LibOnlineSoftmax
import Mathlib.Algebra.BigOperators.Fin

noncomputable section

/-! # A row's four running quantities after `k` key blocks, and one block's step

The 8192 columns come in 8 key blocks of 1024. After `k` blocks a row holds the largest similarity seen, the sum over the
columns seen of `exp` of the similarity less that maximum (off the diagonal), and the two weighted sums; a block step moves
each from the first `1024·k` columns to the first `1024·(k+1)`. After all 8 they are the row's totals. -/

namespace Cert.SupCon

open Idealize.ShloMosaic Cert.Lib.OnlineSoftmax

/-- Column `r` of key block `b`. -/
def colOf (b : ℕ) (hb : b < 8) (r : Fin 1024) : Fin 8192 := ⟨1024 * b + r.val, by have := r.isLt; omega⟩

theorem colOf_injective (b : ℕ) (hb : b < 8) : Function.Injective (colOf b hb) := fun r r' h => by
  have := congrArg Fin.val h; simp only [colOf] at this; exact Fin.ext (by omega)

/-- The columns of the first `k` key blocks; -/
def seen (k : ℕ) : Finset (Fin 8192) := Finset.univ.filter fun j => j.val < 1024 * k
/-- and of key block `b`. -/
def block (b : ℕ) (hb : b < 8) : Finset (Fin 8192) := Finset.univ.map ⟨colOf b hb, colOf_injective b hb⟩

theorem seen_zero : seen 0 = ∅ := by
  unfold seen; exact Finset.filter_eq_empty_iff.mpr fun j _ => by omega
theorem seen_eight : seen 8 = Finset.univ := by
  unfold seen; exact Finset.filter_eq_self.mpr fun j _ => by have := j.isLt; omega
theorem mem_block {b : ℕ} {hb : b < 8} {j : Fin 8192} : j ∈ block b hb ↔ 1024 * b ≤ j.val ∧ j.val < 1024 * (b + 1) := by
  unfold block
  rw [Finset.mem_map]
  constructor
  · rintro ⟨r, -, rfl⟩; simp only [Function.Embedding.coeFn_mk, colOf]; have := r.isLt; omega
  · rintro ⟨h1, h2⟩
    exact ⟨⟨j.val - 1024 * b, by omega⟩, Finset.mem_univ _, Fin.ext (by simp only [Function.Embedding.coeFn_mk, colOf]; omega)⟩
theorem seen_succ (b : ℕ) (hb : b < 8) : seen (b + 1) = seen b ∪ block b hb := by
  ext j
  simp only [seen, Finset.mem_union, Finset.mem_filter, Finset.mem_univ, true_and, mem_block]
  omega
theorem seen_disjoint (b : ℕ) (hb : b < 8) : Disjoint (seen b) (block b hb) := by
  rw [Finset.disjoint_left]
  intro j h1 h2
  simp only [seen, Finset.mem_filter, Finset.mem_univ, true_and] at h1
  have := (mem_block.mp h2).1
  omega
theorem block_nonempty (b : ℕ) (hb : b < 8) : (block b hb).Nonempty := ⟨colOf b hb 0, Finset.mem_map.mpr ⟨0, Finset.mem_univ _, rfl⟩⟩

/-- A sum over a key block is the sum over its 1024 columns; likewise a fold of max. -/
theorem sum_block (b : ℕ) (hb : b < 8) (f : Fin 8192 → EReal) : ∑ j ∈ block b hb, f j = ∑ r : Fin 1024, f (colOf b hb r) := by
  unfold block; rw [Finset.sum_map]; rfl
theorem fold_block (b : ℕ) (hb : b < 8) (f : Fin 8192 → EReal) :
    (block b hb).fold max ⊥ f = (Finset.univ : Finset (Fin 1024)).fold max ⊥ fun r => f (colOf b hb r) := by
  unfold block; rw [Finset.fold_map]; rfl

variable (x : (⟨3, ![4096, 2, 128]⟩ : Shape).Idx → EReal) (y : (⟨2, ![4096, 100]⟩ : Shape).Idx → EReal)

/-- The four running quantities of row `n` after `k` key blocks. -/
def maxSeen (n : Fin 8192) (k : ℕ) : EReal := (seen k).fold max ⊥ (sim x n)
def expSeen (n : Fin 8192) (k : ℕ) : EReal := ∑ j ∈ seen k, Ideal.exp (sim x n j - maxSeen x n k) * off n j
def wsSeen (n : Fin 8192) (k : ℕ) : EReal := ∑ j ∈ seen k, wgt y n j * sim x n j
def wSeen (n : Fin 8192) (k : ℕ) : EReal := ∑ j ∈ seen k, wgt y n j

/-- Before any block: −∞ and three zeros. -/
theorem maxSeen_zero (n : Fin 8192) : maxSeen x n 0 = ⊥ := by unfold maxSeen; rw [seen_zero]; rfl
theorem expSeen_zero (n : Fin 8192) : expSeen x n 0 = 0 := by unfold expSeen; rw [seen_zero]; rfl
theorem wsSeen_zero (n : Fin 8192) : wsSeen x y n 0 = 0 := by unfold wsSeen; rw [seen_zero]; rfl
theorem wSeen_zero (n : Fin 8192) : wSeen y n 0 = 0 := by unfold wSeen; rw [seen_zero]; rfl

/-- The maximum's step: the larger of what was seen and the block's largest. -/
theorem maxSeen_succ (n : Fin 8192) (b : ℕ) (hb : b < 8) :
    max (maxSeen x n b) ((Finset.univ : Finset (Fin 1024)).fold max ⊥ fun r => sim x n (colOf b hb r)) = maxSeen x n (b + 1) := by
  unfold maxSeen
  rw [seen_succ b hb, fold_max_union, fold_block]

/-- The two weighted sums' steps. -/
theorem wsSeen_succ (n : Fin 8192) (b : ℕ) (hb : b < 8) :
    wsSeen x y n b + ∑ r : Fin 1024, wgt y n (colOf b hb r) * sim x n (colOf b hb r) = wsSeen x y n (b + 1) := by
  unfold wsSeen
  rw [seen_succ b hb, Finset.sum_union (seen_disjoint b hb), sum_block]
theorem wSeen_succ (n : Fin 8192) (b : ℕ) (hb : b < 8) :
    wSeen y n b + ∑ r : Fin 1024, wgt y n (colOf b hb r) = wSeen y n (b + 1) := by
  unfold wSeen
  rw [seen_succ b hb, Finset.sum_union (seen_disjoint b hb), sum_block]

theorem off_zero_or_one (n j : Fin 8192) : off n j = 0 ∨ off n j = 1 := by
  unfold off; split
  · exact .inl rfl
  · exact .inr rfl

/-- The exponentials' step: rescale what was summed against the old maximum, add the block's terms against the new one. -/
theorem expSeen_succ (hs : ∀ i j, ∃ r : ℝ, sim x i j = (r : EReal)) (n : Fin 8192) (b : ℕ) (hb : b < 8) :
    Ideal.exp (maxSeen x n b - maxSeen x n (b + 1)) * expSeen x n b
      + ∑ r : Fin 1024, Ideal.exp (sim x n (colOf b hb r) - maxSeen x n (b + 1)) * off n (colOf b hb r)
    = expSeen x n (b + 1) := by
  have h := online_exp_step_union (sim x n) (off n) (seen b) (block b hb) (seen_disjoint b hb) (hs n) (off_zero_or_one n) (block_nonempty b hb)
  unfold expSeen maxSeen
  rw [seen_succ b hb, ← h, sum_block]

/-- After all eight blocks: the row's totals. -/
theorem maxSeen_eight (n : Fin 8192) : maxSeen x n 8 = rowMax (sim x) n := by unfold maxSeen rowMax; rw [seen_eight]
theorem expSeen_eight (n : Fin 8192) : expSeen x n 8 = rowExp (sim x) n := by unfold expSeen rowExp; rw [maxSeen_eight, seen_eight]
theorem wsSeen_eight (n : Fin 8192) : wsSeen x y n 8 = ∑ j, wgt y n j * sim x n j := by unfold wsSeen; rw [seen_eight]
theorem wSeen_eight (n : Fin 8192) : wSeen y n 8 = ∑ j, wgt y n j := by unfold wSeen; rw [seen_eight]

end Cert.SupCon

end
-- ==== Proof.KI.Closed.lean ====
import proofs.«138990_j86655260164850_1_alg».proof.Proof.KI.NewState
import proofs.«138990_j86655260164850_1_alg».proof.Proof.KI.Payloads
import proofs.«138990_j86655260164850_1_alg».proof.Proof.KI.Arrays
import proofs.«138990_j86655260164850_1_alg».proof.Proof.Prefix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon Cert.KernelIdeal.Pay

/-! # The kernel's columns, point by point, are the rows' running quantities

Over the extended reals. Row `p` of row block `t / 8` is anchor `n = 1024·(t / 8) + p`; column `q` of key block `t % 8` is
anchor `1024·(t % 8) + q`. The similarity block the body forms at point `t` is `sim` of those anchors, its diagonal
indicator is `off`, its weight block is `wgt`; so one step of the body takes the four running quantities of the row after
`t % 8` key blocks to those after `t % 8 + 1`, and the result stored at a row block's last key block is the row's loss
combined from its four totals. -/

variable (m : (ℓ : Loc nD τ sig) → Buf (Elt Ideal) ℓ) (c : Dev nD)

theorem rowOf_eq_colOf (b : ℕ) (hb : b < 8) (r : Fin 1024) : rowOf b hb r = colOf b hb r := rfl

/-- The similarity block at point `t`. -/
theorem sim_blk (t : Fin cfg0.N) (p q : Fin 1024) :
    k0_pay7 (F := Ideal) (iblk m c 0 t) (iblk m c 1 t) (ix2 p q) = sim (m ((c : Thread nD τ).loc main_arg0)) (rowOf (t.val / 8) (rb_lt t) p) (colOf (t.val % 8) (kb_lt t) q) := by
  refine (pay7_apply (iblk m c 0 t) (iblk m c 1 t) p q).trans ?_
  unfold sim
  refine congrArg (· * invTemp) (Finset.sum_congr rfl fun d _ => ?_)
  rw [iblk0_apply, iblk1_apply, V_feat, V_feat]; rfl

/-- The off-diagonal indicator block at point `t`. -/
theorem off_blk (t : Fin cfg0.N) (p q : Fin 1024) :
    k0_pay8 (F := Ideal) (grid0.coords t) (ix2 p q) = off (rowOf (t.val / 8) (rb_lt t) p) (colOf (t.val % 8) (kb_lt t) q) := by
  obtain ⟨e0, e1⟩ := coords_facts t
  refine (pay8_apply (grid0.coords t) p q).trans ?_
  rw [e0, e1]
  unfold off rowOf colOf
  simp only [Fin.ext_iff]

/-- The weight block at point `t`. -/
theorem wgt_blk (t : Fin cfg0.N) (p q : Fin 1024) :
    k0_pay14 (F := Ideal) (k0_pay8 (F := Ideal) (grid0.coords t)) (iblk m c 2 t) (iblk m c 3 t) (iblk m c 4 t) (iblk m c 5 t) (ix2 p q)
      = wgt (m ((c : Thread nD τ).loc main_arg1)) (rowOf (t.val / 8) (rb_lt t) p) (colOf (t.val % 8) (kb_lt t) q) := by
  refine (pay14_apply (k0_pay8 (F := Ideal) (grid0.coords t)) (iblk m c 2 t) (iblk m c 3 t) (iblk m c 4 t) (iblk m c 5 t) p q).trans ?_
  unfold wgt
  rw [off_blk, iblk4_apply, iblk5_apply, V_ncol, V_nrow]
  refine congrArg (fun z => Ideal.div z _ * _) (Finset.sum_congr rfl fun k _ => ?_)
  rw [iblk2_apply, iblk3_apply, V_lab, V_lab]; rfl

/-- ONE STEP: columns holding row `n`'s running quantities after `t % 8` key blocks hold, after the body's update at
    point `t`, those after `t % 8 + 1`. -/
theorem step_closed (hs : ∀ i j, ∃ r : ℝ, sim (m ((c : Thread nD τ).loc main_arg0)) i j = (r : EReal)) (t : Fin cfg0.N) (p : Fin 1024)
    (s0 s1 s2 s3 : Vec Ideal S1024x1 .f32)
    (h0 : s0 (ix2 p (0 : Fin 1)) = maxSeen (m ((c : Thread nD τ).loc main_arg0)) (rowOf (t.val / 8) (rb_lt t) p) (t.val % 8))
    (h1 : s1 (ix2 p (0 : Fin 1)) = expSeen (m ((c : Thread nD τ).loc main_arg0)) (rowOf (t.val / 8) (rb_lt t) p) (t.val % 8))
    (h2 : s2 (ix2 p (0 : Fin 1)) = wsSeen (m ((c : Thread nD τ).loc main_arg0)) (m ((c : Thread nD τ).loc main_arg1)) (rowOf (t.val / 8) (rb_lt t) p) (t.val % 8))
    (h3 : s3 (ix2 p (0 : Fin 1)) = wSeen (m ((c : Thread nD τ).loc main_arg1)) (rowOf (t.val / 8) (rb_lt t) p) (t.val % 8)) :
    new0 (F := Ideal) (iblk m c 0 t) (iblk m c 1 t) (iblk m c 2 t) (iblk m c 3 t) (iblk m c 4 t) (iblk m c 5 t) s0 (ix2 p (0 : Fin 1)) = maxSeen (m ((c : Thread nD τ).loc main_arg0)) (rowOf (t.val / 8) (rb_lt t) p) (t.val % 8 + 1)
    ∧ new1 (F := Ideal) (grid0.coords t) (iblk m c 0 t) (iblk m c 1 t) (iblk m c 2 t) (iblk m c 3 t) (iblk m c 4 t) (iblk m c 5 t) s0 s1 (ix2 p (0 : Fin 1)) = expSeen (m ((c : Thread nD τ).loc main_arg0)) (rowOf (t.val / 8) (rb_lt t) p) (t.val % 8 + 1)
    ∧ new2 (F := Ideal) (grid0.coords t) (iblk m c 0 t) (iblk m c 1 t) (iblk m c 2 t) (iblk m c 3 t) (iblk m c 4 t) (iblk m c 5 t) s2 (ix2 p (0 : Fin 1)) = wsSeen (m ((c : Thread nD τ).loc main_arg0)) (m ((c : Thread nD τ).loc main_arg1)) (rowOf (t.val / 8) (rb_lt t) p) (t.val % 8 + 1)
    ∧ new3 (F := Ideal) (grid0.coords t) (iblk m c 0 t) (iblk m c 1 t) (iblk m c 2 t) (iblk m c 3 t) (iblk m c 4 t) (iblk m c 5 t) s3 (ix2 p (0 : Fin 1)) = wSeen (m ((c : Thread nD τ).loc main_arg1)) (rowOf (t.val / 8) (rb_lt t) p) (t.val % 8 + 1) := by
  have hmax : k0_pay9 (F := Ideal) (iblk m c 0 t) (iblk m c 1 t) s0 (ix2 p (0 : Fin 1)) = maxSeen (m ((c : Thread nD τ).loc main_arg0)) (rowOf (t.val / 8) (rb_lt t) p) (t.val % 8 + 1) := by
    refine (pay9_apply (iblk m c 0 t) (iblk m c 1 t) s0 p 0).trans ?_
    rw [h0]
    simp only [sim_blk]
    exact maxSeen_succ (m ((c : Thread nD τ).loc main_arg0)) _ (t.val % 8) (kb_lt t)
  refine ⟨?_, ?_, ?_, ?_⟩
  · unfold new0; rw [pay13_eq]; exact hmax
  · unfold new1
    refine (pay12_apply _ _ p 0).trans ?_
    rw [pay10_apply, pay11_apply, hmax, h0, h1]
    simp only [sim_blk, off_blk]
    exact expSeen_succ (m ((c : Thread nD τ).loc main_arg0)) hs _ (t.val % 8) (kb_lt t)
  · unfold new2
    refine (pay15_apply _ _ _ _ _ _ s2 p 0).trans ?_
    rw [h2]
    simp only [wgt_blk, sim_blk]
    exact wsSeen_succ (m ((c : Thread nD τ).loc main_arg0)) (m ((c : Thread nD τ).loc main_arg1)) _ (t.val % 8) (kb_lt t)
  · unfold new3; rw [pay1_eq]
    refine (pay16_apply _ _ _ _ _ s3 p 0).trans ?_
    rw [h3]
    simp only [wgt_blk]
    exact wSeen_succ (m ((c : Thread nD τ).loc main_arg1)) _ (t.val % 8) (kb_lt t)

/-- The reset values are the running quantities before any key block. -/
theorem reset_closed (n : Fin 8192) (p : Fin 1024) :
    reset0 (F := Ideal) (ix2 p (0 : Fin 1)) = maxSeen (m ((c : Thread nD τ).loc main_arg0)) n 0 ∧ reset1 (F := Ideal) (ix2 p (0 : Fin 1)) = expSeen (m ((c : Thread nD τ).loc main_arg0)) n 0
    ∧ reset2 (F := Ideal) (ix2 p (0 : Fin 1)) = wsSeen (m ((c : Thread nD τ).loc main_arg0)) (m ((c : Thread nD τ).loc main_arg1)) n 0 ∧ reset3 (F := Ideal) (ix2 p (0 : Fin 1)) = wSeen (m ((c : Thread nD τ).loc main_arg1)) n 0 := by
  refine ⟨?_, ?_, ?_, ?_⟩
  · unfold reset0; rw [pay3_apply, maxSeen_zero]
  · unfold reset1; rw [pay4_apply, expSeen_zero]
  · unfold reset2; rw [pay5_apply, wsSeen_zero]
  · unfold reset3; rw [pay6_apply, wSeen_zero]

end Cert.KernelIdeal.Hand

end
-- ==== Proof.KI.Inv.lean ====
import proofs.«138990_j86655260164850_1_alg».proof.Proof.KI.Closed

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon Cert.KernelIdeal.Pay

variable (m : (ℓ : Loc nD τ sig) → Buf (Elt Ideal) ℓ) (c : Dev nD)

theorem k_lt {k : ℕ} (hk : k < cfg0.N) : k < 64 := lt_of_lt_of_eq hk (show cfg0.N = 64 from N_0)

/-- A point that is not its row block's first key block lies in the same row block as the point before it. -/
theorem rowOf_pred (k : ℕ) (hk : k < cfg0.N) (h0 : ¬k % 8 = 0) (p : Fin 1024) :
    rowOf ((k - 1) / 8) (by have := k_lt hk; omega) p = rowOf (k / 8) (by have := k_lt hk; omega) p := by
  unfold rowOf; exact Fin.ext (by show 1024 * ((k - 1) / 8) + p.val = 1024 * (k / 8) + p.val; omega)

/-- THE INVARIANT: after point `k` the four columns hold, at row `p`, the running quantities of anchor
    `1024·(k / 8) + p` after `k % 8 + 1` key blocks. -/
theorem inv (hs : ∀ i j, ∃ r : ℝ, sim (m ((c : Thread nD τ).loc main_arg0)) i j = (r : EReal)) : ∀ (k : ℕ) (hk : k < cfg0.N) (p : Fin 1024),
    (outsAt (F := Ideal) m c k hk).2.1 (ix2 p (0 : Fin 1)) = maxSeen (m ((c : Thread nD τ).loc main_arg0)) (rowOf (k / 8) (by have := k_lt hk; omega) p) (k % 8 + 1)
    ∧ (outsAt (F := Ideal) m c k hk).2.2.1 (ix2 p (0 : Fin 1)) = expSeen (m ((c : Thread nD τ).loc main_arg0)) (rowOf (k / 8) (by have := k_lt hk; omega) p) (k % 8 + 1)
    ∧ (outsAt (F := Ideal) m c k hk).2.2.2.1 (ix2 p (0 : Fin 1)) = wsSeen (m ((c : Thread nD τ).loc main_arg0)) (m ((c : Thread nD τ).loc main_arg1)) (rowOf (k / 8) (by have := k_lt hk; omega) p) (k % 8 + 1)
    ∧ (outsAt (F := Ideal) m c k hk).2.2.2.2 (ix2 p (0 : Fin 1)) = wSeen (m ((c : Thread nD τ).loc main_arg1)) (rowOf (k / 8) (by have := k_lt hk; omega) p) (k % 8 + 1) := by
  intro k
  induction k using Nat.strong_induction_on with
  | _ k ih =>
    intro hk p
    by_cases h0 : k % 8 = 0
    · have h1 : ¬k % 8 = 7 := by omega
      have e := congrArg Prod.snd (outsAt_first (F := Ideal) m c ⟨k, hk⟩ h0 h1)
      rw [stFirst_eq] at e
      obtain ⟨r0, r1, r2, r3⟩ := reset_closed m c (rowOf (k / 8) (by have := k_lt hk; omega) p) p
      have st := step_closed m c hs ⟨k, hk⟩ p reset0 reset1 reset2 reset3
        (by rw [show (⟨k, hk⟩ : Fin cfg0.N).val % 8 = 0 from h0]; exact r0) (by rw [show (⟨k, hk⟩ : Fin cfg0.N).val % 8 = 0 from h0]; exact r1)
        (by rw [show (⟨k, hk⟩ : Fin cfg0.N).val % 8 = 0 from h0]; exact r2) (by rw [show (⟨k, hk⟩ : Fin cfg0.N).val % 8 = 0 from h0]; exact r3)
      rw [show (outsAt (F := Ideal) m c k hk).2 = _ from e]
      exact st
    · have hk' : k - 1 < cfg0.N := Nat.lt_of_le_of_lt (Nat.sub_le _ _) hk
      obtain ⟨i0, i1, i2, i3⟩ := ih (k - 1) (by omega) hk' p
      have hm : (k - 1) % 8 + 1 = k % 8 := by omega
      rw [rowOf_pred k hk h0 p, hm] at i0 i1 i2 i3
      by_cases h1 : k % 8 = 7
      · have e := congrArg Prod.snd (outsAt_last (F := Ideal) m c ⟨k, hk⟩ h0 h1)
        rw [stLast_eq] at e
        have st := step_closed m c hs ⟨k, hk⟩ p _ _ _ _ i0 i1 i2 i3
        rw [show (outsAt (F := Ideal) m c k hk).2 = _ from e]
        exact st
      · have e := congrArg Prod.snd (outsAt_mid (F := Ideal) m c ⟨k, hk⟩ h0 h1)
        rw [stMid_eq] at e
        have st := step_closed m c hs ⟨k, hk⟩ p _ _ _ _ i0 i1 i2 i3
        rw [show (outsAt (F := Ideal) m c k hk).2 = _ from e]
        exact st

/-- THE RESULT BLOCK: at a row block's last key block the result column holds, at row `p`, the row's loss combined from its
    four totals. -/
theorem out_closed (hs : ∀ i j, ∃ r : ℝ, sim (m ((c : Thread nD τ).loc main_arg0)) i j = (r : EReal)) (k : ℕ) (hk : k < cfg0.N) (h7 : k % 8 = 7) (p : Fin 1024) :
    (outsAt (F := Ideal) m c k hk).1 (ix2 p (0 : Fin 1))
      = rowLossTotals (sim (m ((c : Thread nD τ).loc main_arg0))) (wgt (m ((c : Thread nD τ).loc main_arg1))) epsW negOne (rowOf (k / 8) (by have := k_lt hk; omega) p) := by
  have h0 : ¬k % 8 = 0 := by omega
  have hk' : k - 1 < cfg0.N := Nat.lt_of_le_of_lt (Nat.sub_le _ _) hk
  obtain ⟨i0, i1, i2, i3⟩ := inv m c hs (k - 1) hk' p
  have hm : (k - 1) % 8 + 1 = k % 8 := by omega
  rw [rowOf_pred k hk h0 p, hm] at i0 i1 i2 i3
  have e := congrArg Prod.fst (outsAt_last (F := Ideal) m c ⟨k, hk⟩ h0 h7)
  rw [stLast_eq] at e
  obtain ⟨n0, n1, n2, n3⟩ := step_closed m c hs ⟨k, hk⟩ p _ _ _ _ i0 i1 i2 i3
  rw [show (outsAt (F := Ideal) m c k hk).1 = _ from e]
  unfold newOut
  refine (pay2_apply _ _ _ _ p 0).trans ?_
  rw [n0, n1, n2, n3, show (⟨k, hk⟩ : Fin cfg0.N).val % 8 + 1 = 8 from by show k % 8 + 1 = 8; omega,
    maxSeen_eight, expSeen_eight, wsSeen_eight, wSeen_eight]
  rfl

end Cert.KernelIdeal.Hand

end
-- ==== Proof.KI.Final.lean ====
import proofs.«138990_j86655260164850_1_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The result after all write-backs

Row block `b` of the result, 1024 rows, is written back once: at the row block's last key block, point `8b + 7`. So the
whole result is one column: row `n` is row `n % 1024` of what point `8 (n / 1024) + 7` stored. -/

/-- The last point of the row block holding row `n` is a point of the grid. -/
theorem lastPt_lt (n : ℕ) (hn : n < 8192) : 8 * (n / 1024) + 7 < cfg0.N := by
  have : cfg0.N = 64 := N_0
  omega

/-- The result as one column of 8192 rows. -/
def resultCol (c : Dev nD) : S8192x1.Idx → Elt F .f32 := fun j =>
  (outsAt m c (8 * ((j 0).val / 1024) + 7) (lastPt_lt _ (idx2_lt0 j))).1
    (ix2 (⟨(j 0).val % 1024, Nat.mod_lt _ (by decide)⟩ : Fin 1024) (0 : Fin 1))

/-- Reading the column at row `j`: any spelling of the row block's last point and of the row inside the block. -/
theorem resultCol_apply (c : Dev nD) (j : S8192x1.Idx) (n : ℕ) (hn : n < cfg0.N) (x : S1024x1.Idx)
    (e : 8 * ((j 0).val / 1024) + 7 = n) (ex : (x 0).val = (j 0).val % 1024) :
    resultCol m c j = (outsAt m c n hn).1 x := by
  subst e
  unfold resultCol
  refine congrArg _ (funext fun a => Fin.ext ?_)
  match a with
  | ⟨0, _⟩ => exact ex.symm
  | ⟨1, _⟩ => show 0 = (x 1).val; have := idx2_lt1 x; omega

/-- What a writing point writes back is its block of that column: its row block is `t / 8` and it is the block's last
    point, so `8 (t / 8) + 7 = t`. -/
theorem flushed6_eq (c : Dev nD) (t : Fin cfg0.N) (hf : (cfg0.win 6).flush t = true) :
    (dats m 0 c).flushed 6 t = ((cfg0.win 6).blk t).view.read (Elt F) (resultCol m c) := by
  show (cfg0.win 6).cut (grid0.coords t) ((dats m 0 c).after 6 t) = _
  rw [after6]
  have h7 : t.val % 8 = 7 := (flush0_6 t).mp hf
  have hlt := t_lt t
  obtain ⟨-, -, -, -, -, -, -, -, -, -, -, -, e60, e61⟩ := idx_facts t
  funext j
  have hj0 : (j 0).val < 1024 := (j 0).isLt
  have hj1 : (j 1).val < 1 := (j 1).isLt
  show (outsAt m c t.val t.isLt).1 j = resultCol m c (((cfg0.win 6).blk t).view.emb j)
  refine (resultCol_apply m c _ t.val t.isLt j ?_ ?_).symm
  · show 8 * ((win0_6.index t (0 : Fin 2) * 1024 + 1 * (j 0).val) / 1024) + 7 = t.val
    rw [e60]; omega
  · show (j 0).val = (win0_6.index t (0 : Fin 2) * 1024 + 1 * (j 0).val) % 1024
    rw [e60]; omega

/-- A row of the column is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v8).slice (win0_6.rect t)).set ↔ _
  rw [View.set_slice_whole, Rect.mem_set_unit]
  exact Iff.rfl

/-- Every row is in the block of its row block's last point, which writes back. -/
theorem covered6 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  refine ⟨⟨8 * ((i 0).val / 1024) + 7, lastPt_lt _ hi0⟩, ?_, ?_⟩
  · exact (flush0_6 _).mpr (by show (8 * ((i 0).val / 1024) + 7) % 8 = 7; omega)
  · obtain ⟨-, -, -, -, -, -, -, -, -, -, -, -, e60, e61⟩ := idx_facts ⟨8 * ((i 0).val / 1024) + 7, lastPt_lt _ hi0⟩
    have e60' : win0_6.index ⟨8 * ((i 0).val / 1024) + 7, lastPt_lt _ hi0⟩ (0 : Fin 2) = (8 * ((i 0).val / 1024) + 7) / 8 := e60
    rw [mem_blk6]
    intro a
    match a with
    | ⟨0, _⟩ =>
      show win0_6.index ⟨8 * ((i 0).val / 1024) + 7, lastPt_lt _ hi0⟩ (0 : Fin 2) * 1024 ≤ (i 0).val
        ∧ (i 0).val < win0_6.index ⟨8 * ((i 0).val / 1024) + 7, lastPt_lt _ hi0⟩ (0 : Fin 2) * 1024 + 1024
      rw [e60']; omega
    | ⟨1, _⟩ =>
      show win0_6.index ⟨8 * ((i 0).val / 1024) + 7, lastPt_lt _ hi0⟩ (1 : Fin 2) * 1 ≤ (i 1).val
        ∧ (i 1).val < win0_6.index ⟨8 * ((i 0).val / 1024) + 7, lastPt_lt _ hi0⟩ (1 : Fin 2) * 1 + 1
      rw [e61]; omega

/-- After all write-backs the result's array is that column. -/
theorem result_eq (c : Dev nD) : (dats m 0 c).arrAt 6 cfg0.N = resultCol m c :=
  (dats m 0 c).arrAt_eq_of_cover 6 (resultCol m c) (fun t hf => flushed6_eq m c t hf) covered6

/-- After all write-backs, row `r` of row block `b` of the result is row `r` of what the block's last point stored. -/
theorem result_row (c : Dev nD) (b : ℕ) (hb : b < 8) (r : Fin 1024) :
    (dats m 0 c).arrAt 6 cfg0.N (ix2 (rowOf b hb r) (0 : Fin 1))
      = (outsAt m c (8 * b + 7) (by have : cfg0.N = 64 := N_0; omega)).1 (ix2 r (0 : Fin 1)) := by
  rw [result_eq]
  have hr := r.isLt
  exact resultCol_apply m c _ _ _ _
    (by show 8 * ((1024 * b + r.val) / 1024) + 7 = 8 * b + 7; omega)
    (by show r.val = (1024 * b + r.val) % 1024; omega)

end Cert.KernelIdeal.Hand

end
-- ==== Proof.KI.Value.lean ====
import proofs.«138990_j86655260164850_1_alg».proof.Proof.KI.Inv
import proofs.«138990_j86655260164850_1_alg».proof.Proof.KI.Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon

variable (m : (ℓ : Loc nD τ sig) → Buf (Elt Ideal) ℓ) (c : Dev nD)

/-- Row `r` of row block `b` of the result's array, after the run: that anchor's loss, combined from its four totals. -/
theorem arr_block_row (hs : ∀ i j, ∃ r : ℝ, sim (m ((c : Thread nD τ).loc main_arg0)) i j = (r : EReal)) (b : ℕ) (hb : b < 8) (r : Fin 1024) :
    (dats (F := Ideal) m 0 c).arrAt 6 cfg0.N (ix2 (rowOf b hb r) (0 : Fin 1))
      = rowLossTotals (sim (m ((c : Thread nD τ).loc main_arg0))) (wgt (m ((c : Thread nD τ).loc main_arg1))) epsW negOne (rowOf b hb r) := by
  rw [result_row]
  have h := out_closed m c hs (8 * b + 7) (by have : cfg0.N = 64 := N_0; omega) (by omega) r
  rw [h]
  refine congrArg (rowLossTotals (sim (m ((c : Thread nD τ).loc main_arg0))) (wgt (m ((c : Thread nD τ).loc main_arg1))) epsW negOne) ?_
  unfold rowOf; exact Fin.ext (by show 1024 * ((8 * b + 7) / 8) + r.val = 1024 * b + r.val; omega)

/-- Every row of the result's array. -/
theorem arr_row (hs : ∀ i j, ∃ r : ℝ, sim (m ((c : Thread nD τ).loc main_arg0)) i j = (r : EReal)) (n : Fin 8192) :
    (dats (F := Ideal) m 0 c).arrAt 6 cfg0.N (ix2 n (0 : Fin 1)) = rowLossTotals (sim (m ((c : Thread nD τ).loc main_arg0))) (wgt (m ((c : Thread nD τ).loc main_arg1))) epsW negOne n := by
  have hb : n.val / 1024 < 8 := by have := n.isLt; omega
  have hn : rowOf (n.val / 1024) hb ⟨n.val % 1024, Nat.mod_lt _ (by decide)⟩ = n :=
    Fin.ext (by show 1024 * (n.val / 1024) + n.val % 1024 = n.val; omega)
  have h := arr_block_row m c hs (n.val / 1024) hb ⟨n.val % 1024, Nat.mod_lt _ (by decide)⟩
  rwa [hn] at h

/-- THE KERNEL'S VALUE: the loss the program leaves is the mean over the anchors of the rows' losses, each combined from its
    four totals. -/
theorem kernel_value (hs : ∀ i j, ∃ r : ℝ, sim (m ((c : Thread nD τ).loc main_arg0)) i j = (r : EReal)) :
    resultAt (F := Ideal) m c = fun _ => lossTotals (m ((c : Thread nD τ).loc main_arg0)) (m ((c : Thread nD τ).loc main_arg1)) := by
  rw [resultAt_eq]
  funext _
  unfold lossTotals
  exact congrArg (Ideal.div · count) (Finset.sum_congr rfl fun n _ => arr_row m c hs n)

end Cert.KernelIdeal.Hand

end
-- ==== Proof.RefIsSpec.lean ====
import proofs.«138990_j86655260164850_1_alg».proof.Proof.Gen.ReferenceIdeal.Read
import proofs.«138990_j86655260164850_1_alg».proof.Proof.Spec
import Idealize.ShloMosaic.Lib.ValueIdx
import Idealize.ShloMosaic.Lib.Pipeline.Value
import Idealize.ShloMosaic.PureOps.Ideal.Laws

noncomputable section

/-! # The reference program computes the specification's loss

Each quantity of the reference, read at explicit coordinates, is the specification's quantity of the same name:
the flattened features and the repeated labels, the labels' lengths, the similarities, the off-diagonal indicator,
the weights, each row's largest similarity, each row's sum of exponentials, each row's loss, and their mean. -/

namespace Cert.SupCon.Ref

open Cert.ReferenceIdeal Cert.ReferenceIdeal.Gen Idealize.ShloMosaic Idealize.ShloMosaic.StableHlo Cert.SupCon

/-- The two argument arrays, as the reference program types them. -/
abbrev X0 : Type := (⟨S4096x2x128, .f32⟩ : BufTy).Contents (Elt Ideal)
abbrev X1 : Type := (⟨S4096x100, .f32⟩ : BufTy).Contents (Elt Ideal)

/-! ## The anchors: a row-major reshape puts view `t` of sample `b` at row `2b + t` -/

/-- The flattened features at `(n, d)` are feature `d` of anchor `n`. -/
theorem feat_at (x0 : X0) (n : Fin 8192) (d : Fin 128) :
    Read.val_main_v3 (F := Ideal) x0 (ValueIdx.ix2 n d) = feat x0 n d := by
  rw [Read.val_main_v3_apply]
  unfold feat
  refine congrArg x0 (funext fun a => Fin.ext ?_)
  have hn := n.isLt
  have hd := d.isLt
  match a with
  | ⟨0, _⟩ => show (n.val * 128 + d.val) / 256 = n.val / 2; omega
  | ⟨1, _⟩ => show (n.val * 128 + d.val) / 128 % 2 = n.val % 2; omega
  | ⟨2, _⟩ => show (n.val * 128 + d.val) % 128 = d.val; omega

/-- The repeated labels at `(n, k)` are label `k` of anchor `n`: both views of a sample carry its label row. -/
theorem lab_at (x1 : X1) (n : Fin 8192) (k : Fin 100) :
    Read.val_main_v2 (F := Ideal) x1 (ValueIdx.ix2 n k) = lab x1 n k := by
  rw [Read.val_main_v2_apply, Read.val_main_v1_apply, Read.val_main_v0_apply]
  unfold lab
  refine congrArg x1 (funext fun a => Fin.ext ?_)
  have hn := n.isLt
  have hk := k.isLt
  match a with
  | ⟨0, _⟩ => show (n.val * 100 + k.val) / 200 = n.val / 2; omega
  | ⟨1, _⟩ => show (n.val * 100 + k.val) % 100 = k.val; omega

/-! ## The labels' lengths -/

/-- The norm at anchor `n` is the length of its label row: the sum of squares starts from the zero word. -/
theorem norm_at (x1 : X1) (n : Fin 8192) (z : Fin 1) :
    Read.val_main_v4 (F := Ideal) x1 (ValueIdx.ix2 n z) = labNorm x1 n := by
  rw [Read.val_main_v4_apply, Read.val_main_call0_v2_apply, Read.val_main_call0_v1_apply, Read.val_main_call0_cst_apply]
  unfold labNorm
  rw [Ideal.hostUnary_sqrt_def, Ideal.ofBits_def, Ideal.ofBits_zero_f32, zero_add]
  refine congrArg Ideal.sqrt (Finset.sum_congr rfl fun k _ => ?_)
  rw [Read.val_main_call0_v0_apply, Ideal.mulf_def]
  have e : Read.idx_main_call0_v1 (Read.idx_main_call0_v2 (ValueIdx.ix2 n z)) k = ValueIdx.ix2 n k :=
    funext fun a => Fin.ext (by match a with | ⟨0, _⟩ => rfl | ⟨1, _⟩ => rfl)
  rw [e, lab_at]

/-! ## The similarities -/

/-- The temperature's word denotes `9395241 / 2^27`, the single-precision number nearest `0.07`. -/
theorem temp_lit : Ideal.ofBits .f32 0x3D8F5C29#32 = ((9395241 / 134217728 : ℝ) : EReal) := by
  simp [Ideal.ofBits, Ideal.ieee, -EReal.coe_mul]; norm_num

/-- The feature Gram matrix at `(i, j)` is the inner product of the two anchors' feature rows. -/
theorem gram_at (x0 : X0) (i j : Fin 8192) :
    Read.val_main_v20 (F := Ideal) x0 (ValueIdx.ix2 i j) = ∑ d : Fin 128, feat x0 i d * feat x0 j d := by
  rw [Read.val_main_v20_apply]
  refine Finset.sum_congr rfl fun d _ => ?_
  rw [Read.val_main_v19_apply]
  have el : Read.lidx_main_v20 (ValueIdx.ix2 i j) d = ValueIdx.ix2 i d :=
    funext fun a => Fin.ext (by match a with | ⟨0, _⟩ => rfl | ⟨1, _⟩ => rfl)
  have er : Read.idx_main_v19 (Read.ridx_main_v20 (ValueIdx.ix2 i j) d) = ValueIdx.ix2 j d :=
    funext fun a => Fin.ext (by match a with | ⟨0, _⟩ => rfl | ⟨1, _⟩ => rfl)
  rw [el, er, feat_at, feat_at]

/-- Dividing by the temperature is multiplying by its reciprocal, at the infinities too. -/
theorem sim_at (x0 : X0) (i j : Fin 8192) :
    Read.val_main_v22 (F := Ideal) x0 (ValueIdx.ix2 i j) = sim x0 i j := by
  rw [Read.val_main_v22_apply, Read.val_main_v21_apply, Read.val_main_cst_0_apply, gram_at, Ideal.hostDivf_def,
    Ideal.ofBits_def, temp_lit, Ideal.div_coe (by norm_num)]
  unfold sim invTemp
  rw [show (1 / (9395241 / 134217728) : ℝ) = 134217728 / 9395241 by norm_num]

/-! ## The off-diagonal indicator -/

/-- The word `0x3F800000` denotes `1`. -/
theorem one_lit : Ideal.ofBits .f32 0x3F800000#32 = 1 := by
  simp [Ideal.ofBits, Ideal.ieee, -EReal.coe_mul]; norm_num

/-- Row and column numbers below `2^32` compare equal as 32-bit words exactly when they are equal. -/
theorem eye_bit (i j : Fin 8192) :
    IntOp.cmpi .eq (IntOp.addi (BitVec.ofNat 32 i.val) 0#32) (BitVec.ofNat 32 j.val) = if i = j then 1#1 else 0#1 := by
  unfold IntOp.cmpi IntOp.addi
  rw [BitVec.add_zero]
  by_cases h : i = j
  · subst h; simp
  · rw [if_neg h]
    have hne : ¬ BitVec.ofNat 32 i.val = BitVec.ofNat 32 j.val := by
      intro e
      have e' := congrArg BitVec.toNat e
      rw [BitVec.toNat_ofNat, BitVec.toNat_ofNat, Nat.mod_eq_of_lt (by have := i.isLt; omega),
        Nat.mod_eq_of_lt (by have := j.isLt; omega)] at e'
      exact h (Fin.ext e')
    show BitVec.ofBool (BitVec.ofNat 32 i.val == BitVec.ofNat 32 j.val) = 0#1
    rw [beq_eq_false_iff_ne.2 hne]
    rfl

/-- `1 − eye` at `(i, j)` is `0` on the diagonal and `1` off it. -/
theorem off_at (i j : Fin 8192) : Read.val_main_v17 (F := Ideal) (ValueIdx.ix2 i j) = off i j := by
  rw [Read.val_main_v17_apply, Read.val_main_v16_apply, Read.val_main_cst_apply, Read.val_main_v15_apply,
    Read.val_main_v14_apply, Read.val_main_v13_apply, Read.val_main_v10_apply, Read.val_main_v11_apply,
    Read.val_main_v12_apply, Read.val_main_c_apply]
  show Ideal.ofBits .f32 0x3F800000#32
    - (((IntOp.cmpi .eq (IntOp.addi (BitVec.ofNat 32 i.val) 0#32) (BitVec.ofNat 32 j.val)).toNat : ℝ) : EReal) = off i j
  rw [eye_bit, one_lit]
  unfold off
  by_cases h : i = j
  · rw [if_pos h, if_pos h]
    show (1 : EReal) - (((1 : ℕ) : ℝ) : EReal) = 0
    rw [Nat.cast_one, EReal.coe_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

/-! ## The weights -/

/-- The label Gram matrix at `(i, j)` is the inner product of the two anchors' label rows. -/
theorem labGram_at (x1 : X1) (i j : Fin 8192) :
    Read.val_main_v6 (F := Ideal) x1 (ValueIdx.ix2 i j) = ∑ k : Fin 100, lab x1 i k * lab x1 j k := by
  rw [Read.val_main_v6_apply]
  refine Finset.sum_congr rfl fun k _ => ?_
  rw [Read.val_main_v5_apply]
  have el : Read.lidx_main_v6 (ValueIdx.ix2 i j) k = ValueIdx.ix2 i k :=
    funext fun a => Fin.ext (by match a with | ⟨0, _⟩ => rfl | ⟨1, _⟩ => rfl)
  have er : Read.idx_main_v5 (Read.ridx_main_v6 (ValueIdx.ix2 i j) k) = ValueIdx.ix2 j k :=
    funext fun a => Fin.ext (by match a with | ⟨0, _⟩ => rfl | ⟨1, _⟩ => rfl)
  rw [el, er, lab_at, lab_at]

/-- The outer product of the lengths is a sum over an axis of extent one: its single term. -/
theorem normOuter_at (x1 : X1) (i j : Fin 8192) :
    Read.val_main_v8 (F := Ideal) x1 (ValueIdx.ix2 i j) = labNorm x1 i * labNorm x1 j := by
  rw [Read.val_main_v8_apply, Fin.sum_univ_one, Read.val_main_v7_apply]
  have el : Read.lidx_main_v8 (ValueIdx.ix2 i j) 0 = ValueIdx.ix2 i (0 : Fin 1) :=
    funext fun a => Fin.ext (by match a with | ⟨0, _⟩ => rfl | ⟨1, _⟩ => rfl)
  have er : Read.idx_main_v7 (Read.ridx_main_v8 (ValueIdx.ix2 i j) 0) = ValueIdx.ix2 j (0 : Fin 1) :=
    funext fun a => Fin.ext (by match a with | ⟨0, _⟩ => rfl | ⟨1, _⟩ => rfl)
  rw [el, er, norm_at, norm_at]

/-- The mask at `(i, j)` is the cosine of the two label rows, zeroed on the diagonal. -/
theorem wgt_at (x1 : X1) (i j : Fin 8192) :
    Read.val_main_v18 (F := Ideal) x1 (ValueIdx.ix2 i j) = wgt x1 i j := by
  rw [Read.val_main_v18_apply, Read.val_main_v9_apply, labGram_at, normOuter_at, off_at, Ideal.mulf_def,
    Ideal.hostDivf_def]
  rfl

/-! ## Each row's largest similarity -/

/-- The word `0xFF800000` denotes `−∞`. -/
theorem bot_lit : Ideal.ofBits .f32 0xFF800000#32 = ⊥ := by
  simp [Ideal.ofBits, Ideal.ieee]

/-- The maximum over the columns, from `−∞`, at row `i` is the fold of `max` over that row's similarities. -/
theorem rowMax_at (x0 : X0) (i : Fin 8192) :
    Read.val_main_v23 (F := Ideal) x0 (ValueIdx.ix1 i) = rowMax (sim x0) i := by
  have h : S8192x8192.Reduces [1] S8192 := by decide
  unfold Read.val_main_v23
  rw [Host.reduce_eq_fold_single FloatOps.maximumf _ _ reducesTo_S8192x8192_S8192_d1 h h_S_,
    Read.val_main_cst_1_apply, Ideal.ofBits_def, bot_lit]
  have hf : (Read.val_main_v22 (F := Ideal) x0 ∘ h.lift (ValueIdx.ix1 i))
      = fun k => sim x0 i (⟨k.val, k.isLt⟩ : Fin 8192) := funext fun k => by
    show Read.val_main_v22 (F := Ideal) x0 (h.lift (ValueIdx.ix1 i) k) = sim x0 i (⟨k.val, k.isLt⟩ : Fin 8192)
    rw [show h.lift (ValueIdx.ix1 i) k = ValueIdx.ix2 i (⟨k.val, k.isLt⟩ : Fin 8192) from
      funext fun c => Fin.ext (by fin_cases c <;> rfl), sim_at]
  rw [hf]
  rfl

/-! ## Each row's sum of exponentials -/

/-- The logits at `(i, j)`: the similarity less the row's largest. -/
theorem logit_at (x0 : X0) (i j : Fin 8192) :
    Read.val_main_v26 (F := Ideal) x0 (ValueIdx.ix2 i j) = sim x0 i j - rowMax (sim x0) i := by
  rw [Read.val_main_v26_apply, Read.val_main_v25_apply, Read.val_main_v24_apply, sim_at, Ideal.subf_def]
  have e : Read.idx_main_v24 (Read.idx_main_v25 (ValueIdx.ix2 i j)) = ValueIdx.ix1 i :=
    funext fun a => Fin.ext (by match a with | ⟨0, _⟩ => rfl)
  rw [e, rowMax_at]

/-- The off-diagonal sum of the exponentials of row `i`'s logits, from the zero word. -/
theorem rowExp_at (x0 : X0) (i : Fin 8192) :
    Read.val_main_v29 (F := Ideal) x0 (ValueIdx.ix1 i) = rowExp (sim x0) i := by
  rw [Read.val_main_v29_apply, Read.val_main_cst_2_apply, Ideal.ofBits_def, Ideal.ofBits_zero_f32, zero_add]
  unfold rowExp
  refine Finset.sum_congr rfl fun k _ => ?_
  have e : Read.idx_main_v29 (ValueIdx.ix1 i) k = ValueIdx.ix2 i k :=
    funext fun a => Fin.ext (by match a with | ⟨0, _⟩ => rfl | ⟨1, _⟩ => rfl)
  rw [e, Read.val_main_v28_apply, Read.val_main_v27_apply, logit_at, off_at, Ideal.mulf_def, Ideal.hostUnary_exp_def]

/-! ## Each row's loss -/

/-- The log-probability at `(i, j)`: the logit less the logarithm of the row's sum of exponentials. -/
theorem logProb_at (x0 : X0) (i j : Fin 8192) :
    Read.val_main_v33 (F := Ideal) x0 (ValueIdx.ix2 i j)
      = (sim x0 i j - rowMax (sim x0) i) - Ideal.log (rowExp (sim x0) i) := by
  rw [Read.val_main_v33_apply, Read.val_main_v32_apply, Read.val_main_v31_apply, Read.val_main_v30_apply, logit_at,
    Ideal.subf_def, Ideal.hostUnary_log_def]
  have e : Read.idx_main_v30 (Read.idx_main_v32 (ValueIdx.ix2 i j)) = ValueIdx.ix1 i :=
    funext fun a => Fin.ext (by match a with | ⟨0, _⟩ => rfl)
  rw [e, rowExp_at]

/-- The total weight of row `i`, from the zero word. -/
theorem wSum_at (x1 : X1) (i : Fin 8192) :
    Read.val_main_v36 (F := Ideal) x1 (ValueIdx.ix1 i) = ∑ j, wgt x1 i j := by
  rw [Read.val_main_v36_apply, Read.val_main_cst_4_apply, Ideal.ofBits_def, Ideal.ofBits_zero_f32, zero_add]
  refine Finset.sum_congr rfl fun k _ => ?_
  have e : Read.idx_main_v36 (ValueIdx.ix1 i) k = ValueIdx.ix2 i k :=
    funext fun a => Fin.ext (by match a with | ⟨0, _⟩ => rfl | ⟨1, _⟩ => rfl)
  rw [e, wgt_at]

/-- The weighted sum of row `i`'s log-probabilities, from the zero word. -/
theorem wLogProbSum_at (x0 : X0) (x1 : X1) (i : Fin 8192) :
    Read.val_main_v35 (F := Ideal) x0 x1 (ValueIdx.ix1 i)
      = ∑ j, wgt x1 i j * ((sim x0 i j - rowMax (sim x0) i) - Ideal.log (rowExp (sim x0) i)) := by
  rw [Read.val_main_v35_apply, Read.val_main_cst_3_apply, Ideal.ofBits_def, Ideal.ofBits_zero_f32, zero_add]
  refine Finset.sum_congr rfl fun k _ => ?_
  have e : Read.idx_main_v35 (ValueIdx.ix1 i) k = ValueIdx.ix2 i k :=
    funext fun a => Fin.ext (by match a with | ⟨0, _⟩ => rfl | ⟨1, _⟩ => rfl)
  rw [e, Read.val_main_v34_apply, wgt_at, logProb_at, Ideal.mulf_def]

/-- Row `i`'s loss: the sign times the weighted sum over the total weight plus the small constant. The sign and the
    small constant stay the words both programs carry. -/
theorem rowLoss_at (x0 : X0) (x1 : X1) (i : Fin 8192) :
    Read.val_main_v41 (F := Ideal) x0 x1 (ValueIdx.ix1 i) = rowLossLogProb (sim x0) (wgt x1) epsW negOne i := by
  rw [Read.val_main_v41_apply, Read.val_main_v40_apply, Read.val_main_cst_6_apply, Read.val_main_v39_apply,
    Read.val_main_v38_apply, Read.val_main_v37_apply, Read.val_main_cst_5_apply, wLogProbSum_at, wSum_at]
  rfl

/-! ## The mean over the anchors -/

/-- A rank-1 index is its one coordinate. -/
def idxEquiv1 {n : Nat} : (⟨1, ![n]⟩ : Shape).Idx ≃ Fin n where
  toFun j := j 0
  invFun := ValueIdx.ix1
  left_inv j := (ValueIdx.eq_ix1 j).symm
  right_inv _ := rfl

/-- The reference's result is the specification's loss: the sum of the rows' losses, from the zero word, over the
    count's word. -/
theorem ref_eq (x0 : (⟨S4096x2x128, .f32⟩ : BufTy).Contents (Elt Ideal))
    (x1 : (⟨S4096x100, .f32⟩ : BufTy).Contents (Elt Ideal)) :
    Read.val_main_v43 (F := Ideal) x0 x1 = fun _ => lossLogProb x0 x1 := by
  funext i
  rw [Read.val_main_v43_apply, Read.val_main_v42_apply, Read.val_main_cst_7_apply, Read.val_main_cst_8_apply,
    Ideal.ofBits_def, Ideal.ofBits_zero_f32, zero_add,
    ← Equiv.sum_comp (idxEquiv1 (n := 8192)).symm (Read.val_main_v41 (F := Ideal) x0 x1)]
  unfold lossLogProb count
  refine congrArg (fun s => Ideal.div s (Ideal.ofBits .f32 0x46000000#32)) (Finset.sum_congr rfl fun a _ => ?_)
  exact rowLoss_at x0 x1 a

end Cert.SupCon.Ref

end
-- ==== Proof.RowAlgebra.lean ====
import proofs.«138990_j86655260164850_1_alg».proof.Proof.Spec
import Idealize.ShloMosaic.PureOps.Ideal
import Mathlib.Data.EReal.Inv
import Mathlib.Analysis.SpecialFunctions.Log.Basic
import Mathlib.Analysis.SpecialFunctions.Sqrt
import Mathlib.Algebra.Order.BigOperators.Ring.Finset
import Mathlib.Tactic

noncomputable section

/-! # The two arrangements of a row's loss agree

Over the extended reals, with every similarity a real and every weight a real or −∞, the loss of a row combined from its
four totals equals the loss summed over its log-probabilities.

* If every weight of the row is a real, every quantity in sight is a real: the row's largest similarity (the row is not
  empty), the sum of exponentials (a sum of non-negative reals with at least one positive term, from an anchor other
  than the row's own), hence its logarithm. The two numerators are then equal by distributivity over the reals:
  Σ w·((s − m) − L) = Σ w·s − (m + L)·Σ w.
* If some weight is −∞, the total weight is −∞ (−∞ + x = −∞ for every x), so is the denominator, and a quotient by −∞
  is 0 whatever the numerator: both sides are c · 0.

The similarities of the argument arrays are reals (finite sums of products of reals, times a real), and a weight is a
real or −∞: the cosine is a quotient of reals, a real unless the product of the two lengths is 0; in that case one label
row is all zeros, the numerator is 0, and 0 / 0 is −∞ by convention; off the diagonal it stays −∞, on it −∞ · 0 = 0. -/

namespace Cert.SupCon

open Idealize.ShloMosaic

/-- A finite sum of reals taken in the extended reals is the real sum. -/
theorem coe_sum_real {ι : Type} (t : Finset ι) (f : ι → ℝ) :
    (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- The largest of finitely many reals, at least one of them, folded from −∞, is a real. -/
theorem fold_max_real {ι : Type} [DecidableEq ι] (t : Finset ι) (f : ι → ℝ) (ht : t.Nonempty) :
    ∃ m : ℝ, t.fold max ⊥ (fun j => (f j : EReal)) = (m : EReal) := by
  induction t using Finset.induction_on with
  | empty => exact absurd ht (by simp)
  | insert a t ha ih =>
    rw [Finset.fold_insert ha]
    rcases t.eq_empty_or_nonempty with h | h
    · subst h
      exact ⟨f a, by simp⟩
    · obtain ⟨m, hm⟩ := ih h
      exact ⟨max (f a) m, by rw [hm]; exact (EReal.coe_strictMono.monotone.map_max).symm⟩

/-- A quotient by −∞ is 0, whatever the numerator: the inverse of −∞ is 0, and x · 0 = 0 at the infinities too. -/
theorem div_bot (x : EReal) : Ideal.div x ⊥ = 0 := by
  rw [Ideal.div, if_neg (by simp), EReal.inv_bot, mul_zero]

theorem rowLoss_eq {J : Type} [Fintype J] [DecidableEq J] (S W : J → J → EReal) (e c : EReal) (i : J)
    (hS : ∀ j, ∃ r : ℝ, S i j = (r : EReal)) (hW : ∀ j, (∃ r : ℝ, W i j = (r : EReal)) ∨ W i j = ⊥)
    (hother : ∃ j, j ≠ i) :
    rowLossTotals S W e c i = rowLossLogProb S W e c i := by
  by_cases hbot : ∃ j, W i j = ⊥
  · -- a weight is −∞: the total weight and the denominator are −∞, both quotients are 0
    obtain ⟨j0, hj0⟩ := hbot
    have hsum : (∑ j, W i j) = ⊥ := by
      rw [← Finset.add_sum_erase _ _ (Finset.mem_univ j0), hj0, EReal.bot_add]
    have hden : (∑ j, W i j) + e = ⊥ := by rw [hsum, EReal.bot_add]
    unfold rowLossTotals rowLossLogProb
    rw [hden, div_bot, div_bot]
  · -- every weight is a real: everything is a real
    have hWr : ∀ j, ∃ r : ℝ, W i j = (r : EReal) := fun j =>
      (hW j).resolve_right (fun h => hbot ⟨j, h⟩)
    choose s hs using hS
    choose w hw using hWr
    -- the largest similarity
    obtain ⟨m, hm⟩ : ∃ m : ℝ, rowMax S i = (m : EReal) := by
      have hfun : S i = fun j => (s j : EReal) := funext hs
      unfold rowMax
      rw [hfun]
      exact fold_max_real _ s ⟨i, Finset.mem_univ i⟩
    -- the sum of exponentials, a positive real
    have hoff : ∀ j, off i j = (((if i = j then 0 else 1 : ℝ)) : EReal) := by
      intro j
      unfold off
      split_ifs <;> simp
    have hE : rowExp S i = ((∑ j, Real.exp (s j - m) * (if i = j then 0 else 1) : ℝ) : EReal) := by
      unfold rowExp
      rw [← coe_sum_real]
      refine Finset.sum_congr rfl (fun j _ => ?_)
      rw [hs j, hm, ← EReal.coe_sub, Ideal.exp_coe, hoff j, ← EReal.coe_mul]
    have hEpos : 0 < ∑ j, Real.exp (s j - m) * (if i = j then 0 else 1 : ℝ) := by
      obtain ⟨j0, hj0⟩ := hother
      refine Finset.sum_pos' (fun j _ => ?_) ⟨j0, Finset.mem_univ _, ?_⟩
      · split_ifs
        · simp
        · simpa using (Real.exp_pos _).le
      · rw [if_neg (Ne.symm hj0), mul_one]
        exact Real.exp_pos _
    obtain ⟨L, hL⟩ : ∃ L : ℝ, Ideal.log (rowExp S i) = (L : EReal) := by
      refine ⟨Real.log (∑ j, Real.exp (s j - m) * (if i = j then 0 else 1 : ℝ)), ?_⟩
      rw [hE, Ideal.log_coe, if_neg (not_le.mpr hEpos)]
    -- the four totals and the sum of log-probabilities, as reals
    have h1 : (∑ j, W i j * S i j) = ((∑ j, w j * s j : ℝ) : EReal) := by
      rw [← coe_sum_real]
      exact Finset.sum_congr rfl (fun j _ => by rw [hw j, hs j, EReal.coe_mul])
    have h2 : (∑ j, W i j) = ((∑ j, w j : ℝ) : EReal) := by
      rw [← coe_sum_real]
      exact Finset.sum_congr rfl (fun j _ => hw j)
    have h3 : (∑ j, W i j * ((S i j - rowMax S i) - Ideal.log (rowExp S i)))
        = ((∑ j, w j * ((s j - m) - L) : ℝ) : EReal) := by
      rw [← coe_sum_real]
      exact Finset.sum_congr rfl (fun j _ => by
        rw [hw j, hs j, hm, hL, ← EReal.coe_sub, ← EReal.coe_sub, ← EReal.coe_mul])
    have hreal : (∑ j, w j * ((s j - m) - L)) = (∑ j, w j * s j) - (m + L) * ∑ j, w j := by
      rw [Finset.mul_sum, ← Finset.sum_sub_distrib]
      exact Finset.sum_congr rfl (fun j _ => by ring)
    unfold rowLossTotals rowLossLogProb
    rw [h3, hreal, h1, hm, hL, h2, ← EReal.coe_add, ← EReal.coe_mul, ← EReal.coe_sub]

/-! ## The similarities and the weights of the argument arrays -/

/-- A similarity of the argument arrays is a real: a finite sum of products of reals, times a real. -/
theorem sim_real (x : (⟨3, ![4096, 2, 128]⟩ : Shape).Idx → EReal) (hx : ∀ a, ∃ r : ℝ, x a = (r : EReal))
    (i j : Fin 8192) : ∃ r : ℝ, sim x i j = (r : EReal) := by
  have hfeat : ∀ n d, ∃ r : ℝ, feat x n d = (r : EReal) := fun n d => by
    unfold feat
    exact hx _
  choose g hg using hfeat
  obtain ⟨t, ht⟩ : ∃ t : ℝ, invTemp = (t : EReal) := ⟨_, rfl⟩
  refine ⟨(∑ d : Fin 128, g i d * g j d) * t, ?_⟩
  unfold sim
  rw [ht, EReal.coe_mul, ← coe_sum_real]
  congr 1
  exact Finset.sum_congr rfl (fun d _ => by rw [hg, hg, EReal.coe_mul])

/-- A weight of the argument arrays is a real or −∞. -/
theorem wgt_real_or_bot (y : (⟨2, ![4096, 100]⟩ : Shape).Idx → EReal) (hy : ∀ a, ∃ r : ℝ, y a = (r : EReal))
    (i j : Fin 8192) : (∃ r : ℝ, wgt y i j = (r : EReal)) ∨ wgt y i j = ⊥ := by
  have hlab : ∀ n k, ∃ r : ℝ, lab y n k = (r : EReal) := fun n k => by
    unfold lab
    exact hy _
  choose l hl using hlab
  -- the numerator of the cosine is a real
  have hnum : (∑ k : Fin 100, lab y i k * lab y j k) = ((∑ k, l i k * l j k : ℝ) : EReal) := by
    rw [← coe_sum_real]
    exact Finset.sum_congr rfl (fun k _ => by rw [hl, hl, EReal.coe_mul])
  -- a sum of squares of reals is a real that is not negative, so its square root is a real
  have hsqnn : ∀ n, 0 ≤ ∑ k, l n k * l n k := fun n => Finset.sum_nonneg (fun k _ => mul_self_nonneg _)
  have hnorm : ∀ n, labNorm y n = ((Real.sqrt (∑ k, l n k * l n k) : ℝ) : EReal) := by
    intro n
    have hsq : (∑ k : Fin 100, lab y n k * lab y n k) = ((∑ k, l n k * l n k : ℝ) : EReal) := by
      rw [← coe_sum_real]
      exact Finset.sum_congr rfl (fun k _ => by rw [hl, EReal.coe_mul])
    unfold labNorm
    rw [hsq, Ideal.sqrt_coe, if_neg (not_lt.mpr (hsqnn n))]
  -- a label row of length 0 is all zeros
  have hrow : ∀ n, Real.sqrt (∑ k, l n k * l n k) = 0 → ∀ k, l n k = 0 := by
    intro n h k
    have h0 : (∑ k, l n k * l n k) = 0 := le_antisymm (Real.sqrt_eq_zero'.mp h) (hsqnn n)
    have hk := (Finset.sum_eq_zero_iff_of_nonneg (fun k _ => mul_self_nonneg (l n k))).mp h0 k (Finset.mem_univ k)
    exact mul_self_eq_zero.mp hk
  have hoff : off i j = 0 ∨ off i j = 1 := by
    unfold off
    split_ifs
    · exact Or.inl rfl
    · exact Or.inr rfl
  unfold wgt
  rw [hnum, hnorm i, hnorm j, ← EReal.coe_mul]
  by_cases hP : Real.sqrt (∑ k, l i k * l i k) * Real.sqrt (∑ k, l j k * l j k) = 0
  · -- one of the two label rows is all zeros: the numerator is 0, and 0 / 0 is −∞
    have hzero : (∑ k, l i k * l j k) = 0 := by
      rcases mul_eq_zero.mp hP with h | h
      · exact Finset.sum_eq_zero (fun k _ => by rw [hrow i h k, zero_mul])
      · exact Finset.sum_eq_zero (fun k _ => by rw [hrow j h k, mul_zero])
    have hd : Ideal.div ((0 : ℝ) : EReal) ((0 : ℝ) : EReal) = ⊥ := by
      rw [Ideal.div, if_pos (by simp), if_neg (by simp)]
    rw [hP, hzero, hd]
    rcases hoff with h | h
    · exact Or.inl ⟨0, by rw [h, mul_zero, EReal.coe_zero]⟩
    · exact Or.inr (by rw [h, mul_one])
  · -- the product of the lengths is not 0: a quotient of reals
    left
    rw [Ideal.div_coe hP, ← EReal.coe_mul]
    rcases hoff with h | h
    · exact ⟨0, by rw [h, mul_zero, EReal.coe_zero]⟩
    · exact ⟨_, by rw [h, mul_one]⟩

/-- The two arrangements of the whole loss agree on real arguments. -/
theorem loss_eq (x : (⟨3, ![4096, 2, 128]⟩ : Shape).Idx → EReal) (y : (⟨2, ![4096, 100]⟩ : Shape).Idx → EReal)
    (hx : ∀ a, ∃ r : ℝ, x a = (r : EReal)) (hy : ∀ a, ∃ r : ℝ, y a = (r : EReal)) :
    lossTotals x y = lossLogProb x y := by
  unfold lossTotals lossLogProb
  refine congrArg (fun t => Ideal.div t count) ?_
  refine Finset.sum_congr rfl (fun i _ => ?_)
  exact rowLoss_eq (sim x) (wgt y) epsW negOne i (fun j => sim_real x hx i j)
    (fun j => wgt_real_or_bot y hy i j) (exists_ne i)

end Cert.SupCon

end
-- ==== Proof.FiniteInputs.lean ====
import proofs.«138990_j86655260164850_1_alg».proof.Defs
import proofs.«138990_j86655260164850_1_alg».proof.Proof.Gen.Pre_finite_inputs
import Idealize.ShloMosaic.Lib.ReduceAll
import Idealize.ShloMosaic.Lib.ValueIdx
import Idealize.ShloMosaic.PureOps.Ideal

noncomputable section

/-! # The precondition read back: every entry of the two argument arrays is a real

The precondition is the conjunction of two "all" tests, one per argument array: every entry `x` has
`|x| = max x (−x) < +∞`. Over the extended reals `|−∞| = |+∞| = +∞`, so an entry passing the test is neither
infinity: it is a real. -/

namespace Cert.SupCon.Finite

open Idealize.ShloMosaic Idealize.SL.Sem

/-- The shape of a scalar has exactly one index. -/
instance : Subsingleton Cert.Pre_finite_inputs.S_.Idx := ⟨fun a b => funext fun d => d.elim0⟩

/-- The word `0x7F800000` read as a single-precision number is `+∞`. -/
theorem inf_word : Ideal.ofBits .f32 0x7F800000#32 = (⊤ : EReal) := by
  simp [Ideal.ofBits, Ideal.ieee]

/-- An extended real whose absolute value `max x (−x)` is strictly below `+∞` is a real: at either infinity the
absolute value is `+∞`. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition, every entry of each of the two argument arrays is a real. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ a, ∃ r : ℝ, m ((c.tc : Thread Cert.KernelIdeal.nD Cert.KernelIdeal.τ).loc Cert.KernelIdeal.main_arg0) a = (r : EReal))
    ∧ (∀ a, ∃ r : ℝ, m ((c.tc : Thread Cert.KernelIdeal.nD Cert.KernelIdeal.τ).loc Cert.KernelIdeal.main_arg1) a = (r : EReal)) := by
  have e := congrFun (h c) ValueIdx.ix0
  dsimp only [Cert.Pre_finite_inputs.fn, andi] at e
  obtain ⟨e0, e1⟩ := IntOp.andi_eq_one.1 e
  refine ⟨fun a => ?_, fun a => ?_⟩
  · exact real_of_abs_lt_inf _ (Host.reduce_andi_all _ _ _ _ _ e0 a)
  · exact real_of_abs_lt_inf _ (Host.reduce_andi_all _ _ _ _ _ e1 a)

end Cert.SupCon.Finite

end
-- ==== Proof.lean ====
/- The supervised contrastive loss over all anchors (two views of 4096 samples: 8192 anchors, 128 features, 100 label
   entries): the kernel's program and the reference's compute the same number over the extended reals.

   The kernel walks an 8 × 8 grid of 1024 × 1024 tiles of the anchors' similarity matrix, key block fastest, keeping per row a
   running maximum, a running sum of exponentials against that maximum and two running weighted sums, and combines them at a
   row block's last key block; the reference forms every log-probability and sums. One constant is NAMED: the kernel
   multiplies the inner products by the folded reciprocal of the temperature where the reference divides by its own
   temperature literal, and the name reads the kernel's word as the exact reciprocal of that literal (as printed the two words'
   product is not 1 and the claim is false). With that name both programs equal the specification's loss: the kernel its
   arrangement by totals (the running quantities after k key blocks are the row's maximum and sums over the first 1024·k
   columns; rescaling the sum of exponentials when the maximum grows is exact over the reals), the reference its arrangement by
   log-probabilities; the two arrangements agree for finite inputs — by distributivity where every weight is a real, and where
   a label row is all zeros (a weight 0/0) because both denominators are then the junk value −∞ and every quotient by it is 0.

   The three frames: each kernel program by the launch of a one-region program whose windows share arrays and which
   continues after the region, over the body run once per control case; the reference's by its run. -/
import proofs.«138990_j86655260164850_1_alg».proof.Defs
import proofs.«138990_j86655260164850_1_alg».proof.Proof.Gen.Kernel
import proofs.«138990_j86655260164850_1_alg».proof.Proof.Gen.Kernel.Skeleton
import proofs.«138990_j86655260164850_1_alg».proof.Proof.Gen.Kernel.Launch
import proofs.«138990_j86655260164850_1_alg».proof.Proof.Gen.Kernel.Points
import proofs.«138990_j86655260164850_1_alg».proof.Proof.Gen.KernelIdeal
import proofs.«138990_j86655260164850_1_alg».proof.Proof.Gen.KernelIdeal.Skeleton
import proofs.«138990_j86655260164850_1_alg».proof.Proof.Gen.KernelIdeal.Launch
import proofs.«138990_j86655260164850_1_alg».proof.Proof.Gen.KernelIdeal.Points
import proofs.«138990_j86655260164850_1_alg».proof.Proof.Gen.ReferenceIdeal
import proofs.«138990_j86655260164850_1_alg».proof.Proof.Gen.Pre_finite_inputs
import proofs.«138990_j86655260164850_1_alg».proof.Proof.Gen.ReferenceIdeal.Run
import proofs.«138990_j86655260164850_1_alg».proof.Proof.Gen.ReferenceIdeal.Read
import proofs.«138990_j86655260164850_1_alg».proof.Proof.K.Launch
import proofs.«138990_j86655260164850_1_alg».proof.Proof.KI.Value
import proofs.«138990_j86655260164850_1_alg».proof.Proof.RefIsSpec
import proofs.«138990_j86655260164850_1_alg».proof.Proof.RowAlgebra
import proofs.«138990_j86655260164850_1_alg».proof.Proof.FiniteInputs
import Idealize.ShloMosaic.Adequacy
import Idealize.ShloMosaic.Init

noncomputable section

namespace Cert.Proof

open Idealize.ShloMosaic Idealize.SL.Sem Cert.SupCon

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one name of the idealization: the kernel's folded reciprocal of the temperature denotes, at the ideal reading, the exact
    reciprocal of the reference's own temperature literal. -/
theorem preserves : Cert.preserves_Kernel_KernelIdeal :=
  IdealRules.named_const.statement Cert.KernelIdeal.κ "inv_temperature" .f32 0x41649249#32 ((134217728 / 9395241 : ℝ) : EReal) rfl

/-- Both programs end at the specification's loss of their (agreeing) arguments: the kernel's by its four totals per row, the
    reference's by its log-probabilities; for finite inputs the two arrangements are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.SupCon.Finite.args_real m hpre c
  refine ⟨fun c => fun _ => lossTotals (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_value m c (fun i j => sim_real _ (hreal c).1 i j)), (h c).2.1, (h c).2.2⟩)
      (Cert.KernelIdeal.Hand.run m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v43_eq, Cert.SupCon.Ref.ref_eq, (hagree c).1, (hagree c).2]
    exact funext fun _ => (loss_eq _ _ (hreal c).1 (hreal c).2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
